-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  reducesTo_S10000x10000_S10000_d0 : S10000x10000.ReducesTo [0] S10000
  bcast_S_S10000 : S_.BroadcastsInDim S10000 (![] : Fin 0 → Fin S10000.rank)
  reducesTo_S10000_S_d0 : S10000.ReducesTo [0] S_
  reducesTo_S10000x10000_S10000_d1 : S10000x10000.ReducesTo [1] S10000

variable [Facts]

def fn_part2 {F : FTy → Type} [FloatOps F] (main_arg1 : FVec F S10000x10000 .f32) (main_v28 : IVec S_ 1) (main_v32 : IVec S_ 1) : IVec S_ 1 :=
  let main_v33 : IVec S_ 1 := andi main_v28 main_v32
  let main_cst_13 : FVec F S_ .f32 := constant S_ .f32 0x00000000#32
  let main_v34 : FVec F S10000 .f32 := (fun x v => Host.reduceAdd x v reducesTo_S10000x10000_S10000_d1 h_S_) main_arg1 main_cst_13
  let main_cst_14 : FVec F S_ .f32 := constant S_ .f32 0x00000000#32
  let main_v35 : FVec F S10000 .f32 := broadcastInDim S10000 ![] bcast_S_S10000 main_cst_14
  let main_v36 : IVec S10000 1 := cmpf .oge main_v34 main_v35
  let main_c_15 : IVec S_ 1 := constantI S_ 1 1#1
  let main_v37 : IVec S_ 1 := (fun x v => Host.reduce IntOp.andi x v reducesTo_S10000_S_d0 h_S_) main_v36 main_c_15
  let main_v38 : IVec S_ 1 := andi main_v33 main_v37
  main_v38

def fn_part1 {F : FTy → Type} [FloatOps F] (main_arg1 : FVec F S10000x10000 .f32) (main_arg4 : FVec F S32x128 .f32) (main_arg5 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_cst_10 : FVec F S_ .f32 := constant S_ .f32 0x00000000#32
  let main_v29 : FVec F S10000 .f32 := (fun x v => Host.reduceAdd x v reducesTo_S10000x10000_S10000_d0 h_S_) main_arg1 main_cst_10
  let main_cst_11 : FVec F S_ .f32 := constant S_ .f32 0x00000000#32
  let main_v30 : FVec F S10000 .f32 := broadcastInDim S10000 ![] bcast_S_S10000 main_cst_11
  let main_v31 : IVec S10000 1 := cmpf .oge main_v29 main_v30
  let main_c_12 : IVec S_ 1 := constantI S_ 1 1#1
  let main_v32 : IVec S_ 1 := (fun x v => Host.reduce IntOp.andi x v reducesTo_S10000_S_d0 h_S_) main_v31 main_c_12
  fn_part2 (F := F) main_arg1 main_v28 main_v32

def fn {F : FTy → Type} [FloatOps F] (main_arg0 : FVec F S10000x128 .f32) (main_arg1 : FVec F S10000x10000 .f32) (main_arg2 : FVec F S128x128 .f32) (main_arg3 : FVec F S128 .f32) (main_arg4 : FVec F S32x128 .f32) (main_arg5 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x128 : Shape := ⟨2, ![1, 128]⟩
abbrev S10000x1 : Shape := ⟨2, ![10000, 1]⟩
abbrev S80x10000 : Shape := ⟨2, ![80, 10000]⟩
abbrev S80x1 : Shape := ⟨2, ![80, 1]⟩
abbrev S128x32 : Shape := ⟨2, ![128, 32]⟩
abbrev S1x32 : Shape := ⟨2, ![1, 32]⟩
abbrev S10000x32 : Shape := ⟨2, ![10000, 32]⟩
abbrev S400x10000 : Shape := ⟨2, ![400, 10000]⟩
abbrev S400x1 : Shape := ⟨2, ![400, 1]⟩
abbrev S400x32 : Shape := ⟨2, ![400, 32]⟩
abbrev S400x128 : Shape := ⟨2, ![400, 128]⟩

abbrev nBuf : Space → Nat
  | .hbm => 15
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S32x128, .f32⟩
  | .hbm, ⟨5, _⟩ => ⟨S32, .f32⟩
  | .hbm, ⟨6, _⟩ => ⟨S128x128, .f32⟩
  | .hbm, ⟨7, _⟩ => ⟨S1x128, .f32⟩
  | .hbm, ⟨8, _⟩ => ⟨S10000x10000, .bf16⟩
  | .hbm, ⟨9, _⟩ => ⟨S10000x128, .bf16⟩
  | .hbm, ⟨10, _⟩ => ⟨S10000x1, .f32⟩
  | .hbm, ⟨11, _⟩ => ⟨S128x32, .f32⟩
  | .hbm, ⟨12, _⟩ => ⟨S1x32, .f32⟩
  | .hbm, ⟨13, _⟩ => ⟨S10000x32, .bf16⟩
  | .hbm, ⟨14, _⟩ => ⟨S10000x32, .f32⟩
  | .local _ .vmem, ⟨0, _⟩ => ⟨S80x10000, .f32⟩
  | .local _ .vmem, ⟨1, _⟩ => ⟨S80x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S80x10000, .bf16⟩
  | .local _ .vmem, ⟨6, _⟩ => ⟨S80x10000, .bf16⟩
  | .local _ .vmem, ⟨7, _⟩ => ⟨S10000x128, .bf16⟩
  | .local _ .vmem, ⟨8, _⟩ => ⟨S10000x1, .f32⟩
  | .local _ .vmem, ⟨9, _⟩ => ⟨S10000x1, .f32⟩
  | .local _ .vmem, ⟨10, _⟩ => ⟨S10000x1, .f32⟩
  | .local _ .vmem, ⟨11, _⟩ => ⟨S400x10000, .bf16⟩
  | .local _ .vmem, ⟨12, _⟩ => ⟨S400x10000, .bf16⟩
  | .local _ .vmem, ⟨13, _⟩ => ⟨S10000x128, .bf16⟩
  | .local _ .vmem, ⟨14, _⟩ => ⟨S128x32, .f32⟩
  | .local _ .vmem, ⟨15, _⟩ => ⟨S1x32, .f32⟩
  | .local _ .vmem, ⟨16, _⟩ => ⟨S400x1, .f32⟩
  | .local _ .vmem, ⟨17, _⟩ => ⟨S400x1, .f32⟩
  | .local _ .vmem, ⟨18, _⟩ => ⟨S400x32, .bf16⟩
  | .local _ .vmem, ⟨19, _⟩ => ⟨S400x32, .bf16⟩
  | .local _ .vmem, ⟨20, _⟩ => ⟨S400x10000, .bf16⟩
  | .local _ .vmem, ⟨21, _⟩ => ⟨S400x10000, .bf16⟩
  | .local _ .vmem, ⟨22, _⟩ => ⟨S10000x32, .bf16⟩
  | .local _ .vmem, ⟨23, _⟩ => ⟨S400x32, .f32⟩
  | .local _ .vmem, ⟨24, _⟩ => ⟨S400x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![125], ![false]⟩

def k0_off1 (i : grid0.Coords) : Fin 2 → Nat :=
  let arg0 : BitVec 32 := BitVec.ofNat 32 (i 0).val
  let c80_i32 : BitVec 32 := 80#32
  let v5 : BitVec 32 := Scalar.muli arg0 c80_i32
  let v6 : Index := Scalar.indexCast v5
  let c0_4 : Index := 0#32
  ![v6.toNat, 0]
def k0_cond3 (i : grid0.Coords) : BitVec 1 :=
  let arg0 : BitVec 32 := BitVec.ofNat 32 (i 0).val
  let c124_i32 : BitVec 32 := 124#32
  let v18 : BitVec 1 := Scalar.cmpi .eq arg0 c124_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S80x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S128x128_S128x128_1_0 : S128x128.Transposes [1, 0] S128x128
  shapeCasts_S128_S1x128 : S128.ShapeCasts S1x128
  inb_S80x10000_S80x10000_0_0 : ∀ a, (![0, 0] : Fin 2 → Nat) a + S80x10000.size a ≤ S80x10000.size a
  h_S80x10000 : 0 < S80x10000.numel
  bitsLt_bf16_f32 : FTy.bits .bf16 < FTy.bits .f32
  packedbf16_S80x10000_S80x10000_0_0 : (Rect.unit (s := S80x10000) ![0, 0] S80x10000.size inb_S80x10000_S80x10000_0_0).PackedRows (EltTy.packing .bf16)
  h_S80x1 : 0 < S80x1.numel
  shapeCasts_S80x1_S80x1 : S80x1.ShapeCasts S80x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  broadcasts_S10000x1_S10000x128 : S10000x1.Broadcasts S10000x128
  packedbf16_S10000x128_S10000x128_0_0 : (Rect.unit (s := S10000x128) ![0, 0] S10000x128.size inb_S10000x128_S10000x128_0_0).PackedRows (EltTy.packing .bf16)
  transposes_S32x128_S128x32_1_0 : S32x128.Transposes [1, 0] S128x32
  shapeCasts_S32_S1x32 : S32.ShapeCasts S1x32
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x32 : S400x1.Broadcasts S400x32
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  dot_S80x10000_S10000x1_S80x1_1_0_0_1_n_n_wf : DotDims.WF S80x10000 S10000x1 S80x1 [1] [0] [0] [1] [] []
  dot_S80x10000_S80x1_S10000x1_0_0_1_1_n_n_wf : DotDims.WF S80x10000 S80x1 S10000x1 [0] [0] [1] [1] [] []
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x32_S400x32_1_0_0_1_n_n_wf : DotDims.WF S400x128 S128x32 S400x32 [1] [0] [0] [1] [] []
  dot_S400x10000_S10000x32_S400x32_1_0_0_1_n_n_wf : DotDims.WF S400x10000 S10000x32 S400x32 [1] [0] [0] [1] [] []
  hrank0 : 0 < grid0.rank
  k0_off1_inb : ∀ i : grid0.Coords, ∀ a, (k0_off1 i) a + S80x1.size a ≤ S10000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .bf16 = 32 ∨ (Rect.block (s := S10000x10000) S80x10000.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .bf16 = 32 ∨ (Rect.block (s := S10000x128) S10000x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S10000x1.size a
  hwx0_6 : ∀ i : grid0.Coords, EltTy.bits .f32 = 32 ∨ (Rect.block (s := S10000x1) S10000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S10000x1.size a
  hwx1_4 : ∀ i : grid1.Coords, EltTy.bits .f32 = 32 ∨ (Rect.block (s := S10000x1) S400x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x32.size a ≤ S10000x32.size a
  hwx1_5 : ∀ i : grid1.Coords, EltTy.bits .bf16 = 32 ∨ (Rect.block (s := S10000x32) S400x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .bf16 = 32 ∨ (Rect.block (s := S10000x32) S10000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .f32 = 32 ∨ (Rect.block (s := S10000x32) S400x32.size (cc2_transform_2 i) (hinb2_2 i)).WholeWords (EltTy.packing .f32)

variable [Facts₀]

def dot_S80x10000_S10000x1_S80x1_1_0_0_1_n_n : DotDims S80x10000 S10000x1 S80x1 where
  lhsContracting := [1]
  rhsContracting := [0]
  lhsNonContracting := [0]
  rhsNonContracting := [1]
  lhsBatch := []
  rhsBatch := []
  wf := dot_S80x10000_S10000x1_S80x1_1_0_0_1_n_n_wf
def dot_S80x10000_S80x1_S10000x1_0_0_1_1_n_n : DotDims S80x10000 S80x1 S10000x1 where
  lhsContracting := [0]
  rhsContracting := [0]
  lhsNonContracting := [1]
  rhsNonContracting := [1]
  lhsBatch := []
  rhsBatch := []
  wf := dot_S80x10000_S80x1_S10000x1_0_0_1_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S80x10000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S10000x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S10000x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond3 i == 1#1) | 6 => fun i => !(k0_cond3 i == 1#1) | ⟨_ + 7, h⟩ => absurd h (Nat.not_lt.2 (Nat.le_add_left _ _))

abbrev win1_0 : Pipeline.Window sig grid1 :=
  Pipeline.Window.ofSpec (Memref.whole main_v2_0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_2) S400x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S400x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S_ : Shape := ⟨0, ![]⟩
abbrev S10000 : Shape := ⟨1, ![10000]⟩
abbrev S1x10000 : Shape := ⟨2, ![1, 10000]⟩
abbrev S1x128 : Shape := ⟨2, ![1, 128]⟩
abbrev S128x32 : Shape := ⟨2, ![128, 32]⟩
abbrev S10000x32 : Shape := ⟨2, ![10000, 32]⟩
abbrev S1x32 : Shape := ⟨2, ![1, 32]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S32x128, .f32⟩
  | .hbm, ⟨5, _⟩ => ⟨S32, .f32⟩
  | .hbm, ⟨6, _⟩ => ⟨S_, .f32⟩
  | .hbm, ⟨7, _⟩ => ⟨S10000, .f32⟩
  | .hbm, ⟨8, _⟩ => ⟨S_, .f32⟩
  | .hbm, ⟨9, _⟩ => ⟨S10000, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S1x10000, .f32⟩
  | .hbm, ⟨14, _⟩ => ⟨S10000x10000, .f32⟩
  | .hbm, ⟨15, _⟩ => ⟨S10000x10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S1x10000, .f32⟩
  | .hbm, ⟨20, _⟩ => ⟨S10000x10000, .f32⟩
  | .hbm, ⟨21, _⟩ => ⟨S10000x10000, .f32⟩
  | .hbm, ⟨22, _⟩ => ⟨S128x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S128x32, .f32⟩
  | .hbm, ⟨32, _⟩ => ⟨S10000x32, .f32⟩
  | .hbm, ⟨33, _⟩ => ⟨S1x32, .f32⟩
  | .hbm, ⟨34, _⟩ => ⟨S10000x32, .f32⟩
  | .hbm, ⟨35, _⟩ => ⟨S10000x32, .f32⟩
  | .hbm, ⟨36, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  reducesTo_S10000x10000_S10000_d0 : S10000x10000.ReducesTo [0] S10000
  h_S_ : 0 < S_.numel
  reducesTo_S10000x10000_S10000_d1 : S10000x10000.ReducesTo [1] S10000
  bcast_S_S10000 : S_.BroadcastsInDim S10000 (![] : Fin 0 → Fin S10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S32x128_S128x32_1_0 : S32x128.Transposes [1, 0] S128x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.LibSingleWrite.lean ====
/-
  One write into a buffer, read back whole: the buffer's former contents with the written rectangle's part
  replaced by the payload. The prior contents are kept off the rectangle, so a body that fills a buffer one
  rectangle per grid point can say what it leaves from what it found.
-/
import Idealize.ShloMosaic.Lib.Writes
import Idealize.ShloMosaic.Lib.Memref

noncomputable section

namespace Idealize.ShloMosaic.View

variable {sig : RefSig} {κ : Kind} {sp : Space} {s : Shape} {e : EltTy} {Val : EltTy → Type}

/-- A view read after ONE write through rectangle `r` over contents `f` reads the payload on the rectangle and
    what `f` read elsewhere: `r.overlay (read f) w`. -/
theorem read_writes_single (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [read_writes_cons_emb, Rect.overlay_emb]
  · have hy' : y ∉ Finset.univ.map r.emb := by rwa [Rect.map_emb_univ]
    rw [writes_cons, read_slice_write_of_not_mem r _ _ _ hy', Rect.overlay_of_not_mem _ _ _ hy, writes_nil]

end Idealize.ShloMosaic.View

end
-- ==== Proof.KIRegion0Runs.lean ====
/-
  The first kernel region's body (the pass that streams the adjacency array in 125 strips of 80 rows), run once per
  case of its three conditionals, with the contents each store leaves NAMED. The grid meets exactly three cases: the
  first strip (column accumulator stored), a middle strip (column accumulator added to), the last strip (added to, and
  then the two resident outputs computed from the completed accumulators).
-/
import proofs.«162869_g88759794139180_cont_sun_c4_43_14_alg».proof.Proof.Gen.KernelIdeal.Launch
import proofs.«162869_g88759794139180_cont_sun_c4_43_14_alg».proof.Proof.Gen.KernelIdeal.Skeleton
import proofs.«162869_g88759794139180_cont_sun_c4_43_14_alg».proof.Proof.Gen.KernelIdeal.Points
import proofs.«162869_g88759794139180_cont_sun_c4_43_14_alg».proof.Proof.LibSingleWrite
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first body's three conditions, from the grid coordinate -/

/-- "this is the first strip": the coordinate equals 0. -/
abbrev cond0_0 (i : grid0.Coords) : Prop := (Scalar.cmpi .ne (Scalar.extui (Scalar.cmpi .eq (BitVec.ofNat 32 (i 0).val) 0#32)) 0#32) = 1#1
/-- "this is a later strip": the coordinate is positive. -/
abbrev cond0_1 (i : grid0.Coords) : Prop := (Scalar.cmpi .ne (Scalar.extui (Scalar.cmpi .sgt (BitVec.ofNat 32 (i 0).val) 0#32)) 0#32) = 1#1
/-- "this is the last strip": the coordinate equals 124. -/
abbrev cond0_2 (i : grid0.Coords) : Prop := k0_cond3 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val ≠ 0 :=
  (by decide +kernel : ∀ t : Fin grid0.N, cond0_1 (grid0.coords t) ↔ t.val ≠ 0)
theorem hcond0_2 : ∀ t : Fin cfg0.N, cond0_2 (grid0.coords t) ↔ t.val = 124 :=
  (by decide +kernel : ∀ t : Fin grid0.N, cond0_2 (grid0.coords t) ↔ t.val = 124)

/-! ## The body's rectangles and the contents its stores leave -/

theorem hz2 : (![0, 0] : Fin 2 → ℕ) = fun _ => 0 := by funext a; fin_cases a <;> rfl

/-- The 80 rows of the row accumulator that strip `i` writes. -/
abbrev rOff (i : grid0.Coords) : Rect S10000x1 := Rect.unit (s := S10000x1) (k0_off1 i) S80x1.size (k0_off1_inb i)

/-- One whole-buffer store leaves its payload, whatever the buffer held. -/
theorem read_whole_store {sg : RefSig} {κ : Kind} {sp : Space} {S : Shape} {e : EltTy} {off : Fin S.rank → Nat} (h : off = fun _ => 0)
    (inb : ∀ a, off a + S.size a ≤ S.size a) (v : View sg κ sp S e) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

set_option maxHeartbeats 4000000 in
/-- The FIRST strip: the strip cast into output 0; its row sums over rows 0..79 of the row accumulator, the other rows
    kept; its column sums STORED as the column accumulator, whatever it held. The resident outputs are left as found. -/
theorem sound0_A (c : Dev nD) (i : grid0.Coords)
    (arg1 : Memref sig .tc .vmem S80x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S80x10000 .bf16) (harg5 : arg5.IsWhole) (arg6 : Memref sig .tc .vmem S10000x128 .bf16) (harg6 : arg6.IsWhole)
    (arg7 : Memref sig .tc .vmem S10000x1 .f32) (harg7 : arg7.IsWhole) (arg8 : Memref sig .tc .vmem S10000x1 .f32) (harg8 : arg8.IsWhole)
    (arg9 : Memref sig .tc .vmem S10000x1 .f32) (harg9 : arg9.IsWhole)
    (hc0 : cond0_0 i) (hc1 : ¬cond0_1 i) (hc2 : ¬cond0_2 i)
    (x0 : Vec F S80x10000 .f32) (x1 : Vec F S10000x128 .f32) (x2 : Vec F S128x128 .f32) (x3 : Vec F S1x128 .f32) (xi5 : Vec F S10000x128 .bf16) (xi6 : Vec F S10000x1 .f32)
    (a8 : Vec F S10000x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare a8 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare xi5 ∗ owns (c : Thread nD τ) arg7 fullShare xi6
            ∗ owns (c : Thread nD τ) arg8 fullShare ((rOff i).overlay a8 (k0_pay2 x0)) ∗ owns (c : Thread nD τ) arg9 fullShare (k0_pay4 x0)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%d9, %f9, -, H9⟩, Hk⟩
    sl_exec (disch := first | exact hc0 | exact hc1 | exact hc2)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; isplitr; swap; · iexact H5
      ipureintro
      rw [read_whole_store hz2, View.readAt_eq_ld, hf1, View.ld_unit_zero hz2]
    isplitl [H6]
    · iexists f6; isplitr; · ipureintro; exact hf6
      iexact H6
    isplitl [H7]
    · iexists f7; isplitr; · ipureintro; exact hf7
      iexact H7
    isplitl [H8]
    · iexists _; isplitr; swap; · iexact H8
      ipureintro
      rw [View.read_writes_single, hf8, View.readAt_eq_ld, hf1, View.ld_unit_zero hz2]
    iexists _; isplitr; swap; · iexact H9
    ipureintro
    rw [read_whole_store hz2, View.readAt_eq_ld, hf1, View.ld_unit_zero hz2]

set_option maxHeartbeats 4000000 in
/-- A MIDDLE strip: the strip cast into output 0; its row sums over the strip's 80 rows of the row accumulator, the other
    rows kept; its column sums added to the column accumulator. The resident outputs are left as found. -/
theorem sound0_B (c : Dev nD) (i : grid0.Coords)
    (arg1 : Memref sig .tc .vmem S80x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S80x10000 .bf16) (harg5 : arg5.IsWhole) (arg6 : Memref sig .tc .vmem S10000x128 .bf16) (harg6 : arg6.IsWhole)
    (arg7 : Memref sig .tc .vmem S10000x1 .f32) (harg7 : arg7.IsWhole) (arg8 : Memref sig .tc .vmem S10000x1 .f32) (harg8 : arg8.IsWhole)
    (arg9 : Memref sig .tc .vmem S10000x1 .f32) (harg9 : arg9.IsWhole)
    (hc0 : ¬cond0_0 i) (hc1 : cond0_1 i) (hc2 : ¬cond0_2 i)
    (x0 : Vec F S80x10000 .f32) (x1 : Vec F S10000x128 .f32) (x2 : Vec F S128x128 .f32) (x3 : Vec F S1x128 .f32) (xi5 : Vec F S10000x128 .bf16) (xi6 : Vec F S10000x1 .f32)
    (a8 a9 : Vec F S10000x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare a8 ∗ owns (c : Thread nD τ) arg9 fullShare a9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare xi5 ∗ owns (c : Thread nD τ) arg7 fullShare xi6
            ∗ owns (c : Thread nD τ) arg8 fullShare ((rOff i).overlay a8 (k0_pay2 x0)) ∗ owns (c : Thread nD τ) arg9 fullShare (k0_pay5 x0 a9)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    sl_exec (disch := first | exact hc0 | exact hc1 | exact hc2)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; isplitr; swap; · iexact H5
      ipureintro
      rw [read_whole_store hz2, View.readAt_eq_ld, hf1, View.ld_unit_zero hz2]
    isplitl [H6]
    · iexists f6; isplitr; · ipureintro; exact hf6
      iexact H6
    isplitl [H7]
    · iexists f7; isplitr; · ipureintro; exact hf7
      iexact H7
    isplitl [H8]
    · iexists _; isplitr; swap; · iexact H8
      ipureintro
      rw [View.read_writes_single, hf8, View.readAt_eq_ld, hf1, View.ld_unit_zero hz2]
    iexists _; isplitr; swap; · iexact H9
    ipureintro
    rw [read_whole_store hz2, View.readAt_eq_ld, hf1, View.ld_unit_zero hz2, View.readAt_eq_ld, hf9, View.ld_unit_zero hz2]

set_option maxHeartbeats 8000000 in
/-- The LAST strip: as a middle strip, and then, both accumulators being complete, the column factor √(row sum · column
    sum) stored whole into output 2 and the scaled first linear layer into output 1. Both are computed from the
    accumulators AFTER this strip's update. -/
theorem sound0_C (c : Dev nD) (i : grid0.Coords)
    (arg1 : Memref sig .tc .vmem S80x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S80x10000 .bf16) (harg5 : arg5.IsWhole) (arg6 : Memref sig .tc .vmem S10000x128 .bf16) (harg6 : arg6.IsWhole)
    (arg7 : Memref sig .tc .vmem S10000x1 .f32) (harg7 : arg7.IsWhole) (arg8 : Memref sig .tc .vmem S10000x1 .f32) (harg8 : arg8.IsWhole)
    (arg9 : Memref sig .tc .vmem S10000x1 .f32) (harg9 : arg9.IsWhole)
    (hc0 : ¬cond0_0 i) (hc1 : cond0_1 i) (hc2 : cond0_2 i)
    (x0 : Vec F S80x10000 .f32) (x1 : Vec F S10000x128 .f32) (x2 : Vec F S128x128 .f32) (x3 : Vec F S1x128 .f32)
    (a8 a9 : Vec F S10000x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare a8 ∗ owns (c : Thread nD τ) arg9 fullShare a9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare (k0_pay7 ((rOff i).overlay a8 (k0_pay2 x0)) (k0_pay5 x0 a9) x1 x2 x3) ∗ owns (c : Thread nD τ) arg7 fullShare (k0_pay6 ((rOff i).overlay a8 (k0_pay2 x0)) (k0_pay5 x0 a9))
            ∗ owns (c : Thread nD τ) arg8 fullShare ((rOff i).overlay a8 (k0_pay2 x0)) ∗ owns (c : Thread nD τ) arg9 fullShare (k0_pay5 x0 a9)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    sl_exec (disch := first | exact hc0 | exact hc1 | exact hc2)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; isplitr; swap; · iexact H5
      ipureintro
      rw [read_whole_store hz2, View.readAt_eq_ld, hf1, View.ld_unit_zero hz2]
    isplitl [H6]
    · iexists _; isplitr; swap; · iexact H6
      ipureintro
      sl_unfold_words
      simp only [read_whole_store (S := S10000x128) hz2, View.read_writes_single, View.readAt_eq_ld, hf1, hf2, hf3, hf4, hf8, hf9,
        View.ld_unit_zero (S := S80x10000) hz2, View.ld_unit_zero (S := S10000x1) hz2, View.ld_unit_zero (S := S10000x128) hz2,
        View.ld_unit_zero (S := S128x128) hz2, View.ld_unit_zero (S := S1x128) hz2, View.readCov_unit_zero (S := S10000x1) arg9.view hz2]
      try rfl
    isplitl [H7]
    · iexists _; isplitr; swap; · iexact H7
      ipureintro
      sl_unfold_words
      simp only [read_whole_store (S := S10000x1) hz2, View.read_writes_single, View.readAt_eq_ld, hf1, hf8, hf9,
        View.ld_unit_zero (S := S80x10000) hz2, View.ld_unit_zero (S := S10000x1) hz2, View.readCov_unit_zero (S := S10000x1) arg9.view hz2]
      try rfl
    isplitl [H8]
    · iexists _; isplitr; swap; · iexact H8
      ipureintro
      sl_unfold_words
      simp only [View.read_writes_single, View.readAt_eq_ld, hf1, hf8, View.ld_unit_zero (S := S80x10000) hz2]
      try rfl
    iexists _; isplitr; swap; · iexact H9
    ipureintro
    sl_unfold_words
    simp only [read_whole_store (S := S10000x1) hz2, View.readAt_eq_ld, hf1, hf9, View.ld_unit_zero (S := S80x10000) hz2, View.ld_unit_zero (S := S10000x1) hz2]
    try rfl

end Cert.KernelIdeal.Hand

end
-- ==== Proof.KIRegion0Data.lean ====
/-
  The first kernel region's proof data: the windows' blocks, the two accumulators point by point, the invariant
  between points, and what each window's buffer holds after the body.
-/
import proofs.«162869_g88759794139180_cont_sun_c4_43_14_alg».proof.Proof.Gen.KernelIdeal.Launch
import proofs.«162869_g88759794139180_cont_sun_c4_43_14_alg».proof.Proof.Gen.KernelIdeal.Skeleton
import proofs.«162869_g88759794139180_cont_sun_c4_43_14_alg».proof.Proof.Gen.KernelIdeal.Points
import proofs.«162869_g88759794139180_cont_sun_c4_43_14_alg».proof.Proof.KIRegion0Runs
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. Window 0 is the strip of 80 rows of the
    adjacency array; windows 1, 2, 3 are whole arrays (the features, the transposed first weight, the first bias as a row). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The blocks at their literal vector types. -/
abbrev x0At (c : Dev nD) (t : Fin cfg0.N) : Vec F S80x10000 .f32 := iblk0 V c 0 t
abbrev x1At (c : Dev nD) (t : Fin cfg0.N) : Vec F S10000x128 .f32 := iblk0 V c 1 t
abbrev x2At (c : Dev nD) (t : Fin cfg0.N) : Vec F S128x128 .f32 := iblk0 V c 2 t
abbrev x3At (c : Dev nD) (t : Fin cfg0.N) : Vec F S1x128 .f32 := iblk0 V c 3 t

/-! ## The memrefs the body is called with -/

abbrev scM0 : Memref sig .tc .vmem S10000x1 .f32 := Memref.whole cc0_scratch0
abbrev scM1 : Memref sig .tc .vmem S10000x1 .f32 := Memref.whole cc0_scratch1

/-! ## The two accumulators, point by point

After point `n` the ROW accumulator holds, on rows below 80·(n+1), the row sums of the strips so far (strip `k`'s
80 sums on rows 80k … 80k+79) and on the other rows whatever it held at entry, which nothing names: the recursion
starts from unspecified contents and only the rows already written are ever compared. The COLUMN accumulator holds the
running total of the strips' column sums. -/

/-- Contents nothing names. -/
def junk8 : Vec F S10000x1 .f32 := View.canon ([] : List (View.Piece (Elt F) S10000x1 .f32))

def accAt (c : Dev nD) : (n : ℕ) → n < cfg0.N → Vec F S10000x1 .f32 × Vec F S10000x1 .f32
  | 0, hn => ((rOff (grid0.coords ⟨0, hn⟩)).overlay junk8 (k0_pay2 (x0At V c ⟨0, hn⟩)), k0_pay4 (x0At V c ⟨0, hn⟩))
  | n + 1, hn => ((rOff (grid0.coords ⟨n + 1, hn⟩)).overlay (accAt c n (Nat.lt_of_succ_lt hn)).1 (k0_pay2 (x0At V c ⟨n + 1, hn⟩)),
      k0_pay5 (x0At V c ⟨n + 1, hn⟩) (accAt c n (Nat.lt_of_succ_lt hn)).2)

theorem accAt_zero (c : Dev nD) (t : Fin cfg0.N) (h : t.val = 0) :
    accAt V c t.val t.isLt = ((rOff (grid0.coords t)).overlay junk8 (k0_pay2 (x0At V c t)), k0_pay4 (x0At V c t)) := by
  obtain ⟨n, hn⟩ := t
  cases n with
  | zero => rfl
  | succ n => exact absurd h (Nat.succ_ne_zero n)

theorem accAt_pos (c : Dev nD) (t : Fin cfg0.N) (h : t.val ≠ 0) :
    accAt V c t.val t.isLt = ((rOff (grid0.coords t)).overlay (accAt V c (t.val - 1) (Nat.lt_of_le_of_lt (Nat.sub_le _ _) t.isLt)).1 (k0_pay2 (x0At V c t)),
      k0_pay5 (x0At V c t) (accAt V c (t.val - 1) (Nat.lt_of_le_of_lt (Nat.sub_le _ _) t.isLt)).2) := by
  obtain ⟨n, hn⟩ := t
  cases n with
  | zero => exact absurd rfl h
  | succ n => rfl

/-! ## Where strip `t`'s rows lie -/

theorem off0_0 : ∀ t : Fin cfg0.N, k0_off1 (grid0.coords t) 0 = 80 * t.val :=
  (by decide +kernel : ∀ t : Fin grid0.N, k0_off1 (grid0.coords t) 0 = 80 * t.val)
theorem off0_1 : ∀ t : Fin cfg0.N, k0_off1 (grid0.coords t) 1 = 0 :=
  (by decide +kernel : ∀ t : Fin grid0.N, k0_off1 (grid0.coords t) 1 = 0)

/-- Row `y` lies in strip `t`'s rectangle iff 80t ≤ row < 80t + 80. -/
theorem mem_rOff (t : Fin cfg0.N) (y : S10000x1.Idx) : y ∈ (rOff (grid0.coords t)).set ↔ 80 * t.val ≤ (y 0).val ∧ (y 0).val < 80 * t.val + 80 := by
  rw [Rect.mem_set_unit]
  constructor
  · intro h
    have h0 := h 0
    rw [off0_0 t] at h0
    exact h0
  · intro h a
    match a with
    | ⟨0, _⟩ =>
      show k0_off1 (grid0.coords t) 0 ≤ (y 0).val ∧ (y 0).val < k0_off1 (grid0.coords t) 0 + 80
      rw [off0_0 t]; exact h
    | ⟨1, _⟩ =>
      show k0_off1 (grid0.coords t) 1 ≤ (y 1).val ∧ (y 1).val < k0_off1 (grid0.coords t) 1 + 1
      rw [off0_1 t]
      have := Idealize.ShloMosaic.ValueIdx.idx2_lt1 y
      exact ⟨Nat.zero_le _, by omega⟩

/-- Overlaying strip `t`'s rows on two accumulators that agree below row 80t gives accumulators that agree below row 80(t+1). -/
theorem overlay_agree (t : Fin cfg0.N) (a b : Vec F S10000x1 .f32) (w : (rOff (grid0.coords t)).shape.Idx → Elt F .f32)
    (h : ∀ y : S10000x1.Idx, (y 0).val < 80 * t.val → a y = b y) (y : S10000x1.Idx) (hy : (y 0).val < 80 * (t.val + 1)) :
    (rOff (grid0.coords t)).overlay a w y = (rOff (grid0.coords t)).overlay b w y := by
  by_cases hm : y ∈ (rOff (grid0.coords t)).set
  · obtain ⟨x, rfl⟩ : ∃ x, (rOff (grid0.coords t)).emb x = y := (rOff (grid0.coords t)).exists_idx_of_mem hm
    rw [Rect.overlay_emb, Rect.overlay_emb]
  · rw [Rect.overlay_of_not_mem _ _ _ hm, Rect.overlay_of_not_mem _ _ _ hm]
    apply h
    rw [mem_rOff] at hm
    omega

/-! ## The invariant between points -/

/-- Before point `n`: nothing at the first point; afterwards the row accumulator agrees with `accAt` on the rows written so
    far and the column accumulator is `accAt`'s. -/
def Inv0 (c : Dev nD) (n : ℕ) (hn : n ≤ cfg0.N) (a8 a9 : Vec F S10000x1 .f32) : Prop :=
  ∀ hpos : n ≠ 0, (∀ y : S10000x1.Idx, (y 0).val < 80 * n → a8 y = (accAt V c (n - 1) (by omega)).1 y) ∧ a9 = (accAt V c (n - 1) (by omega)).2

/-- The region's invariant before point `n`: the two scratch accumulators owned at contents satisfying `Inv0`, the other
    scoped buffers at anything, the generator register at some state. -/
def PhiS0 (c : Dev nD) (n : ℕ) (hn : n ≤ cfg0.N) : sProp 𝕄 :=
  iprop((∃ a8 a9, ⌜Inv0 V c n hn a8 a9⌝ ∗ owns (c : Thread nD τ) scM0 fullShare a8 ∗ owns (c : Thread nD τ) scM1 fullShare a9)
    ∗ Pipeline.scopedRestBut (Ix := Unit) (Name := ℕ) (U := UR sig nD τ) (Lvl := ℕ) (Val := Elt F) spec0 c [cc0_scratch0, cc0_scratch1]
    ∗ ∃ r, prngReg c r)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (x0At V c t)
    | ⟨5, _⟩ => k0_pay7 (accAt V c t.val t.isLt).1 (accAt V c t.val t.isLt).2 (x1At V c t) (x2At V c t) (x3At V c t)
    | ⟨6, _⟩ => k0_pay6 (accAt V c t.val t.isLt).1 (accAt V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem q_eq0 (c : Dev nD) (w : Fin cfg0.W) : (dat0 V c).q w = fullShare := by dsimp only [dat0]
theorem recorded_eq0 (c : Dev nD) (t : Fin (cfg0.N + 1)) : (dat0 V c).recorded t = Set.univ := by dsimp only [dat0]
theorem owed_eq0 (c : Dev nD) (t : Fin (cfg0.N + 1)) : (dat0 V c).owed t = 0 := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (x0At V c t) := by dsimp only [dat0]
theorem after0_5 (c : Dev nD) (t : Fin cfg0.N) :
    (dat0 V c).after 5 t = k0_pay7 (accAt V c t.val t.isLt).1 (accAt V c t.val t.isLt).2 (x1At V c t) (x2At V c t) (x3At V c t) := by dsimp only [dat0]
theorem after0_6 (c : Dev nD) (t : Fin cfg0.N) : (dat0 V c).after 6 t = k0_pay6 (accAt V c t.val t.isLt).1 (accAt V c t.val t.isLt).2 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

theorem Phi_castSucc0 (c : Dev nD) (t : Fin cfg0.N) : (dat0 V c).Φ t.castSucc = PhiS0 V c t.val (Nat.le_of_lt t.isLt) := by
  dsimp only [dat0]; simp only [Fin.coe_castSucc]
theorem Phi_succ0 (c : Dev nD) (t : Fin cfg0.N) : (dat0 V c).Φ t.succ = PhiS0 V c (t.val + 1) t.isLt := by
  dsimp only [dat0]; simp only [Fin.val_succ]

/-! ## Where the resident outputs are idle -/

theorem idleAt0_5 : ∀ t : Fin cfg0.N, t.val ≠ 124 → cfg0.idle 5 (grid0.coords t) = true := by decide +kernel
theorem idleAt0_6 : ∀ t : Fin cfg0.N, t.val ≠ 124 → cfg0.idle 6 (grid0.coords t) = true := by decide +kernel
theorem liveAt0_5 : ∀ t : Fin cfg0.N, t.val = 124 → cfg0.idle 5 (grid0.coords t) = false := by decide +kernel
theorem liveAt0_6 : ∀ t : Fin cfg0.N, t.val = 124 → cfg0.idle 6 (grid0.coords t) = false := by decide +kernel
theorem noFlush0_5 : ∀ t : Fin cfg0.N, t.val ≠ 124 → (cfg0.win 5).flush t = false := by decide +kernel
theorem noFlush0_6 : ∀ t : Fin cfg0.N, t.val ≠ 124 → (cfg0.win 6).flush t = false := by decide +kernel

end Cert.KernelIdeal.Hand

end
-- ==== Proof.KIRegion0.lean ====
/-
  The first kernel region: the invariant's step from point to point, the body obligation by cases on the strip (first,
  middle, last), and the invariant at the region's two ends.
-/
import proofs.«162869_g88759794139180_cont_sun_c4_43_14_alg».proof.Proof.Gen.KernelIdeal.Launch
import proofs.«162869_g88759794139180_cont_sun_c4_43_14_alg».proof.Proof.Gen.KernelIdeal.Skeleton
import proofs.«162869_g88759794139180_cont_sun_c4_43_14_alg».proof.Proof.Gen.KernelIdeal.Points
import proofs.«162869_g88759794139180_cont_sun_c4_43_14_alg».proof.Proof.KIRegion0Data
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's step -/

theorem Inv0_succ (c : Dev nD) (t : Fin cfg0.N) (a8 a9 : Vec F S10000x1 .f32)
    (h8 : ∀ y : S10000x1.Idx, (y 0).val < 80 * (t.val + 1) → a8 y = (accAt V c t.val t.isLt).1 y) (h9 : a9 = (accAt V c t.val t.isLt).2) :
    Inv0 V c (t.val + 1) t.isLt a8 a9 := fun _ => ⟨h8, h9⟩

/-- After the first strip. -/
theorem inv_first (c : Dev nD) (t : Fin cfg0.N) (h0 : t.val = 0) (a8 : Vec F S10000x1 .f32) :
    Inv0 V c (t.val + 1) t.isLt ((rOff (grid0.coords t)).overlay a8 (k0_pay2 (x0At V c t))) (k0_pay4 (x0At V c t)) := by
  refine Inv0_succ V c t _ _ (fun y hy => ?_) ?_
  · rw [accAt_zero V c t h0]
    exact overlay_agree t a8 junk8 _ (fun y hy => absurd hy (by omega)) y hy
  · rw [accAt_zero V c t h0]

/-- After a later strip, from the invariant before it. -/
theorem inv_later (c : Dev nD) (t : Fin cfg0.N) (h0 : t.val ≠ 0) (a8 a9 : Vec F S10000x1 .f32) (hinv : Inv0 V c t.val (Nat.le_of_lt t.isLt) a8 a9) :
    Inv0 V c (t.val + 1) t.isLt ((rOff (grid0.coords t)).overlay a8 (k0_pay2 (x0At V c t))) (k0_pay5 (x0At V c t) a9) := by
  obtain ⟨h8, h9⟩ := hinv h0
  refine Inv0_succ V c t _ _ (fun y hy => ?_) ?_
  · rw [accAt_pos V c t h0]
    exact overlay_agree t a8 _ _ h8 y hy
  · rw [accAt_pos V c t h0, h9]

/-- At the last strip every row has been written: the updated accumulators ARE `accAt`'s. -/
theorem acc_last (c : Dev nD) (t : Fin cfg0.N) (h124 : t.val = 124) (a8 a9 : Vec F S10000x1 .f32) (hinv : Inv0 V c t.val (Nat.le_of_lt t.isLt) a8 a9) :
    (rOff (grid0.coords t)).overlay a8 (k0_pay2 (x0At V c t)) = (accAt V c t.val t.isLt).1 ∧ k0_pay5 (x0At V c t) a9 = (accAt V c t.val t.isLt).2 := by
  have h0 : t.val ≠ 0 := by omega
  obtain ⟨h8, h9⟩ := hinv h0
  refine ⟨funext fun y => ?_, ?_⟩
  · rw [accAt_pos V c t h0]
    exact overlay_agree t a8 _ _ h8 y (by have := Idealize.ShloMosaic.ValueIdx.idx2_lt0 y; omega)
  · rw [accAt_pos V c t h0, h9]

/-! ## The body obligation, at a generic point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point: the inputs' memrefs hold their blocks; the point is the first strip, a middle strip or the
    last, and that case's run applies; the invariant hands the run the two accumulators and takes them back updated;
    the resident outputs are handed back untouched except at the last strip, where they hold the values computed from
    the completed accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi_succ0, Phi_castSucc0]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  have hN : t.val < 125 := lt_of_lt_of_eq t.isLt (show cfg0.N = 125 from N_0)
  unfold PhiS0
  by_cases h0 : t.val = 0
  · have h124 : t.val ≠ 124 := by omega
    rw [Dat.leavesExact_idle (dat0 V c) 5 t (idleAt0_5 t h124) (noFlush0_5 t h124), Dat.leavesExact_idle (dat0 V c) 6 t (idleAt0_6 t h124) (noFlush0_6 t h124)]
    iintro ⟨⟨⟨%a8, %a9, %hinv, HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
    iapply (sound0_A c (grid0.coords t) _ _ _ _ _ _ _ _ _ _ _ _ _ _ scM0 (Memref.isWhole_whole _) scM1 (Memref.isWhole_whole _) ((hcond0_0 t).mpr h0) (fun h => (hcond0_1 t).mp h h0) (fun h => h124 ((hcond0_2 t).mp h))
      (x0At V c t) (x1At V c t) (x2At V c t) (x3At V c t) _ _ a8 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexists _; iexact HS9
    iintro ⟨H0, H1, H2, H3, H4, H5, H6, HS8, HS9⟩
    isplitl [HS8 HS9 Hrest Hg]
    · isplitl [HS8 HS9]
      · iexists _, _; isplitr
        · ipureintro; exact inv_first V c t h0 a8
        isplitl [HS8]; · iexact HS8
        iexact HS9
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · by_cases h124 : t.val = 124
    · rw [show (dat0 V c).leavesExact 5 t = owns (c : Thread nD τ) (st0_5 t) fullShare ((dat0 V c).after 5 t) from by
        unfold Dat.leavesExact; rw [liveAt0_5 t h124], after0_5]
      rw [show (dat0 V c).leavesExact 6 t = owns (c : Thread nD τ) (st0_6 t) fullShare ((dat0 V c).after 6 t) from by
        unfold Dat.leavesExact; rw [liveAt0_6 t h124], after0_6]
      iintro ⟨⟨⟨%a8, %a9, %hinv, HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
      obtain ⟨e8, e9⟩ := acc_last V c t h124 a8 a9 hinv
      iapply (sound0_C c (grid0.coords t) _ _ _ _ _ _ _ _ _ _ _ _ _ _ scM0 (Memref.isWhole_whole _) scM1 (Memref.isWhole_whole _) (fun h => h0 ((hcond0_0 t).mp h)) ((hcond0_1 t).mpr h0) ((hcond0_2 t).mpr h124)
        (x0At V c t) (x1At V c t) (x2At V c t) (x3At V c t) a8 a9 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9]
        · iexists _, _; isplitr
          · ipureintro; exact inv_later V c t h0 a8 a9 hinv
          isplitl [HS8]; · iexact HS8
          iexact HS9
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (Entails.of_eq (show owns (c : Thread nD τ) (st0_5 t) fullShare (k0_pay7 ((rOff (grid0.coords t)).overlay a8 (k0_pay2 (x0At V c t))) (k0_pay5 (x0At V c t) a9) (x1At V c t) (x2At V c t) (x3At V c t))
            = owns (c : Thread nD τ) (st0_5 t) fullShare (k0_pay7 (accAt V c t.val t.isLt).1 (accAt V c t.val t.isLt).2 (x1At V c t) (x2At V c t) (x3At V c t)) from by rw [e8, e9]))
        iexact H5
      iapply (Entails.of_eq (show owns (c : Thread nD τ) (st0_6 t) fullShare (k0_pay6 ((rOff (grid0.coords t)).overlay a8 (k0_pay2 (x0At V c t))) (k0_pay5 (x0At V c t) a9))
          = owns (c : Thread nD τ) (st0_6 t) fullShare (k0_pay6 (accAt V c t.val t.isLt).1 (accAt V c t.val t.isLt).2) from by rw [e8, e9]))
      iexact H6
    · rw [Dat.leavesExact_idle (dat0 V c) 5 t (idleAt0_5 t h124) (noFlush0_5 t h124), Dat.leavesExact_idle (dat0 V c) 6 t (idleAt0_6 t h124) (noFlush0_6 t h124)]
      iintro ⟨⟨⟨%a8, %a9, %hinv, HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound0_B c (grid0.coords t) _ _ _ _ _ _ _ _ _ _ _ _ _ _ scM0 (Memref.isWhole_whole _) scM1 (Memref.isWhole_whole _) (fun h => h0 ((hcond0_0 t).mp h)) ((hcond0_1 t).mpr h0) (fun h => h124 ((hcond0_2 t).mp h))
        (x0At V c t) (x1At V c t) (x2At V c t) (x3At V c t) _ _ a8 a9 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9]
        · iexists _, _; isplitr
          · ipureintro; exact inv_later V c t h0 a8 a9 hinv
          isplitl [HS8]; · iexact HS8
          iexact HS9
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem scratch_mem : ([cc0_scratch0, cc0_scratch1] : List (Ref sig .tc)).Forall fun b =>
    b.isScoped = true ∧ ∀ (w : Fin 7) (s : Fin (spec0 w).nbuf), ((spec0 w).stage s).view.ref ≠ b := by decide

/-- The scoped buffers no window stages: the two accumulators, then the rest unopened. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] scratch_mem (by decide)

/-- At the first point the invariant asks nothing of the accumulators: it is the generator register and the scoped buffers
    no window stages, the two accumulators named among them. -/
theorem Phi0_in (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [show (dat0 V c).Φ 0 = PhiS0 V c 0 (Nat.zero_le _) from rfl]
  unfold PhiS0
  rw [scopedRest0_split]
  simp only [scM0, scM1, owns_whole]
  iintro ⟨Hg, ⟨⟨%f8, H8⟩, ⟨%f9, H9⟩⟩, Hrest⟩
  isplitl [H8 H9]
  · iexists f8, f9; isplitr
    · ipureintro; exact fun h => absurd rfl h
    isplitl [H8]; · iexact H8
    iexact H9
  isplitl [Hrest]; · iexact Hrest
  iexact Hg

/-- At the last point it gives them back, the accumulators at whatever they hold. -/
theorem Phi0_out (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c cfg0.N (le_refl _) from rfl]
  unfold PhiS0
  rw [scopedRest0_split]
  simp only [scM0, scM1, owns_whole]
  iintro ⟨⟨%a8, %a9, -, H8, H9⟩, Hrest, Hg⟩
  isplitl [Hg]; · iexact Hg
  isplitl [H8 H9]
  · isplitl [H8]; · iexists _; iexact H8
    iexists _; iexact H9
  iexact Hrest

end Cert.KernelIdeal.Hand

end
-- ==== Proof.KIRegion1.lean ====
/- The second kernel call of the idealized kernel program (the first aggregation fused with the second layer's
   dense map: a 400-row strip of the adjacency array, in the narrow format, times the 10000x128 scaled features, the
   positive part of that, times the 128x32 weights, plus the bias row, each row then scaled by its entry of the scaling column and
   rounded to the narrow format; one strip per grid point, 25 points), at any float instance. Its body reads its
   five input windows whole and writes its one output window whole. This module gives, at the buffer contents `V`
   found when the region is entered: each window's block at a grid point, what the body leaves in the output
   window, the body's triple, the pipeline's proof data, and the body obligation at every grid point. -/
import proofs.«162869_g88759794139180_cont_sun_c4_43_14_alg».proof.Proof.Gen.KernelIdeal.Launch
import proofs.«162869_g88759794139180_cont_sun_c4_43_14_alg».proof.Proof.Gen.KernelIdeal.Skeleton
import proofs.«162869_g88759794139180_cont_sun_c4_43_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has ten thousand coordinates is checked by structural
-- recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered; everything below is stated at this parameter
variable (V : (c : Dev nD) → (b : Ref sig .tc) → Buf (Elt F) ((c : Thread nD τ).loc b))

/-! ## The windows' blocks -/

/-- The block of window `w` at grid point `t`: that rectangle of the window's array, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the adjacency strip, a new block at each point): whatever proof data has `V`'s array and a body that leaves the block
    where it is, the body finds the block of the point in the current staging buffer, fetched there or not (when it
    is not, the block index has not moved since the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the first layer's scaled features, one block, brought in at the first point only): whatever proof data has `V`'s array and a body that leaves the block
    where it is, the body finds the block of the point in the current staging buffer, fetched there or not (when it
    is not, the block index has not moved since the point before). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the second layer's weights, one block, brought in at the first point only): whatever proof data has `V`'s array and a body that leaves the block
    where it is, the body finds the block of the point in the current staging buffer, fetched there or not (when it
    is not, the block index has not moved since the point before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the second layer's bias row, one block, brought in at the first point only): whatever proof data has `V`'s array and a body that leaves the block
    where it is, the body finds the block of the point in the current staging buffer, fetched there or not (when it
    is not, the block index has not moved since the point before). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (the strip of the scaling column, a new block at each point): whatever proof data has `V`'s array and a body that leaves the block
    where it is, the body finds the block of the point in the current staging buffer, fetched there or not (when it
    is not, the block index has not moved since the point before). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is its whole buffer -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S128x32 := Rect.unit (s := S128x32) ![0, 0] S128x32.size inb_S128x32_S128x32_0_0
abbrev r1_3 : Rect S1x32 := Rect.unit (s := S1x32) ![0, 0] S1x32.size inb_S1x32_S1x32_0_0
abbrev r1_4 : Rect S400x1 := Rect.unit (s := S400x1) ![0, 0] S400x1.size inb_S400x1_S400x1_0_0
abbrev r1_5 : Rect S400x32 := Rect.unit (s := S400x32) ![0, 0] S400x32.size inb_S400x32_S400x32_0_0

/-! ## What the body leaves in the output window -/

/-- The output window's staging buffer after the body, from the five input blocks: the one store, of the value
    computed from what the five loads read. -/
def out1_5 (x0 : Vec F S400x10000 .bf16) (x1 : Vec F S10000x128 .bf16) (x2 : Vec F S128x32 .f32) (x3 : Vec F S1x32 .f32) (x4 : Vec F S400x1 .f32) : Vec F S400x32 .bf16 :=
  View.canon [⟨r1_5, k1_pay1 (View.ld x0 r1_0) (View.ld x1 r1_1) (View.ld x2 r1_2) (View.ld x3 r1_3) (View.ld x4 r1_4)⟩]

/-- The one stored rectangle is the whole buffer, so every index lies in it. -/
theorem cover1_5 (p0 : Vec F S400x32 .bf16) (y : S400x32.Idx) :
    ∃ pc ∈ ([⟨r1_5, p0⟩] : List (View.Piece (Elt F) S400x32 .bf16)), y ∈ pc.1.set :=
  View.cover_of_tiled [⟨r1_5, p0⟩] S400x32.size (by rfl) y

/-! ## The body's triple -/

set_option maxHeartbeats 1000000 in
/-- On whole staging memrefs — the inputs' holding `x0 … x4`, the output's holding anything — the body runs to a
    continuation that is given the inputs' back unchanged and the output's at `out1_5` of them. The body also loads
    the output buffer before it stores; nothing reads that value. -/
theorem sound_kernel1 (c : Dev nD) (E : Set ℕ) (i : grid1.Coords)
    (arg1 : Memref sig .tc .vmem S400x10000 .bf16) (harg1 : arg1.IsWhole)
    (arg2 : Memref sig .tc .vmem S10000x128 .bf16) (harg2 : arg2.IsWhole)
    (arg3 : Memref sig .tc .vmem S128x32 .f32) (harg3 : arg3.IsWhole)
    (arg4 : Memref sig .tc .vmem S1x32 .f32) (harg4 : arg4.IsWhole)
    (arg5 : Memref sig .tc .vmem S400x1 .f32) (harg5 : arg5.IsWhole)
    (arg6 : Memref sig .tc .vmem S400x32 .bf16) (harg6 : arg6.IsWhole)
    (x0 : Vec F S400x10000 .bf16) (x1 : Vec F S10000x128 .bf16) (x2 : Vec F S128x32 .f32) (x3 : Vec F S1x32 .f32) (x4 : Vec F S400x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__spmm1_kernel i arg1 harg1 arg2 harg2 arg3 harg3 arg4 harg4 arg5 harg5 arg6 harg6) K := by
  simp only [cc1__spmm1_kernel_eq_skeleton]; unfold cc1__spmm1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input window's buffer still at its block and the output window's at `out1_5` of the five input blocks; the
    invariant the scoped buffers outside the pipeline and the generator register, untouched; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents the region was entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- What the body finds in each input window's buffer: the block of the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows spelled out one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input memrefs hold their blocks, so the triple above applies; the invariant and
    what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/- The third kernel call of the idealized kernel program (the second aggregation: a 400-row strip of the
   adjacency array, in the narrow format, times the whole 10000x32 feature array, one strip per grid point, 25 points), at any float
   instance. Its body reads its two input windows whole, forms the product and writes its one output window whole.
   This module gives, at the buffer contents `V` found when the region is entered: each window's block at a grid
   point, what the body leaves in the output window, the body's triple, the pipeline's proof data, and the body
   obligation at every grid point. -/
import proofs.«162869_g88759794139180_cont_sun_c4_43_14_alg».proof.Proof.Gen.KernelIdeal.Launch
import proofs.«162869_g88759794139180_cont_sun_c4_43_14_alg».proof.Proof.Gen.KernelIdeal.Skeleton
import proofs.«162869_g88759794139180_cont_sun_c4_43_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has ten thousand coordinates is checked by structural
-- recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered; everything below is stated at this parameter
variable (V : (c : Dev nD) → (b : Ref sig .tc) → Buf (Elt F) ((c : Thread nD τ).loc b))

/-! ## The windows' blocks -/

/-- The block of window `w` at grid point `t`: that rectangle of the window's array, as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the adjacency strip, a new block at each point): whatever proof data has `V`'s array and a body that
    leaves the block where it is, the body finds the block of the point in the current staging buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the feature array, one block, brought in at the first point only): at a later point nothing is
    fetched, the block index has not moved and the body left the block in place, so the buffer still holds it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is its whole buffer -/

abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x32 := Rect.unit (s := S400x32) ![0, 0] S400x32.size inb_S400x32_S400x32_0_0

/-! ## What the body leaves in the output window -/

/-- The output window's staging buffer after the body, from the two input blocks: the one store, of the product
    of what the two loads read. -/
def out2_2 (x0 : Vec F S400x10000 .bf16) (x1 : Vec F S10000x32 .bf16) : Vec F S400x32 .f32 :=
  View.canon [⟨r2_2, k2_pay1 (View.ld x0 r2_0) (View.ld x1 r2_1)⟩]

/-- The one stored rectangle is the whole buffer, so every index lies in it. -/
theorem cover2_2 (p0 : Vec F S400x32 .f32) (y : S400x32.Idx) :
    ∃ pc ∈ ([⟨r2_2, p0⟩] : List (View.Piece (Elt F) S400x32 .f32)), y ∈ pc.1.set :=
  View.cover_of_tiled [⟨r2_2, p0⟩] S400x32.size (by rfl) y

/-! ## The body's triple -/

set_option maxHeartbeats 1000000 in
/-- On whole staging memrefs — the inputs' holding `x0`, `x1`, the output's holding anything — the body runs to a
    continuation that is given the inputs' back unchanged and the output's at `out2_2 x0 x1`. The body also loads the
    output buffer before it stores; nothing reads that value. -/
theorem sound_kernel2 (c : Dev nD) (E : Set ℕ) (i : grid2.Coords)
    (arg1 : Memref sig .tc .vmem S400x10000 .bf16) (harg1 : arg1.IsWhole)
    (arg2 : Memref sig .tc .vmem S10000x32 .bf16) (harg2 : arg2.IsWhole)
    (arg3 : Memref sig .tc .vmem S400x32 .f32) (harg3 : arg3.IsWhole)
    (x0 : Vec F S400x10000 .bf16) (x1 : Vec F S10000x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__spmm2_kernel i arg1 harg1 arg2 harg2 arg3 harg3) K := by
  simp only [cc2__spmm2_kernel_eq_skeleton]; unfold cc2__spmm2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input window's buffer still at its block and the output window's at `out2_2` of the two input blocks; the
    invariant the scoped buffers outside the pipeline and the generator register, untouched; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents the region was entered with. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- What the body finds in each input window's buffer: the block of the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows spelled out one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks, so the triple above applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/- The run of the whole idealized kernel program, at any float instance: two host operations, the first kernel region,
   two host operations, the second and the third kernel regions. This module names what every unscoped buffer of a
   core holds at each of the six boundaries between those five stretches (a fold from the launch memory: a host
   stretch's result, a region's arrays at what its pipeline leaves in them), gives each region as a segment between
   two of those thread states, and launches the program over the five segments. It concludes that every execution
   terminates with every unscoped buffer at the last boundary's contents; that the six argument arrays end as
   launched; and what the result array and the regions' input arrays hold in terms of the earlier boundaries. -/
import proofs.«162869_g88759794139180_cont_sun_c4_43_14_alg».proof.Proof.Gen.KernelIdeal.Launch
import proofs.«162869_g88759794139180_cont_sun_c4_43_14_alg».proof.Proof.KIRegion0
import proofs.«162869_g88759794139180_cont_sun_c4_43_14_alg».proof.Proof.KIRegion1
import proofs.«162869_g88759794139180_cont_sun_c4_43_14_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch memory and the generator registers' launch states
variable (m : (ℓ : Loc nD τ sig) → Buf (Elt F) ℓ) (ρ : Dev nD → PrngReg)

/-! # The buffer contents at each boundary: a fold through the program -/

/-! ## What the host stretches write -/

/-- The references the operations of the first host stretch write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- No operation of that stretch allocates a buffer. -/
theorem hostOps0_fresh : (hostOps0 : List (HloOp τ sig (Elt F))).Forall fun op => op.fresh = ∅ := by
  simp only [List.Forall]; repeat' constructor

/-- The references the operations of the second host stretch write. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- No operation of that stretch allocates a buffer. -/
theorem hostOps1_fresh : (hostOps1 : List (HloOp τ sig (Elt F))).Forall fun op => op.fresh = ∅ := by
  simp only [List.Forall]; repeat' constructor

/-! ## The six boundaries -/

/-- Core `c`'s buffers at launch. -/
abbrev W0 : Dev nD → Valuation τ sig (Elt F) := fun c b => (s₀ m ρ).mem ((c : Dev nD), b)
/-- After the first host stretch: what the first region is entered with. -/
abbrev W1 : Dev nD → Valuation τ sig (Elt F) := fun c => StableHlo.after hostOps0 (W0 m ρ c)
/-- The same, read at the core's references (what the first region's proof data take). -/
abbrev V1 : (c : Dev nD) → (b : Ref sig .tc) → Buf (Elt F) ((c : Thread nD τ).loc b) := fun c b => W1 m ρ c b
/-- The first host stretch leaves every buffer it does not write as launched. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- When region 0 is left: its arrays at what the pipeline leaves in them (an input array as entered, an output array
    with every write-back folded in), every other buffer as the region was entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's references. -/
abbrev V2 : (c : Dev nD) → (b : Ref sig .tc) → Buf (Elt F) ((c : Thread nD τ).loc b) := fun c b => W2 m ρ c b
/-- At the exit each array of the region holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second region is entered with. -/
abbrev W3 : Dev nD → Valuation τ sig (Elt F) := fun c => StableHlo.after hostOps1 (W2 m ρ c)
/-- The same, read at the core's references (what the second region's proof data take). -/
abbrev V3 : (c : Dev nD) → (b : Ref sig .tc) → Buf (Elt F) ((c : Thread nD τ).loc b) := fun c b => W3 m ρ c b
/-- The second host stretch leaves every buffer it does not write as the first region left it. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- When region 1 is left: its arrays at what the pipeline leaves in them (an input array as entered, an output array
    with every write-back folded in), every other buffer as the region was entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's references. -/
abbrev V4 : (c : Dev nD) → (b : Ref sig .tc) → Buf (Elt F) ((c : Thread nD τ).loc b) := fun c b => W4 m ρ c b
/-- At the exit each array of the region holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- When region 2 is left: its arrays at what the pipeline leaves in them (an input array as entered, an output array
    with every write-back folded in), every other buffer as the region was entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same, read at the core's references. -/
abbrev V5 : (c : Dev nD) → (b : Ref sig .tc) → Buf (Elt F) ((c : Thread nD τ).loc b) := fun c b => W5 m ρ c b
/-- At the exit each array of the region holds what the pipeline leaves, and every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched

No host operation writes an argument array; the first region reads two of them through input windows, whose arrays
the pipeline leaves as entered, and no other region stages one. So the fold at an argument's buffer walks back to the
launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-! # The proof data family and the thread state -/

/-- No pipeline has a prefetched table. -/
abbrev adm : (p : Fin 3) → (pcfgs (F := F) p).Adm := fun p => (cfgs p).toPCfg_adm
/-- Each pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends holding
    those references at the stretch's result on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, apart from the core owing nothing: every unscoped buffer at the last boundary's contents,
    the generator register at some state. -/
abbrev Tₙ (c : Dev nD) : sProp 𝕄 := iprop(StableHlo.held (c : Thread nD τ) (Pipeline.ucRefs τ sig) (W5 m ρ c) ∗ ∃ r, prngReg c r)

/-! # The regions as segments -/

-- a library lemma stated over the pinned configuration unifies with the printed one only when unification may unfold
-- plain definitions in a metavariable's type
set_option backward.isDefEq.respectTransparency.types false in
/-- The first kernel region as a segment: entered holding every unscoped buffer at `W1`, left holding them at
    `W2`. At entry its arrays are split out of the unscoped buffers and at exit put back at their
    final contents; the generator register goes into the pipeline's invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (q_eq0 (V1 m ρ) c)) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (V1 m ρ) c 0]
      icases HO with ⟨%W, HO⟩; iexists W; isplitr
      · ipureintro; intro x _; exact Or.inl ((recorded_eq0 (V1 m ρ) c 0).symm ▸ Set.mem_univ x)
      iexact HO
    isplitl [Hp]; · iexact Hp
    iexact Hrest
  hin c := by
    rw [show (pdats m ρ 0 c).Φ 0 = (dat0 (V1 m ρ) c).Φ 0 from rfl]
    iintro ⟨Hp, -, Hr⟩
    iapply (Phi0_in (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    have hgive := Phi0_out (V1 m ρ) c
    iintro HΦ
    ihave Hg := hgive $$ HΦ
    icases Hg with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (q_eq0 (V1 m ρ) c))
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed_eq0 (V1 m ρ) c _]
    icases HO with ⟨%W, -, HO⟩; iexists W; iexact HO

-- a library lemma stated over the pinned configuration unifies with the printed one only when unification may unfold
-- plain definitions in a metavariable's type
set_option backward.isDefEq.respectTransparency.types false in
/-- The second kernel region as a segment: entered holding every unscoped buffer at `W3`, left holding them at
    `W4`. At entry its arrays are split out of the unscoped buffers and at exit put back at their
    final contents; the generator register goes into the pipeline's invariant and comes back; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third kernel region as a segment: entered holding every unscoped buffer at `W4`, left holding them at
    `W5` beside the generator register (the last thread state). At entry its arrays are split out of the unscoped buffers and at exit put back at their
    final contents; the generator register goes into the pipeline's invariant and comes back; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every execution terminates and every final state holds each of the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run m ρ)

/-! # What the regions read and what the program returns, by the earlier boundaries -/

/-- The result array when the program returns: what the third region's pipeline leaves in its output array. -/
theorem W5_main_v6 (c : Dev nD) : W5 m ρ c (Proc.devRef .tc main_v6) = (dat2 (V4 m ρ) c).arrAt 2 cfg2.N :=
  W5_arr m ρ c 2

/-! ## What the third region is entered with in its two input arrays -/

/-- The adjacency in the narrow format: what the first region's pipeline left in its first output array; the second
    region reads it through an input window and the second host stretch does not write it. -/
theorem V4_main_v2_0 (c : Dev nD) : V4 m ρ c main_v2_0 = (dat0 (V1 m ρ) c).arrAt 4 cfg0.N :=
  calc W4 m ρ c (Proc.devRef .tc main_v2_0)
    _ = W3 m ρ c (Proc.devRef .tc main_v2_0) := (W4_arr m ρ c 0).trans (((dat1 (V3 m ρ) c).arrAt_in 0 rfl _).trans (A_eq1 (V3 m ρ) c 0))
    _ = W2 m ρ c (Proc.devRef .tc main_v2_0) := W3_of m ρ c main_v2_0 (by decide)
    _ = (dat0 (V1 m ρ) c).arrAt 4 cfg0.N := W2_arr m ρ c 4
/-- The second layer's scaled features: what the second region's pipeline leaves in its output array. -/
theorem V4_main_v5 (c : Dev nD) : V4 m ρ c main_v5 = (dat1 (V3 m ρ) c).arrAt 5 cfg1.N :=
  W4_arr m ρ c 5

/-! ## What the second region is entered with in its five input arrays -/

/-- The three arrays the first region's pipeline wrote, untouched by the second host stretch. -/
theorem V3_main_v2_0 (c : Dev nD) : V3 m ρ c main_v2_0 = (dat0 (V1 m ρ) c).arrAt 4 cfg0.N :=
  (W3_of m ρ c main_v2_0 (by decide)).trans (W2_arr m ρ c 4)
theorem V3_main_v2_1 (c : Dev nD) : V3 m ρ c main_v2_1 = (dat0 (V1 m ρ) c).arrAt 5 cfg0.N :=
  (W3_of m ρ c main_v2_1 (by decide)).trans (W2_arr m ρ c 5)
theorem V3_main_v2_2 (c : Dev nD) : V3 m ρ c main_v2_2 = (dat0 (V1 m ρ) c).arrAt 6 cfg0.N :=
  (W3_of m ρ c main_v2_2 (by decide)).trans (W2_arr m ρ c 6)

/-- The two arguments the second host stretch reads reach it as launched. -/
theorem W2_main_arg4 (c : Dev nD) : W2 m ρ c (Proc.devRef .tc main_arg4) = m ((c : Thread nD τ).loc main_arg4) :=
  (W2_of_ne m ρ c main_arg4 (by decide)).trans ((W1_of m ρ c main_arg4 (by decide)).trans rfl)
theorem W2_main_arg5 (c : Dev nD) : W2 m ρ c (Proc.devRef .tc main_arg5) = m ((c : Thread nD τ).loc main_arg5) :=
  (W2_of_ne m ρ c main_arg5 (by decide)).trans ((W1_of m ρ c main_arg5 (by decide)).trans rfl)

/-- The second layer's weights, transposed by the second host stretch from the launched argument. -/
theorem V3_main_v3 (c : Dev nD) : V3 m ρ c main_v3
    = transpose S128x32 [1, 0] (m ((c : Thread nD τ).loc main_arg4)) transposes_S32x128_S128x32_1_0 := by
  rw [← W2_main_arg4 m ρ c]
  show StableHlo.after hostOps1 (W2 m ρ c) (Proc.devRef .tc main_v3) = _
  after_results
/-- The second layer's bias as a row, reshaped by the second host stretch from the launched argument. -/
theorem V3_main_v4 (c : Dev nD) : V3 m ρ c main_v4
    = fun i => shapeCast S1x32 (m ((c : Thread nD τ).loc main_arg5)) shapeCasts_S32_S1x32 i := by
  rw [← W2_main_arg5 m ρ c]
  show StableHlo.after hostOps1 (W2 m ρ c) (Proc.devRef .tc main_v4) = _
  after_results
  rfl

/-! ## What the first region is entered with in its four input arrays -/

/-- The two arguments it stages reach it as launched: the first host stretch writes neither. -/
theorem V1_main_arg0 (c : Dev nD) : V1 m ρ c main_arg0 = m ((c : Thread nD τ).loc main_arg0) :=
  (W1_of m ρ c main_arg0 (by decide)).trans rfl
theorem V1_main_arg1 (c : Dev nD) : V1 m ρ c main_arg1 = m ((c : Thread nD τ).loc main_arg1) :=
  (W1_of m ρ c main_arg1 (by decide)).trans rfl
/-- The first layer's weights, transposed by the first host stretch from the launched argument. -/
theorem V1_main_v0 (c : Dev nD) : V1 m ρ c main_v0
    = transpose S128x128 [1, 0] (m ((c : Thread nD τ).loc main_arg2)) transposes_S128x128_S128x128_1_0 := by
  show StableHlo.after hostOps0 (W0 m ρ c) (Proc.devRef .tc main_v0) = _
  after_results
  all_goals rfl
/-- The first layer's bias as a row, reshaped by the first host stretch from the launched argument. -/
theorem V1_main_v1 (c : Dev nD) : V1 m ρ c main_v1
    = fun i => shapeCast S1x128 (m ((c : Thread nD τ).loc main_arg3)) shapeCasts_S128_S1x128 i := by
  show StableHlo.after hostOps0 (W0 m ρ c) (Proc.devRef .tc main_v1) = _
  after_results
  all_goals rfl

end Cert.KernelIdeal.Hand

end
-- ==== Proof.KBRegion0Runs.lean ====
/-
  The first kernel region's body (the pass that streams the adjacency array in 125 strips of 80 rows), run once per
  case of its three conditionals, with the contents each store leaves NAMED. The grid meets exactly three cases: the
  first strip (column accumulator stored), a middle strip (column accumulator added to), the last strip (added to, and
  then the two resident outputs computed from the completed accumulators).
-/
import proofs.«162869_g88759794139180_cont_sun_c4_43_14_alg».proof.Proof.Gen.Kernel.Launch
import proofs.«162869_g88759794139180_cont_sun_c4_43_14_alg».proof.Proof.Gen.Kernel.Skeleton
import proofs.«162869_g88759794139180_cont_sun_c4_43_14_alg».proof.Proof.Gen.Kernel.Points
import proofs.«162869_g88759794139180_cont_sun_c4_43_14_alg».proof.Proof.LibSingleWrite
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first body's three conditions, from the grid coordinate -/

/-- "this is the first strip": the coordinate equals 0. -/
abbrev cond0_0 (i : grid0.Coords) : Prop := (Scalar.cmpi .ne (Scalar.extui (Scalar.cmpi .eq (BitVec.ofNat 32 (i 0).val) 0#32)) 0#32) = 1#1
/-- "this is a later strip": the coordinate is positive. -/
abbrev cond0_1 (i : grid0.Coords) : Prop := (Scalar.cmpi .ne (Scalar.extui (Scalar.cmpi .sgt (BitVec.ofNat 32 (i 0).val) 0#32)) 0#32) = 1#1
/-- "this is the last strip": the coordinate equals 124. -/
abbrev cond0_2 (i : grid0.Coords) : Prop := k0_cond3 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val ≠ 0 :=
  (by decide +kernel : ∀ t : Fin grid0.N, cond0_1 (grid0.coords t) ↔ t.val ≠ 0)
theorem hcond0_2 : ∀ t : Fin cfg0.N, cond0_2 (grid0.coords t) ↔ t.val = 124 :=
  (by decide +kernel : ∀ t : Fin grid0.N, cond0_2 (grid0.coords t) ↔ t.val = 124)

/-! ## The body's rectangles and the contents its stores leave -/

theorem hz2 : (![0, 0] : Fin 2 → ℕ) = fun _ => 0 := by funext a; fin_cases a <;> rfl

/-- The 80 rows of the row accumulator that strip `i` writes. -/
abbrev rOff (i : grid0.Coords) : Rect S10000x1 := Rect.unit (s := S10000x1) (k0_off1 i) S80x1.size (k0_off1_inb i)

/-- One whole-buffer store leaves its payload, whatever the buffer held. -/
theorem read_whole_store {sg : RefSig} {κ : Kind} {sp : Space} {S : Shape} {e : EltTy} {off : Fin S.rank → Nat} (h : off = fun _ => 0)
    (inb : ∀ a, off a + S.size a ≤ S.size a) (v : View sg κ sp S e) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

set_option maxHeartbeats 4000000 in
/-- The FIRST strip: the strip cast into output 0; its row sums over rows 0..79 of the row accumulator, the other rows
    kept; its column sums STORED as the column accumulator, whatever it held. The resident outputs are left as found. -/
theorem sound0_A (c : Dev nD) (i : grid0.Coords)
    (arg1 : Memref sig .tc .vmem S80x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S80x10000 .bf16) (harg5 : arg5.IsWhole) (arg6 : Memref sig .tc .vmem S10000x128 .bf16) (harg6 : arg6.IsWhole)
    (arg7 : Memref sig .tc .vmem S10000x1 .f32) (harg7 : arg7.IsWhole) (arg8 : Memref sig .tc .vmem S10000x1 .f32) (harg8 : arg8.IsWhole)
    (arg9 : Memref sig .tc .vmem S10000x1 .f32) (harg9 : arg9.IsWhole)
    (hc0 : cond0_0 i) (hc1 : ¬cond0_1 i) (hc2 : ¬cond0_2 i)
    (x0 : Vec F S80x10000 .f32) (x1 : Vec F S10000x128 .f32) (x2 : Vec F S128x128 .f32) (x3 : Vec F S1x128 .f32) (xi5 : Vec F S10000x128 .bf16) (xi6 : Vec F S10000x1 .f32)
    (a8 : Vec F S10000x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare a8 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare xi5 ∗ owns (c : Thread nD τ) arg7 fullShare xi6
            ∗ owns (c : Thread nD τ) arg8 fullShare ((rOff i).overlay a8 (k0_pay2 x0)) ∗ owns (c : Thread nD τ) arg9 fullShare (k0_pay4 x0)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%d9, %f9, -, H9⟩, Hk⟩
    sl_exec (disch := first | exact hc0 | exact hc1 | exact hc2)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; isplitr; swap; · iexact H5
      ipureintro
      rw [read_whole_store hz2, View.readAt_eq_ld, hf1, View.ld_unit_zero hz2]
    isplitl [H6]
    · iexists f6; isplitr; · ipureintro; exact hf6
      iexact H6
    isplitl [H7]
    · iexists f7; isplitr; · ipureintro; exact hf7
      iexact H7
    isplitl [H8]
    · iexists _; isplitr; swap; · iexact H8
      ipureintro
      rw [View.read_writes_single, hf8, View.readAt_eq_ld, hf1, View.ld_unit_zero hz2]
    iexists _; isplitr; swap; · iexact H9
    ipureintro
    rw [read_whole_store hz2, View.readAt_eq_ld, hf1, View.ld_unit_zero hz2]

set_option maxHeartbeats 4000000 in
/-- A MIDDLE strip: the strip cast into output 0; its row sums over the strip's 80 rows of the row accumulator, the other
    rows kept; its column sums added to the column accumulator. The resident outputs are left as found. -/
theorem sound0_B (c : Dev nD) (i : grid0.Coords)
    (arg1 : Memref sig .tc .vmem S80x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S80x10000 .bf16) (harg5 : arg5.IsWhole) (arg6 : Memref sig .tc .vmem S10000x128 .bf16) (harg6 : arg6.IsWhole)
    (arg7 : Memref sig .tc .vmem S10000x1 .f32) (harg7 : arg7.IsWhole) (arg8 : Memref sig .tc .vmem S10000x1 .f32) (harg8 : arg8.IsWhole)
    (arg9 : Memref sig .tc .vmem S10000x1 .f32) (harg9 : arg9.IsWhole)
    (hc0 : ¬cond0_0 i) (hc1 : cond0_1 i) (hc2 : ¬cond0_2 i)
    (x0 : Vec F S80x10000 .f32) (x1 : Vec F S10000x128 .f32) (x2 : Vec F S128x128 .f32) (x3 : Vec F S1x128 .f32) (xi5 : Vec F S10000x128 .bf16) (xi6 : Vec F S10000x1 .f32)
    (a8 a9 : Vec F S10000x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xi6 ∗ owns (c : Thread nD τ) arg8 fullShare a8 ∗ owns (c : Thread nD τ) arg9 fullShare a9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare xi5 ∗ owns (c : Thread nD τ) arg7 fullShare xi6
            ∗ owns (c : Thread nD τ) arg8 fullShare ((rOff i).overlay a8 (k0_pay2 x0)) ∗ owns (c : Thread nD τ) arg9 fullShare (k0_pay5 x0 a9)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
    sl_exec (disch := first | exact hc0 | exact hc1 | exact hc2)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; isplitr; swap; · iexact H5
      ipureintro
      rw [read_whole_store hz2, View.readAt_eq_ld, hf1, View.ld_unit_zero hz2]
    isplitl [H6]
    · iexists f6; isplitr; · ipureintro; exact hf6
      iexact H6
    isplitl [H7]
    · iexists f7; isplitr; · ipureintro; exact hf7
      iexact H7
    isplitl [H8]
    · iexists _; isplitr; swap; · iexact H8
      ipureintro
      rw [View.read_writes_single, hf8, View.readAt_eq_ld, hf1, View.ld_unit_zero hz2]
    iexists _; isplitr; swap; · iexact H9
    ipureintro
    rw [read_whole_store hz2, View.readAt_eq_ld, hf1, View.ld_unit_zero hz2, View.readAt_eq_ld, hf9, View.ld_unit_zero hz2]

set_option maxHeartbeats 8000000 in
/-- The LAST strip: as a middle strip, and then, both accumulators being complete, the column factor √(row sum · column
    sum) stored whole into output 2 and the scaled first linear layer into output 1. Both are computed from the
    accumulators AFTER this strip's update. -/
theorem sound0_C (c : Dev nD) (i : grid0.Coords)
    (arg1 : Memref sig .tc .vmem S80x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S80x10000 .bf16) (harg5 : arg5.IsWhole) (arg6 : Memref sig .tc .vmem S10000x128 .bf16) (harg6 : arg6.IsWhole)
    (arg7 : Memref sig .tc .vmem S10000x1 .f32) (harg7 : arg7.IsWhole) (arg8 : Memref sig .tc .vmem S10000x1 .f32) (harg8 : arg8.IsWhole)
    (arg9 : Memref sig .tc .vmem S10000x1 .f32) (harg9 : arg9.IsWhole)
    (hc0 : ¬cond0_0 i) (hc1 : cond0_1 i) (hc2 : cond0_2 i)
    (x0 : Vec F S80x10000 .f32) (x1 : Vec F S10000x128 .f32) (x2 : Vec F S128x128 .f32) (x3 : Vec F S1x128 .f32)
    (a8 a9 : Vec F S10000x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare a8 ∗ owns (c : Thread nD τ) arg9 fullShare a9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay1 x0) ∗ owns (c : Thread nD τ) arg6 fullShare (k0_pay7 ((rOff i).overlay a8 (k0_pay2 x0)) (k0_pay5 x0 a9) x1 x2 x3) ∗ owns (c : Thread nD τ) arg7 fullShare (k0_pay6 ((rOff i).overlay a8 (k0_pay2 x0)) (k0_pay5 x0 a9))
            ∗ owns (c : Thread nD τ) arg8 fullShare ((rOff i).overlay a8 (k0_pay2 x0)) ∗ owns (c : Thread nD τ) arg9 fullShare (k0_pay5 x0 a9)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    sl_exec (disch := first | exact hc0 | exact hc1 | exact hc2)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; isplitr; swap; · iexact H5
      ipureintro
      rw [read_whole_store hz2, View.readAt_eq_ld, hf1, View.ld_unit_zero hz2]
    isplitl [H6]
    · iexists _; isplitr; swap; · iexact H6
      ipureintro
      sl_unfold_words
      simp only [read_whole_store (S := S10000x128) hz2, View.read_writes_single, View.readAt_eq_ld, hf1, hf2, hf3, hf4, hf8, hf9,
        View.ld_unit_zero (S := S80x10000) hz2, View.ld_unit_zero (S := S10000x1) hz2, View.ld_unit_zero (S := S10000x128) hz2,
        View.ld_unit_zero (S := S128x128) hz2, View.ld_unit_zero (S := S1x128) hz2, View.readCov_unit_zero (S := S10000x1) arg9.view hz2]
      try rfl
    isplitl [H7]
    · iexists _; isplitr; swap; · iexact H7
      ipureintro
      sl_unfold_words
      simp only [read_whole_store (S := S10000x1) hz2, View.read_writes_single, View.readAt_eq_ld, hf1, hf8, hf9,
        View.ld_unit_zero (S := S80x10000) hz2, View.ld_unit_zero (S := S10000x1) hz2, View.readCov_unit_zero (S := S10000x1) arg9.view hz2]
      try rfl
    isplitl [H8]
    · iexists _; isplitr; swap; · iexact H8
      ipureintro
      sl_unfold_words
      simp only [View.read_writes_single, View.readAt_eq_ld, hf1, hf8, View.ld_unit_zero (S := S80x10000) hz2]
      try rfl
    iexists _; isplitr; swap; · iexact H9
    ipureintro
    sl_unfold_words
    simp only [read_whole_store (S := S10000x1) hz2, View.readAt_eq_ld, hf1, hf9, View.ld_unit_zero (S := S80x10000) hz2, View.ld_unit_zero (S := S10000x1) hz2]
    try rfl

end Cert.Kernel.Hand

end
-- ==== Proof.KBRegion0Data.lean ====
/-
  The first kernel region's proof data: the windows' blocks, the two accumulators point by point, the invariant
  between points, and what each window's buffer holds after the body.
-/
import proofs.«162869_g88759794139180_cont_sun_c4_43_14_alg».proof.Proof.Gen.Kernel.Launch
import proofs.«162869_g88759794139180_cont_sun_c4_43_14_alg».proof.Proof.Gen.Kernel.Skeleton
import proofs.«162869_g88759794139180_cont_sun_c4_43_14_alg».proof.Proof.Gen.Kernel.Points
import proofs.«162869_g88759794139180_cont_sun_c4_43_14_alg».proof.Proof.KBRegion0Runs
import Idealize.ShloMosaic.Lib.Pipeline.Value
import Idealize.ShloMosaic.Lib.ValueIdx
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. Window 0 is the strip of 80 rows of the
    adjacency array; windows 1, 2, 3 are whole arrays (the features, the transposed first weight, the first bias as a row). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The blocks at their literal vector types. -/
abbrev x0At (c : Dev nD) (t : Fin cfg0.N) : Vec F S80x10000 .f32 := iblk0 V c 0 t
abbrev x1At (c : Dev nD) (t : Fin cfg0.N) : Vec F S10000x128 .f32 := iblk0 V c 1 t
abbrev x2At (c : Dev nD) (t : Fin cfg0.N) : Vec F S128x128 .f32 := iblk0 V c 2 t
abbrev x3At (c : Dev nD) (t : Fin cfg0.N) : Vec F S1x128 .f32 := iblk0 V c 3 t

/-! ## The memrefs the body is called with -/

abbrev scM0 : Memref sig .tc .vmem S10000x1 .f32 := Memref.whole cc0_scratch0
abbrev scM1 : Memref sig .tc .vmem S10000x1 .f32 := Memref.whole cc0_scratch1

/-! ## The two accumulators, point by point

After point `n` the ROW accumulator holds, on rows below 80·(n+1), the row sums of the strips so far (strip `k`'s
80 sums on rows 80k … 80k+79) and on the other rows whatever it held at entry, which nothing names: the recursion
starts from unspecified contents and only the rows already written are ever compared. The COLUMN accumulator holds the
running total of the strips' column sums. -/

/-- Contents nothing names. -/
def junk8 : Vec F S10000x1 .f32 := View.canon ([] : List (View.Piece (Elt F) S10000x1 .f32))

def accAt (c : Dev nD) : (n : ℕ) → n < cfg0.N → Vec F S10000x1 .f32 × Vec F S10000x1 .f32
  | 0, hn => ((rOff (grid0.coords ⟨0, hn⟩)).overlay junk8 (k0_pay2 (x0At V c ⟨0, hn⟩)), k0_pay4 (x0At V c ⟨0, hn⟩))
  | n + 1, hn => ((rOff (grid0.coords ⟨n + 1, hn⟩)).overlay (accAt c n (Nat.lt_of_succ_lt hn)).1 (k0_pay2 (x0At V c ⟨n + 1, hn⟩)),
      k0_pay5 (x0At V c ⟨n + 1, hn⟩) (accAt c n (Nat.lt_of_succ_lt hn)).2)

theorem accAt_zero (c : Dev nD) (t : Fin cfg0.N) (h : t.val = 0) :
    accAt V c t.val t.isLt = ((rOff (grid0.coords t)).overlay junk8 (k0_pay2 (x0At V c t)), k0_pay4 (x0At V c t)) := by
  obtain ⟨n, hn⟩ := t
  cases n with
  | zero => rfl
  | succ n => exact absurd h (Nat.succ_ne_zero n)

theorem accAt_pos (c : Dev nD) (t : Fin cfg0.N) (h : t.val ≠ 0) :
    accAt V c t.val t.isLt = ((rOff (grid0.coords t)).overlay (accAt V c (t.val - 1) (Nat.lt_of_le_of_lt (Nat.sub_le _ _) t.isLt)).1 (k0_pay2 (x0At V c t)),
      k0_pay5 (x0At V c t) (accAt V c (t.val - 1) (Nat.lt_of_le_of_lt (Nat.sub_le _ _) t.isLt)).2) := by
  obtain ⟨n, hn⟩ := t
  cases n with
  | zero => exact absurd rfl h
  | succ n => rfl

/-! ## Where strip `t`'s rows lie -/

theorem off0_0 : ∀ t : Fin cfg0.N, k0_off1 (grid0.coords t) 0 = 80 * t.val :=
  (by decide +kernel : ∀ t : Fin grid0.N, k0_off1 (grid0.coords t) 0 = 80 * t.val)
theorem off0_1 : ∀ t : Fin cfg0.N, k0_off1 (grid0.coords t) 1 = 0 :=
  (by decide +kernel : ∀ t : Fin grid0.N, k0_off1 (grid0.coords t) 1 = 0)

/-- Row `y` lies in strip `t`'s rectangle iff 80t ≤ row < 80t + 80. -/
theorem mem_rOff (t : Fin cfg0.N) (y : S10000x1.Idx) : y ∈ (rOff (grid0.coords t)).set ↔ 80 * t.val ≤ (y 0).val ∧ (y 0).val < 80 * t.val + 80 := by
  rw [Rect.mem_set_unit]
  constructor
  · intro h
    have h0 := h 0
    rw [off0_0 t] at h0
    exact h0
  · intro h a
    match a with
    | ⟨0, _⟩ =>
      show k0_off1 (grid0.coords t) 0 ≤ (y 0).val ∧ (y 0).val < k0_off1 (grid0.coords t) 0 + 80
      rw [off0_0 t]; exact h
    | ⟨1, _⟩ =>
      show k0_off1 (grid0.coords t) 1 ≤ (y 1).val ∧ (y 1).val < k0_off1 (grid0.coords t) 1 + 1
      rw [off0_1 t]
      have := Idealize.ShloMosaic.ValueIdx.idx2_lt1 y
      exact ⟨Nat.zero_le _, by omega⟩

/-- Overlaying strip `t`'s rows on two accumulators that agree below row 80t gives accumulators that agree below row 80(t+1). -/
theorem overlay_agree (t : Fin cfg0.N) (a b : Vec F S10000x1 .f32) (w : (rOff (grid0.coords t)).shape.Idx → Elt F .f32)
    (h : ∀ y : S10000x1.Idx, (y 0).val < 80 * t.val → a y = b y) (y : S10000x1.Idx) (hy : (y 0).val < 80 * (t.val + 1)) :
    (rOff (grid0.coords t)).overlay a w y = (rOff (grid0.coords t)).overlay b w y := by
  by_cases hm : y ∈ (rOff (grid0.coords t)).set
  · obtain ⟨x, rfl⟩ : ∃ x, (rOff (grid0.coords t)).emb x = y := (rOff (grid0.coords t)).exists_idx_of_mem hm
    rw [Rect.overlay_emb, Rect.overlay_emb]
  · rw [Rect.overlay_of_not_mem _ _ _ hm, Rect.overlay_of_not_mem _ _ _ hm]
    apply h
    rw [mem_rOff] at hm
    omega

/-! ## The invariant between points -/

/-- Before point `n`: nothing at the first point; afterwards the row accumulator agrees with `accAt` on the rows written so
    far and the column accumulator is `accAt`'s. -/
def Inv0 (c : Dev nD) (n : ℕ) (hn : n ≤ cfg0.N) (a8 a9 : Vec F S10000x1 .f32) : Prop :=
  ∀ hpos : n ≠ 0, (∀ y : S10000x1.Idx, (y 0).val < 80 * n → a8 y = (accAt V c (n - 1) (by omega)).1 y) ∧ a9 = (accAt V c (n - 1) (by omega)).2

/-- The region's invariant before point `n`: the two scratch accumulators owned at contents satisfying `Inv0`, the other
    scoped buffers at anything, the generator register at some state. -/
def PhiS0 (c : Dev nD) (n : ℕ) (hn : n ≤ cfg0.N) : sProp 𝕄 :=
  iprop((∃ a8 a9, ⌜Inv0 V c n hn a8 a9⌝ ∗ owns (c : Thread nD τ) scM0 fullShare a8 ∗ owns (c : Thread nD τ) scM1 fullShare a9)
    ∗ Pipeline.scopedRestBut (Ix := Unit) (Name := ℕ) (U := UR sig nD τ) (Lvl := ℕ) (Val := Elt F) spec0 c [cc0_scratch0, cc0_scratch1]
    ∗ ∃ r, prngReg c r)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (x0At V c t)
    | ⟨5, _⟩ => k0_pay7 (accAt V c t.val t.isLt).1 (accAt V c t.val t.isLt).2 (x1At V c t) (x2At V c t) (x3At V c t)
    | ⟨6, _⟩ => k0_pay6 (accAt V c t.val t.isLt).1 (accAt V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem q_eq0 (c : Dev nD) (w : Fin cfg0.W) : (dat0 V c).q w = fullShare := by dsimp only [dat0]
theorem recorded_eq0 (c : Dev nD) (t : Fin (cfg0.N + 1)) : (dat0 V c).recorded t = Set.univ := by dsimp only [dat0]
theorem owed_eq0 (c : Dev nD) (t : Fin (cfg0.N + 1)) : (dat0 V c).owed t = 0 := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (x0At V c t) := by dsimp only [dat0]
theorem after0_5 (c : Dev nD) (t : Fin cfg0.N) :
    (dat0 V c).after 5 t = k0_pay7 (accAt V c t.val t.isLt).1 (accAt V c t.val t.isLt).2 (x1At V c t) (x2At V c t) (x3At V c t) := by dsimp only [dat0]
theorem after0_6 (c : Dev nD) (t : Fin cfg0.N) : (dat0 V c).after 6 t = k0_pay6 (accAt V c t.val t.isLt).1 (accAt V c t.val t.isLt).2 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

theorem Phi_castSucc0 (c : Dev nD) (t : Fin cfg0.N) : (dat0 V c).Φ t.castSucc = PhiS0 V c t.val (Nat.le_of_lt t.isLt) := by
  dsimp only [dat0]; simp only [Fin.coe_castSucc]
theorem Phi_succ0 (c : Dev nD) (t : Fin cfg0.N) : (dat0 V c).Φ t.succ = PhiS0 V c (t.val + 1) t.isLt := by
  dsimp only [dat0]; simp only [Fin.val_succ]

/-! ## Where the resident outputs are idle -/

theorem idleAt0_5 : ∀ t : Fin cfg0.N, t.val ≠ 124 → cfg0.idle 5 (grid0.coords t) = true := by decide +kernel
theorem idleAt0_6 : ∀ t : Fin cfg0.N, t.val ≠ 124 → cfg0.idle 6 (grid0.coords t) = true := by decide +kernel
theorem liveAt0_5 : ∀ t : Fin cfg0.N, t.val = 124 → cfg0.idle 5 (grid0.coords t) = false := by decide +kernel
theorem liveAt0_6 : ∀ t : Fin cfg0.N, t.val = 124 → cfg0.idle 6 (grid0.coords t) = false := by decide +kernel
theorem noFlush0_5 : ∀ t : Fin cfg0.N, t.val ≠ 124 → (cfg0.win 5).flush t = false := by decide +kernel
theorem noFlush0_6 : ∀ t : Fin cfg0.N, t.val ≠ 124 → (cfg0.win 6).flush t = false := by decide +kernel

end Cert.Kernel.Hand

end
-- ==== Proof.KBRegion0.lean ====
/-
  The first kernel region: the invariant's step from point to point, the body obligation by cases on the strip (first,
  middle, last), and the invariant at the region's two ends.
-/
import proofs.«162869_g88759794139180_cont_sun_c4_43_14_alg».proof.Proof.Gen.Kernel.Launch
import proofs.«162869_g88759794139180_cont_sun_c4_43_14_alg».proof.Proof.Gen.Kernel.Skeleton
import proofs.«162869_g88759794139180_cont_sun_c4_43_14_alg».proof.Proof.Gen.Kernel.Points
import proofs.«162869_g88759794139180_cont_sun_c4_43_14_alg».proof.Proof.KBRegion0Data
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant's step -/

theorem Inv0_succ (c : Dev nD) (t : Fin cfg0.N) (a8 a9 : Vec F S10000x1 .f32)
    (h8 : ∀ y : S10000x1.Idx, (y 0).val < 80 * (t.val + 1) → a8 y = (accAt V c t.val t.isLt).1 y) (h9 : a9 = (accAt V c t.val t.isLt).2) :
    Inv0 V c (t.val + 1) t.isLt a8 a9 := fun _ => ⟨h8, h9⟩

/-- After the first strip. -/
theorem inv_first (c : Dev nD) (t : Fin cfg0.N) (h0 : t.val = 0) (a8 : Vec F S10000x1 .f32) :
    Inv0 V c (t.val + 1) t.isLt ((rOff (grid0.coords t)).overlay a8 (k0_pay2 (x0At V c t))) (k0_pay4 (x0At V c t)) := by
  refine Inv0_succ V c t _ _ (fun y hy => ?_) ?_
  · rw [accAt_zero V c t h0]
    exact overlay_agree t a8 junk8 _ (fun y hy => absurd hy (by omega)) y hy
  · rw [accAt_zero V c t h0]

/-- After a later strip, from the invariant before it. -/
theorem inv_later (c : Dev nD) (t : Fin cfg0.N) (h0 : t.val ≠ 0) (a8 a9 : Vec F S10000x1 .f32) (hinv : Inv0 V c t.val (Nat.le_of_lt t.isLt) a8 a9) :
    Inv0 V c (t.val + 1) t.isLt ((rOff (grid0.coords t)).overlay a8 (k0_pay2 (x0At V c t))) (k0_pay5 (x0At V c t) a9) := by
  obtain ⟨h8, h9⟩ := hinv h0
  refine Inv0_succ V c t _ _ (fun y hy => ?_) ?_
  · rw [accAt_pos V c t h0]
    exact overlay_agree t a8 _ _ h8 y hy
  · rw [accAt_pos V c t h0, h9]

/-- At the last strip every row has been written: the updated accumulators ARE `accAt`'s. -/
theorem acc_last (c : Dev nD) (t : Fin cfg0.N) (h124 : t.val = 124) (a8 a9 : Vec F S10000x1 .f32) (hinv : Inv0 V c t.val (Nat.le_of_lt t.isLt) a8 a9) :
    (rOff (grid0.coords t)).overlay a8 (k0_pay2 (x0At V c t)) = (accAt V c t.val t.isLt).1 ∧ k0_pay5 (x0At V c t) a9 = (accAt V c t.val t.isLt).2 := by
  have h0 : t.val ≠ 0 := by omega
  obtain ⟨h8, h9⟩ := hinv h0
  refine ⟨funext fun y => ?_, ?_⟩
  · rw [accAt_pos V c t h0]
    exact overlay_agree t a8 _ _ h8 y (by have := Idealize.ShloMosaic.ValueIdx.idx2_lt0 y; omega)
  · rw [accAt_pos V c t h0, h9]

/-! ## The body obligation, at a generic point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point: the inputs' memrefs hold their blocks; the point is the first strip, a middle strip or the
    last, and that case's run applies; the invariant hands the run the two accumulators and takes them back updated;
    the resident outputs are handed back untouched except at the last strip, where they hold the values computed from
    the completed accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi_succ0, Phi_castSucc0]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  have hN : t.val < 125 := lt_of_lt_of_eq t.isLt (show cfg0.N = 125 from N_0)
  unfold PhiS0
  by_cases h0 : t.val = 0
  · have h124 : t.val ≠ 124 := by omega
    rw [Dat.leavesExact_idle (dat0 V c) 5 t (idleAt0_5 t h124) (noFlush0_5 t h124), Dat.leavesExact_idle (dat0 V c) 6 t (idleAt0_6 t h124) (noFlush0_6 t h124)]
    iintro ⟨⟨⟨%a8, %a9, %hinv, HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
    iapply (sound0_A c (grid0.coords t) _ _ _ _ _ _ _ _ _ _ _ _ _ _ scM0 (Memref.isWhole_whole _) scM1 (Memref.isWhole_whole _) ((hcond0_0 t).mpr h0) (fun h => (hcond0_1 t).mp h h0) (fun h => h124 ((hcond0_2 t).mp h))
      (x0At V c t) (x1At V c t) (x2At V c t) (x3At V c t) _ _ a8 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS8]; · iexact HS8
    isplitl [HS9]; · iexists _; iexact HS9
    iintro ⟨H0, H1, H2, H3, H4, H5, H6, HS8, HS9⟩
    isplitl [HS8 HS9 Hrest Hg]
    · isplitl [HS8 HS9]
      · iexists _, _; isplitr
        · ipureintro; exact inv_first V c t h0 a8
        isplitl [HS8]; · iexact HS8
        iexact HS9
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    iexists d6; iexact H6
  · by_cases h124 : t.val = 124
    · rw [show (dat0 V c).leavesExact 5 t = owns (c : Thread nD τ) (st0_5 t) fullShare ((dat0 V c).after 5 t) from by
        unfold Dat.leavesExact; rw [liveAt0_5 t h124], after0_5]
      rw [show (dat0 V c).leavesExact 6 t = owns (c : Thread nD τ) (st0_6 t) fullShare ((dat0 V c).after 6 t) from by
        unfold Dat.leavesExact; rw [liveAt0_6 t h124], after0_6]
      iintro ⟨⟨⟨%a8, %a9, %hinv, HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
      obtain ⟨e8, e9⟩ := acc_last V c t h124 a8 a9 hinv
      iapply (sound0_C c (grid0.coords t) _ _ _ _ _ _ _ _ _ _ _ _ _ _ scM0 (Memref.isWhole_whole _) scM1 (Memref.isWhole_whole _) (fun h => h0 ((hcond0_0 t).mp h)) ((hcond0_1 t).mpr h0) ((hcond0_2 t).mpr h124)
        (x0At V c t) (x1At V c t) (x2At V c t) (x3At V c t) a8 a9 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS8]; · iexact HS8
      isplitl [HS9]; · iexact HS9
      iintro ⟨H0, H1, H2, H3, H4, H5, H6, HS8, HS9⟩
      isplitl [HS8 HS9 Hrest Hg]
      · isplitl [HS8 HS9]
        · iexists _, _; isplitr
          · ipureintro; exact inv_later V c t h0 a8 a9 hinv
          isplitl [HS8]; · iexact HS8
          iexact HS9
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (Entails.of_eq (show owns (c : Thread nD τ) (st0_5 t) fullShare (k0_pay7 ((rOff (grid0.coords t)).overlay a8 (k0_pay2 (x0At V c t))) (k0_pay5 (x0At V c t) a9) (x1At V c t) (x2At V c t) (x3At V c t))
            = owns (c : Thread nD τ) (st0_5 t) fullShare (k0_pay7 (accAt V c t.val t.isLt).1 (accAt V c t.val t.isLt).2 (x1At V c t) (x2At V c t) (x3At V c t)) from by rw [e8, e9]))
        iexact H5
      iapply (Entails.of_eq (show owns (c : Thread nD τ) (st0_6 t) fullShare (k0_pay6 ((rOff (grid0.coords t)).overlay a8 (k0_pay2 (x0At V c t))) (k0_pay5 (x0At V c t) a9))
          = owns (c : Thread nD τ) (st0_6 t) fullShare (k0_pay6 (accAt V c t.val t.isLt).1 (accAt V c t.val t.isLt).2) from by rw [e8, e9]))
      iexact H6
    · rw [Dat.leavesExact_idle (dat0 V c) 5 t (idleAt0_5 t h124) (noFlush0_5 t h124), Dat.leavesExact_idle (dat0 V c) 6 t (idleAt0_6 t h124) (noFlush0_6 t h124)]
      iintro ⟨⟨⟨%a8, %a9, %hinv, HS8, HS9⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound0_B c (grid0.coords t) _ _ _ _ _ _ _ _ _ _ _ _ _ _ scM0 (Memref.isWhole_whole _) scM1 (Memref.isWhole_whole _) (fun h => h0 ((hcond0_0 t).mp h)) ((hcond0_1 t).mpr h0) (fun h => h124 ((hcond0_2 t).mp h))
        (x0At V c t) (x1At V c t) (x2At V c t) (x3At V c t) _ _ a8 a9 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS8]; · iexact HS8
      isplitl [HS9]; · iexact HS9
      iintro ⟨H0, H1, H2, H3, H4, H5, H6, HS8, HS9⟩
      isplitl [HS8 HS9 Hrest Hg]
      · isplitl [HS8 HS9]
        · iexists _, _; isplitr
          · ipureintro; exact inv_later V c t h0 a8 a9 hinv
          isplitl [HS8]; · iexact HS8
          iexact HS9
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

theorem scratch_mem : ([cc0_scratch0, cc0_scratch1] : List (Ref sig .tc)).Forall fun b =>
    b.isScoped = true ∧ ∀ (w : Fin 7) (s : Fin (spec0 w).nbuf), ((spec0 w).stage s).view.ref ≠ b := by decide

/-- The scoped buffers no window stages: the two accumulators, then the rest unopened. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] scratch_mem (by decide)

/-- At the first point the invariant asks nothing of the accumulators: it is the generator register and the scoped buffers
    no window stages, the two accumulators named among them. -/
theorem Phi0_in (c : Dev nD) :
    iprop((∃ r, prngReg c r) ∗ Pipeline.scopedRest (Ix := Unit) (Name := ℕ) (U := UR sig nD τ) (Lvl := ℕ) (Val := Elt F) spec0 c)
      ⊢ ((dat0 V c).Φ 0 : sProp 𝕄) := by
  rw [show (dat0 V c).Φ 0 = PhiS0 V c 0 (Nat.zero_le _) from rfl]
  unfold PhiS0
  rw [scopedRest0_split]
  simp only [scM0, scM1, owns_whole]
  iintro ⟨Hg, ⟨⟨%f8, H8⟩, ⟨%f9, H9⟩⟩, Hrest⟩
  isplitl [H8 H9]
  · iexists f8, f9; isplitr
    · ipureintro; exact fun h => absurd rfl h
    isplitl [H8]; · iexact H8
    iexact H9
  isplitl [Hrest]; · iexact Hrest
  iexact Hg

/-- At the last point it gives them back, the accumulators at whatever they hold. -/
theorem Phi0_out (c : Dev nD) :
    ((dat0 V c).Φ (Fin.last cfg0.N) : sProp 𝕄)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c cfg0.N (le_refl _) from rfl]
  unfold PhiS0
  rw [scopedRest0_split]
  simp only [scM0, scM1, owns_whole]
  iintro ⟨⟨%a8, %a9, -, H8, H9⟩, Hrest, Hg⟩
  isplitl [Hg]; · iexact Hg
  isplitl [H8 H9]
  · isplitl [H8]; · iexists _; iexact H8
    iexists _; iexact H9
  iexact Hrest

end Cert.Kernel.Hand

end
-- ==== Proof.KBRegion1.lean ====
/- The second kernel call of the kernel program (the first aggregation fused with the second layer's
   dense map: a 400-row strip of the adjacency array, in the narrow format, times the 10000x128 scaled features, the
   positive part of that, times the 128x32 weights, plus the bias row, each row then scaled by its entry of the scaling column and
   rounded to the narrow format; one strip per grid point, 25 points), at any float instance. Its body reads its
   five input windows whole and writes its one output window whole. This module gives, at the buffer contents `V`
   found when the region is entered: each window's block at a grid point, what the body leaves in the output
   window, the body's triple, the pipeline's proof data, and the body obligation at every grid point. -/
import proofs.«162869_g88759794139180_cont_sun_c4_43_14_alg».proof.Proof.Gen.Kernel.Launch
import proofs.«162869_g88759794139180_cont_sun_c4_43_14_alg».proof.Proof.Gen.Kernel.Skeleton
import proofs.«162869_g88759794139180_cont_sun_c4_43_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has ten thousand coordinates is checked by structural
-- recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered; everything below is stated at this parameter
variable (V : (c : Dev nD) → (b : Ref sig .tc) → Buf (Elt F) ((c : Thread nD τ).loc b))

/-! ## The windows' blocks -/

/-- The block of window `w` at grid point `t`: that rectangle of the window's array, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the adjacency strip, a new block at each point): whatever proof data has `V`'s array and a body that leaves the block
    where it is, the body finds the block of the point in the current staging buffer, fetched there or not (when it
    is not, the block index has not moved since the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the first layer's scaled features, one block, brought in at the first point only): whatever proof data has `V`'s array and a body that leaves the block
    where it is, the body finds the block of the point in the current staging buffer, fetched there or not (when it
    is not, the block index has not moved since the point before). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the second layer's weights, one block, brought in at the first point only): whatever proof data has `V`'s array and a body that leaves the block
    where it is, the body finds the block of the point in the current staging buffer, fetched there or not (when it
    is not, the block index has not moved since the point before). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the second layer's bias row, one block, brought in at the first point only): whatever proof data has `V`'s array and a body that leaves the block
    where it is, the body finds the block of the point in the current staging buffer, fetched there or not (when it
    is not, the block index has not moved since the point before). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (the strip of the scaling column, a new block at each point): whatever proof data has `V`'s array and a body that leaves the block
    where it is, the body finds the block of the point in the current staging buffer, fetched there or not (when it
    is not, the block index has not moved since the point before). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is its whole buffer -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S128x32 := Rect.unit (s := S128x32) ![0, 0] S128x32.size inb_S128x32_S128x32_0_0
abbrev r1_3 : Rect S1x32 := Rect.unit (s := S1x32) ![0, 0] S1x32.size inb_S1x32_S1x32_0_0
abbrev r1_4 : Rect S400x1 := Rect.unit (s := S400x1) ![0, 0] S400x1.size inb_S400x1_S400x1_0_0
abbrev r1_5 : Rect S400x32 := Rect.unit (s := S400x32) ![0, 0] S400x32.size inb_S400x32_S400x32_0_0

/-! ## What the body leaves in the output window -/

/-- The output window's staging buffer after the body, from the five input blocks: the one store, of the value
    computed from what the five loads read. -/
def out1_5 (x0 : Vec F S400x10000 .bf16) (x1 : Vec F S10000x128 .bf16) (x2 : Vec F S128x32 .f32) (x3 : Vec F S1x32 .f32) (x4 : Vec F S400x1 .f32) : Vec F S400x32 .bf16 :=
  View.canon [⟨r1_5, k1_pay1 (View.ld x0 r1_0) (View.ld x1 r1_1) (View.ld x2 r1_2) (View.ld x3 r1_3) (View.ld x4 r1_4)⟩]

/-- The one stored rectangle is the whole buffer, so every index lies in it. -/
theorem cover1_5 (p0 : Vec F S400x32 .bf16) (y : S400x32.Idx) :
    ∃ pc ∈ ([⟨r1_5, p0⟩] : List (View.Piece (Elt F) S400x32 .bf16)), y ∈ pc.1.set :=
  View.cover_of_tiled [⟨r1_5, p0⟩] S400x32.size (by rfl) y

/-! ## The body's triple -/

set_option maxHeartbeats 1000000 in
/-- On whole staging memrefs — the inputs' holding `x0 … x4`, the output's holding anything — the body runs to a
    continuation that is given the inputs' back unchanged and the output's at `out1_5` of them. The body also loads
    the output buffer before it stores; nothing reads that value. -/
theorem sound_kernel1 (c : Dev nD) (E : Set ℕ) (i : grid1.Coords)
    (arg1 : Memref sig .tc .vmem S400x10000 .bf16) (harg1 : arg1.IsWhole)
    (arg2 : Memref sig .tc .vmem S10000x128 .bf16) (harg2 : arg2.IsWhole)
    (arg3 : Memref sig .tc .vmem S128x32 .f32) (harg3 : arg3.IsWhole)
    (arg4 : Memref sig .tc .vmem S1x32 .f32) (harg4 : arg4.IsWhole)
    (arg5 : Memref sig .tc .vmem S400x1 .f32) (harg5 : arg5.IsWhole)
    (arg6 : Memref sig .tc .vmem S400x32 .bf16) (harg6 : arg6.IsWhole)
    (x0 : Vec F S400x10000 .bf16) (x1 : Vec F S10000x128 .bf16) (x2 : Vec F S128x32 .f32) (x3 : Vec F S1x32 .f32) (x4 : Vec F S400x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__spmm1_kernel i arg1 harg1 arg2 harg2 arg3 harg3 arg4 harg4 arg5 harg5 arg6 harg6) K := by
  simp only [cc1__spmm1_kernel_eq_skeleton]; unfold cc1__spmm1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input window's buffer still at its block and the output window's at `out1_5` of the five input blocks; the
    invariant the scoped buffers outside the pipeline and the generator register, untouched; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents the region was entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- What the body finds in each input window's buffer: the block of the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows spelled out one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input memrefs hold their blocks, so the triple above applies; the invariant and
    what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRegion2.lean ====
/- The third kernel call of the kernel program (the second aggregation: a 400-row strip of the
   adjacency array, in the narrow format, times the whole 10000x32 feature array, one strip per grid point, 25 points), at any float
   instance. Its body reads its two input windows whole, forms the product and writes its one output window whole.
   This module gives, at the buffer contents `V` found when the region is entered: each window's block at a grid
   point, what the body leaves in the output window, the body's triple, the pipeline's proof data, and the body
   obligation at every grid point. -/
import proofs.«162869_g88759794139180_cont_sun_c4_43_14_alg».proof.Proof.Gen.Kernel.Launch
import proofs.«162869_g88759794139180_cont_sun_c4_43_14_alg».proof.Proof.Gen.Kernel.Skeleton
import proofs.«162869_g88759794139180_cont_sun_c4_43_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle whose long axis has ten thousand coordinates is checked by structural
-- recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered; everything below is stated at this parameter
variable (V : (c : Dev nD) → (b : Ref sig .tc) → Buf (Elt F) ((c : Thread nD τ).loc b))

/-! ## The windows' blocks -/

/-- The block of window `w` at grid point `t`: that rectangle of the window's array, as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the adjacency strip, a new block at each point): whatever proof data has `V`'s array and a body that
    leaves the block where it is, the body finds the block of the point in the current staging buffer. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the feature array, one block, brought in at the first point only): at a later point nothing is
    fetched, the block index has not moved and the body left the block in place, so the buffer still holds it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is its whole buffer -/

abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x32 := Rect.unit (s := S400x32) ![0, 0] S400x32.size inb_S400x32_S400x32_0_0

/-! ## What the body leaves in the output window -/

/-- The output window's staging buffer after the body, from the two input blocks: the one store, of the product
    of what the two loads read. -/
def out2_2 (x0 : Vec F S400x10000 .bf16) (x1 : Vec F S10000x32 .bf16) : Vec F S400x32 .f32 :=
  View.canon [⟨r2_2, k2_pay1 (View.ld x0 r2_0) (View.ld x1 r2_1)⟩]

/-- The one stored rectangle is the whole buffer, so every index lies in it. -/
theorem cover2_2 (p0 : Vec F S400x32 .f32) (y : S400x32.Idx) :
    ∃ pc ∈ ([⟨r2_2, p0⟩] : List (View.Piece (Elt F) S400x32 .f32)), y ∈ pc.1.set :=
  View.cover_of_tiled [⟨r2_2, p0⟩] S400x32.size (by rfl) y

/-! ## The body's triple -/

set_option maxHeartbeats 1000000 in
/-- On whole staging memrefs — the inputs' holding `x0`, `x1`, the output's holding anything — the body runs to a
    continuation that is given the inputs' back unchanged and the output's at `out2_2 x0 x1`. The body also loads the
    output buffer before it stores; nothing reads that value. -/
theorem sound_kernel2 (c : Dev nD) (E : Set ℕ) (i : grid2.Coords)
    (arg1 : Memref sig .tc .vmem S400x10000 .bf16) (harg1 : arg1.IsWhole)
    (arg2 : Memref sig .tc .vmem S10000x32 .bf16) (harg2 : arg2.IsWhole)
    (arg3 : Memref sig .tc .vmem S400x32 .f32) (harg3 : arg3.IsWhole)
    (x0 : Vec F S400x10000 .bf16) (x1 : Vec F S10000x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__spmm2_kernel i arg1 harg1 arg2 harg2 arg3 harg3) K := by
  simp only [cc2__spmm2_kernel_eq_skeleton]; unfold cc2__spmm2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input window's buffer still at its block and the output window's at `out2_2` of the two input blocks; the
    invariant the scoped buffers outside the pipeline and the generator register, untouched; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents the region was entered with. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- What the body finds in each input window's buffer: the block of the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows spelled out one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input memrefs hold their blocks, so the triple above applies; the invariant and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBRun.lean ====
/- The run of the whole kernel program, at any float instance: two host operations, the first kernel region,
   two host operations, the second and the third kernel regions. This module names what every unscoped buffer of a
   core holds at each of the six boundaries between those five stretches (a fold from the launch memory: a host
   stretch's result, a region's arrays at what its pipeline leaves in them), gives each region as a segment between
   two of those thread states, and launches the program over the five segments. It concludes that every execution
   terminates with every unscoped buffer at the last boundary's contents; that the six argument arrays end as
   launched; and what the result array and the regions' input arrays hold in terms of the earlier boundaries. -/
import proofs.«162869_g88759794139180_cont_sun_c4_43_14_alg».proof.Proof.Gen.Kernel.Launch
import proofs.«162869_g88759794139180_cont_sun_c4_43_14_alg».proof.Proof.KBRegion0
import proofs.«162869_g88759794139180_cont_sun_c4_43_14_alg».proof.Proof.KBRegion1
import proofs.«162869_g88759794139180_cont_sun_c4_43_14_alg».proof.Proof.KBRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch memory and the generator registers' launch states
variable (m : (ℓ : Loc nD τ sig) → Buf (Elt F) ℓ) (ρ : Dev nD → PrngReg)

/-! # The buffer contents at each boundary: a fold through the program -/

/-! ## What the host stretches write -/

/-- The references the operations of the first host stretch write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- No operation of that stretch allocates a buffer. -/
theorem hostOps0_fresh : (hostOps0 : List (HloOp τ sig (Elt F))).Forall fun op => op.fresh = ∅ := by
  simp only [List.Forall]; repeat' constructor

/-- The references the operations of the second host stretch write. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- No operation of that stretch allocates a buffer. -/
theorem hostOps1_fresh : (hostOps1 : List (HloOp τ sig (Elt F))).Forall fun op => op.fresh = ∅ := by
  simp only [List.Forall]; repeat' constructor

/-! ## The six boundaries -/

/-- Core `c`'s buffers at launch. -/
abbrev W0 : Dev nD → Valuation τ sig (Elt F) := fun c b => (s₀ m ρ).mem ((c : Dev nD), b)
/-- After the first host stretch: what the first region is entered with. -/
abbrev W1 : Dev nD → Valuation τ sig (Elt F) := fun c => StableHlo.after hostOps0 (W0 m ρ c)
/-- The same, read at the core's references (what the first region's proof data take). -/
abbrev V1 : (c : Dev nD) → (b : Ref sig .tc) → Buf (Elt F) ((c : Thread nD τ).loc b) := fun c b => W1 m ρ c b
/-- The first host stretch leaves every buffer it does not write as launched. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- When region 0 is left: its arrays at what the pipeline leaves in them (an input array as entered, an output array
    with every write-back folded in), every other buffer as the region was entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's references. -/
abbrev V2 : (c : Dev nD) → (b : Ref sig .tc) → Buf (Elt F) ((c : Thread nD τ).loc b) := fun c b => W2 m ρ c b
/-- At the exit each array of the region holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second region is entered with. -/
abbrev W3 : Dev nD → Valuation τ sig (Elt F) := fun c => StableHlo.after hostOps1 (W2 m ρ c)
/-- The same, read at the core's references (what the second region's proof data take). -/
abbrev V3 : (c : Dev nD) → (b : Ref sig .tc) → Buf (Elt F) ((c : Thread nD τ).loc b) := fun c b => W3 m ρ c b
/-- The second host stretch leaves every buffer it does not write as the first region left it. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-- When region 1 is left: its arrays at what the pipeline leaves in them (an input array as entered, an output array
    with every write-back folded in), every other buffer as the region was entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the core's references. -/
abbrev V4 : (c : Dev nD) → (b : Ref sig .tc) → Buf (Elt F) ((c : Thread nD τ).loc b) := fun c b => W4 m ρ c b
/-- At the exit each array of the region holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- When region 2 is left: its arrays at what the pipeline leaves in them (an input array as entered, an output array
    with every write-back folded in), every other buffer as the region was entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same, read at the core's references. -/
abbrev V5 : (c : Dev nD) → (b : Ref sig .tc) → Buf (Elt F) ((c : Thread nD τ).loc b) := fun c b => W5 m ρ c b
/-- At the exit each array of the region holds what the pipeline leaves, and every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched

No host operation writes an argument array; the first region reads two of them through input windows, whose arrays
the pipeline leaves as entered, and no other region stages one. So the fold at an argument's buffer walks back to the
launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := W1_of m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-! # The proof data family and the thread state -/

/-- No pipeline has a prefetched table. -/
abbrev adm : (p : Fin 3) → (pcfgs (F := F) p).Adm := fun p => (cfgs p).toPCfg_adm
/-- Each pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends holding
    those references at the stretch's result on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, apart from the core owing nothing: every unscoped buffer at the last boundary's contents,
    the generator register at some state. -/
abbrev Tₙ (c : Dev nD) : sProp 𝕄 := iprop(StableHlo.held (c : Thread nD τ) (Pipeline.ucRefs τ sig) (W5 m ρ c) ∗ ∃ r, prngReg c r)

/-! # The regions as segments -/

-- a library lemma stated over the pinned configuration unifies with the printed one only when unification may unfold
-- plain definitions in a metavariable's type
set_option backward.isDefEq.respectTransparency.types false in
/-- The first kernel region as a segment: entered holding every unscoped buffer at `W1`, left holding them at
    `W2`. At entry its arrays are split out of the unscoped buffers and at exit put back at their
    final contents; the generator register goes into the pipeline's invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (q_eq0 (V1 m ρ) c)) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (V1 m ρ) c 0]
      icases HO with ⟨%W, HO⟩; iexists W; isplitr
      · ipureintro; intro x _; exact Or.inl ((recorded_eq0 (V1 m ρ) c 0).symm ▸ Set.mem_univ x)
      iexact HO
    isplitl [Hp]; · iexact Hp
    iexact Hrest
  hin c := by
    rw [show (pdats m ρ 0 c).Φ 0 = (dat0 (V1 m ρ) c).Φ 0 from rfl]
    iintro ⟨Hp, -, Hr⟩
    iapply (Phi0_in (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    have hgive := Phi0_out (V1 m ρ) c
    iintro HΦ
    ihave Hg := hgive $$ HΦ
    icases Hg with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (q_eq0 (V1 m ρ) c))
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed_eq0 (V1 m ρ) c _]
    icases HO with ⟨%W, -, HO⟩; iexists W; iexact HO

-- a library lemma stated over the pinned configuration unifies with the printed one only when unification may unfold
-- plain definitions in a metavariable's type
set_option backward.isDefEq.respectTransparency.types false in
/-- The second kernel region as a segment: entered holding every unscoped buffer at `W3`, left holding them at
    `W4`. At entry its arrays are split out of the unscoped buffers and at exit put back at their
    final contents; the generator register goes into the pipeline's invariant and comes back; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third kernel region as a segment: entered holding every unscoped buffer at `W4`, left holding them at
    `W5` beside the generator register (the last thread state). At entry its arrays are split out of the unscoped buffers and at exit put back at their
    final contents; the generator register goes into the pipeline's invariant and comes back; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as segments, and the launch -/

/-- The five segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every execution terminates and every final state holds each of the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run m ρ)

/-! # What the regions read and what the program returns, by the earlier boundaries -/

/-- The result array when the program returns: what the third region's pipeline leaves in its output array. -/
theorem W5_main_v6 (c : Dev nD) : W5 m ρ c (Proc.devRef .tc main_v6) = (dat2 (V4 m ρ) c).arrAt 2 cfg2.N :=
  W5_arr m ρ c 2

/-! ## What the third region is entered with in its two input arrays -/

/-- The adjacency in the narrow format: what the first region's pipeline left in its first output array; the second
    region reads it through an input window and the second host stretch does not write it. -/
theorem V4_main_v2_0 (c : Dev nD) : V4 m ρ c main_v2_0 = (dat0 (V1 m ρ) c).arrAt 4 cfg0.N :=
  calc W4 m ρ c (Proc.devRef .tc main_v2_0)
    _ = W3 m ρ c (Proc.devRef .tc main_v2_0) := (W4_arr m ρ c 0).trans (((dat1 (V3 m ρ) c).arrAt_in 0 rfl _).trans (A_eq1 (V3 m ρ) c 0))
    _ = W2 m ρ c (Proc.devRef .tc main_v2_0) := W3_of m ρ c main_v2_0 (by decide)
    _ = (dat0 (V1 m ρ) c).arrAt 4 cfg0.N := W2_arr m ρ c 4
/-- The second layer's scaled features: what the second region's pipeline leaves in its output array. -/
theorem V4_main_v5 (c : Dev nD) : V4 m ρ c main_v5 = (dat1 (V3 m ρ) c).arrAt 5 cfg1.N :=
  W4_arr m ρ c 5

/-! ## What the second region is entered with in its five input arrays -/

/-- The three arrays the first region's pipeline wrote, untouched by the second host stretch. -/
theorem V3_main_v2_0 (c : Dev nD) : V3 m ρ c main_v2_0 = (dat0 (V1 m ρ) c).arrAt 4 cfg0.N :=
  (W3_of m ρ c main_v2_0 (by decide)).trans (W2_arr m ρ c 4)
theorem V3_main_v2_1 (c : Dev nD) : V3 m ρ c main_v2_1 = (dat0 (V1 m ρ) c).arrAt 5 cfg0.N :=
  (W3_of m ρ c main_v2_1 (by decide)).trans (W2_arr m ρ c 5)
theorem V3_main_v2_2 (c : Dev nD) : V3 m ρ c main_v2_2 = (dat0 (V1 m ρ) c).arrAt 6 cfg0.N :=
  (W3_of m ρ c main_v2_2 (by decide)).trans (W2_arr m ρ c 6)

/-- The two arguments the second host stretch reads reach it as launched. -/
theorem W2_main_arg4 (c : Dev nD) : W2 m ρ c (Proc.devRef .tc main_arg4) = m ((c : Thread nD τ).loc main_arg4) :=
  (W2_of_ne m ρ c main_arg4 (by decide)).trans ((W1_of m ρ c main_arg4 (by decide)).trans rfl)
theorem W2_main_arg5 (c : Dev nD) : W2 m ρ c (Proc.devRef .tc main_arg5) = m ((c : Thread nD τ).loc main_arg5) :=
  (W2_of_ne m ρ c main_arg5 (by decide)).trans ((W1_of m ρ c main_arg5 (by decide)).trans rfl)

/-- The second layer's weights, transposed by the second host stretch from the launched argument. -/
theorem V3_main_v3 (c : Dev nD) : V3 m ρ c main_v3
    = transpose S128x32 [1, 0] (m ((c : Thread nD τ).loc main_arg4)) transposes_S32x128_S128x32_1_0 := by
  rw [← W2_main_arg4 m ρ c]
  show StableHlo.after hostOps1 (W2 m ρ c) (Proc.devRef .tc main_v3) = _
  after_results
/-- The second layer's bias as a row, reshaped by the second host stretch from the launched argument. -/
theorem V3_main_v4 (c : Dev nD) : V3 m ρ c main_v4
    = fun i => shapeCast S1x32 (m ((c : Thread nD τ).loc main_arg5)) shapeCasts_S32_S1x32 i := by
  rw [← W2_main_arg5 m ρ c]
  show StableHlo.after hostOps1 (W2 m ρ c) (Proc.devRef .tc main_v4) = _
  after_results
  rfl

/-! ## What the first region is entered with in its four input arrays -/

/-- The two arguments it stages reach it as launched: the first host stretch writes neither. -/
theorem V1_main_arg0 (c : Dev nD) : V1 m ρ c main_arg0 = m ((c : Thread nD τ).loc main_arg0) :=
  (W1_of m ρ c main_arg0 (by decide)).trans rfl
theorem V1_main_arg1 (c : Dev nD) : V1 m ρ c main_arg1 = m ((c : Thread nD τ).loc main_arg1) :=
  (W1_of m ρ c main_arg1 (by decide)).trans rfl
/-- The first layer's weights, transposed by the first host stretch from the launched argument. -/
theorem V1_main_v0 (c : Dev nD) : V1 m ρ c main_v0
    = transpose S128x128 [1, 0] (m ((c : Thread nD τ).loc main_arg2)) transposes_S128x128_S128x128_1_0 := by
  show StableHlo.after hostOps0 (W0 m ρ c) (Proc.devRef .tc main_v0) = _
  after_results
  all_goals rfl
/-- The first layer's bias as a row, reshaped by the first host stretch from the launched argument. -/
theorem V1_main_v1 (c : Dev nD) : V1 m ρ c main_v1
    = fun i => shapeCast S1x128 (m ((c : Thread nD τ).loc main_arg3)) shapeCasts_S128_S1x128 i := by
  show StableHlo.after hostOps0 (W0 m ρ c) (Proc.devRef .tc main_v1) = _
  after_results
  all_goals rfl

end Cert.Kernel.Hand

end
-- ==== Proof.Frames.lean ====
/-
  The three frame claims and the idealization claim. Each kernel program's frame is its run through the three kernel
  regions (the same development read at the word-level instance and at the ideal one); the reference has no kernel, and
  its frame is its run with the result dropped. The idealized program has the word-level program's operations unchanged, so the idealization claim has nothing to preserve.
-/
import proofs.«162869_g88759794139180_cont_sun_c4_43_14_alg».proof.Defs
import proofs.«162869_g88759794139180_cont_sun_c4_43_14_alg».proof.Proof.KIRun
import proofs.«162869_g88759794139180_cont_sun_c4_43_14_alg».proof.Proof.KBRun
import proofs.«162869_g88759794139180_cont_sun_c4_43_14_alg».proof.Proof.Gen.ReferenceIdeal.Run
import proofs.«162869_g88759794139180_cont_sun_c4_43_14_alg».proof.Proof.Gen.Pre_finite_inputs
import proofs.«162869_g88759794139180_cont_sun_c4_43_14_alg».proof.Proof.Gen.Kernel
import proofs.«162869_g88759794139180_cont_sun_c4_43_14_alg».proof.Proof.Gen.KernelIdeal
import proofs.«162869_g88759794139180_cont_sun_c4_43_14_alg».proof.Proof.Gen.ReferenceIdeal

noncomputable section

namespace Cert.Proof.Frames

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.KIFinal2.lean ====
/- From blocks to the array, for the third kernel call (the second aggregation). The pipeline visits 25 grid
   points; at point t the body reads rows 400t … 400t+399 of the 10000x10000 operand (its window moves with the
   point), the whole 10000x32 operand (its window stays), and writes rows 400t … 400t+399 of the 10000x32 result.
   So row i of the result array after the last write-back is the body's payload of the strip of the first operand
   that contains row i and of the whole second operand, read at row i's position inside the strip:
   one function `G2` of the two arrays as the region finds them, index by index. The 25 result blocks tile the
   array, so nothing of its contents at entry survives. -/
import proofs.«162869_g88759794139180_cont_sun_c4_43_14_alg».proof.Proof.KIRegion2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-! ## Strips of 400 rows -/

/-- Rows 400q … 400q+399 of an array of 10000 rows, as an array of 400 rows. -/
def strip400 {α : Type} {n : ℕ} (A : (⟨2, ![10000, n]⟩ : Shape).Idx → α) (q : Fin 25) : (⟨2, ![400, n]⟩ : Shape).Idx → α :=
  fun x => A (ix2 ⟨400 * q.val + (x 0).val, by have := idx2_lt0 x; have := q.isLt; omega⟩ ⟨(x 1).val, idx2_lt1 x⟩)

theorem strip400_apply {α : Type} {n : ℕ} (A : (⟨2, ![10000, n]⟩ : Shape).Idx → α) (q : Fin 25) (x : (⟨2, ![400, n]⟩ : Shape).Idx) :
    strip400 A q x = A (ix2 ⟨400 * q.val + (x 0).val, by have := idx2_lt0 x; have := q.isLt; omega⟩ ⟨(x 1).val, idx2_lt1 x⟩) := rfl

/-- The strip that contains row r. -/
def stripOf (r : ℕ) (h : r < 10000) : Fin 25 := ⟨r / 400, by omega⟩
/-- Row r's position inside its strip. -/
def rowIn (r : ℕ) : Fin 400 := ⟨r % 400, Nat.mod_lt _ (by norm_num)⟩

theorem stripOf_val (r : ℕ) (h : r < 10000) : (stripOf r h).val = r / 400 := rfl
theorem rowIn_val (r : ℕ) : (rowIn r).val = r % 400 := rfl

/-! ## The result array as one function of the two operand arrays -/

/-- Row i of the result: the payload of the strip of A containing row i and of all of B, at row i's position in the strip. -/
def G2 (A : S10000x10000.Idx → Elt F .bf16) (B : S10000x32.Idx → Elt F .bf16) : S10000x32.Idx → Elt F .f32 :=
  fun y => k2_pay1 (strip400 A (stripOf (y 0).val (idx2_lt0 y))) B (ix2 (rowIn (y 0).val) ⟨(y 1).val, idx2_lt1 y⟩)

theorem G2_apply (A : S10000x10000.Idx → Elt F .bf16) (B : S10000x32.Idx → Elt F .bf16) (y : S10000x32.Idx) :
    G2 A B y = k2_pay1 (strip400 A (stripOf (y 0).val (idx2_lt0 y))) B (ix2 (rowIn (y 0).val) ⟨(y 1).val, idx2_lt1 y⟩) := rfl

/-- At an index of the array that is position j of block q: the payload of strip q, at j. -/
theorem G2_at (A : S10000x10000.Idx → Elt F .bf16) (B : S10000x32.Idx → Elt F .bf16) (q : Fin 25) (j : S400x32.Idx)
    (y : S10000x32.Idx) (hy0 : (y 0).val = q.val * 400 + 1 * (j 0).val) (hy1 : (y 1).val = 0 * 32 + 1 * (j 1).val) :
    G2 A B y = k2_pay1 (strip400 A q) B j := by
  have hj0 := idx2_lt0 j
  have hq : stripOf (y 0).val (idx2_lt0 y) = q := Fin.ext (by rw [stripOf_val]; omega)
  have hj : ix2 (rowIn (y 0).val) (⟨(y 1).val, idx2_lt1 y⟩ : Fin 32) = j := by
    funext a
    match a with
    | ⟨0, _⟩ => exact Fin.ext (by show (y 0).val % 400 = (j 0).val; omega)
    | ⟨1, _⟩ => exact Fin.ext (by show (y 1).val = (j 1).val; omega)
  rw [G2_apply, hq, hj]

/-! ## The printed index maps over the grid -/

theorem hz2 : (![0, 0] : Fin 2 → Nat) = fun _ => 0 := funext fun a => by fin_cases a <;> rfl

/-- The grid point as a strip number. -/
def q2 (t : Fin cfg2.N) : Fin 25 := ⟨t.val, lt_of_lt_of_eq t.isLt N_2⟩

/-- Decided over the 25 points: the first operand's and the result's block index is (t, 0), the second operand's (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt F) ((c : Thread nD τ).loc b))

/-- The first operand's block at point t is strip t of its array. -/
theorem iblk2_0_eq (c : Dev nD) (t : Fin cfg2.N) :
    (iblk2 V c 0 t : Vec F S400x10000 .bf16) = strip400 (V c (Pipeline.arrRef spec2 0)) (q2 t) := by
  obtain ⟨e0, e1, -⟩ := idx2 t
  funext x
  unfold iblk2
  rw [View.read_apply]
  show V c (Pipeline.arrRef spec2 0) (((cfg2.win 0).blk t).view.emb x) = V c (Pipeline.arrRef spec2 0) _
  congr 1
  funext a
  apply Fin.ext
  match a with
  | ⟨0, _⟩ => show win2_0.index t (0 : Fin 2) * 400 + 1 * (x 0).val = 400 * t.val + (x 0).val; rw [e0]; omega
  | ⟨1, _⟩ => show win2_0.index t (1 : Fin 2) * 10000 + 1 * (x 1).val = (x 1).val; rw [e1]; omega

/-- The second operand's block at any point is its whole array. -/
theorem iblk2_1_eq (c : Dev nD) (t : Fin cfg2.N) :
    (iblk2 V c 1 t : Vec F S10000x32 .bf16) = V c (Pipeline.arrRef spec2 1) := by
  obtain ⟨-, -, e2, e3, -⟩ := idx2 t
  funext x
  unfold iblk2
  rw [View.read_apply]
  show V c (Pipeline.arrRef spec2 1) (((cfg2.win 1).blk t).view.emb x) = V c (Pipeline.arrRef spec2 1) x
  congr 1
  funext a
  apply Fin.ext
  match a with
  | ⟨0, _⟩ => show win2_1.index t (0 : Fin 2) * 10000 + 1 * (x 0).val = (x 0).val; rw [e2]; omega
  | ⟨1, _⟩ => show win2_1.index t (1 : Fin 2) * 32 + 1 * (x 1).val = (x 1).val; rw [e3]; omega

/-! ## What each point writes back, the cover, and the array after the last point -/

/-- What point t writes back is block t of `G2` of the two operand arrays as the region finds them. -/
theorem flushed2_eq (c : Dev nD) (t : Fin cfg2.N) :
    (dat2 V c).flushed 2 t
      = ((cfg2.win 2).blk t).view.read (Elt F) (G2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S400x10000) hz2, View.ld_unit_zero (S := S10000x32) hz2]
  rw [iblk2_0_eq, iblk2_1_eq]
  obtain ⟨-, -, -, -, e4, e5⟩ := idx2 t
  funext j
  rw [View.read_apply]
  refine (G2_at _ _ (q2 t) j _ ?_ ?_).symm
  · show win2_2.index t (0 : Fin 2) * 400 + 1 * (j 0).val = t.val * 400 + 1 * (j 0).val; rw [e4]
  · show win2_2.index t (1 : Fin 2) * 32 + 1 * (j 1).val = 0 * 32 + 1 * (j 1).val; rw [e5]

/-- An index of the result array is in point t's block iff each coordinate is in the block's range on its axis. -/
theorem mem_blk2 (t : Fin cfg2.N) (i : S10000x32.Idx) :
    i ∈ ((cfg2.win 2).blk t).view.set
      ↔ ∀ a : Fin 2, win2_2.index t a * S400x32.size a ≤ (i a).val ∧ (i a).val < win2_2.index t a * S400x32.size a + S400x32.size a := by
  show i ∈ ((View.whole main_v6).slice (win2_2.rect t)).set ↔ _
  rw [View.set_slice_whole, Rect.mem_set_unit]
  exact Iff.rfl

/-- Row r lies in the block of point r / 400: the 25 blocks tile the array. -/
theorem cover2 (i : S10000x32.Idx) : ∃ t : Fin cfg2.N, (cfg2.win 2).flush t = true ∧ i ∈ ((cfg2.win 2).blk t).view.set := by
  have hi0 := idx2_lt0 i
  have hi1 := idx2_lt1 i
  have hN : cfg2.N = 25 := N_2
  refine ⟨⟨(i 0).val / 400, by rw [hN]; omega⟩, flush2_2 _, ?_⟩
  rw [mem_blk2]
  obtain ⟨-, -, -, -, e4, e5⟩ := idx2 ⟨(i 0).val / 400, by rw [hN]; omega⟩
  intro a
  match a with
  | ⟨0, _⟩ =>
    show win2_2.index _ (0 : Fin 2) * 400 ≤ (i 0).val ∧ (i 0).val < win2_2.index _ (0 : Fin 2) * 400 + 400
    rw [e4]; show (i 0).val / 400 * 400 ≤ (i 0).val ∧ (i 0).val < (i 0).val / 400 * 400 + 400; omega
  | ⟨1, _⟩ =>
    show win2_2.index _ (1 : Fin 2) * 32 ≤ (i 1).val ∧ (i 1).val < win2_2.index _ (1 : Fin 2) * 32 + 32
    rw [e5]; omega

/-- The result array after the last write-back is `G2` of the two operand arrays as the region finds them. -/
theorem final2 (c : Dev nD) :
    (dat2 V c).arrAt 2 cfg2.N = G2 (V c (Pipeline.arrRef spec2 0)) (V c (Pipeline.arrRef spec2 1)) :=
  (dat2 V c).arrAt_eq_of_cover 2 _ (fun t _ => flushed2_eq V c t) cover2

end Cert.KernelIdeal.Hand

end
-- ==== Proof.KIFinal1.lean ====
/- From blocks to the array, for the second kernel call (the first aggregation fused with the second linear layer).
   The pipeline visits 25 grid points; at point t the body reads rows 400t … 400t+399 of the 10000x10000 operand and
   of the 10000x1 scaling column (their windows move with the point), the whole 10000x128, 128x32 and 1x32 operands
   (their windows stay), and writes rows 400t … 400t+399 of the 10000x32 result. So row i of the result array after
   the last write-back is the body's payload of the strips of the two moving operands that contain row i and of the
   three whole operands, read at row i's position inside the strip: one function `G1` of the five arrays as the
   region finds them, index by index. The 25 result blocks tile the array, so nothing of its contents at entry
   survives. -/
import proofs.«162869_g88759794139180_cont_sun_c4_43_14_alg».proof.Proof.KIRegion1
import proofs.«162869_g88759794139180_cont_sun_c4_43_14_alg».proof.Proof.KIFinal2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-! ## The result array as one function of the five operand arrays -/

/-- Row i of the result: the payload of the strips of A0 and A4 containing row i and of all of A1, A2, A3, at row
    i's position in the strip. -/
def G1 (A0 : S10000x10000.Idx → Elt F .bf16) (A1 : S10000x128.Idx → Elt F .bf16) (A2 : S128x32.Idx → Elt F .f32)
    (A3 : S1x32.Idx → Elt F .f32) (A4 : S10000x1.Idx → Elt F .f32) : S10000x32.Idx → Elt F .bf16 :=
  fun y => k1_pay1 (strip400 A0 (stripOf (y 0).val (idx2_lt0 y))) A1 A2 A3 (strip400 A4 (stripOf (y 0).val (idx2_lt0 y)))
    (ix2 (rowIn (y 0).val) ⟨(y 1).val, idx2_lt1 y⟩)

theorem G1_apply (A0 : S10000x10000.Idx → Elt F .bf16) (A1 : S10000x128.Idx → Elt F .bf16) (A2 : S128x32.Idx → Elt F .f32)
    (A3 : S1x32.Idx → Elt F .f32) (A4 : S10000x1.Idx → Elt F .f32) (y : S10000x32.Idx) :
    G1 A0 A1 A2 A3 A4 y
      = k1_pay1 (strip400 A0 (stripOf (y 0).val (idx2_lt0 y))) A1 A2 A3 (strip400 A4 (stripOf (y 0).val (idx2_lt0 y)))
          (ix2 (rowIn (y 0).val) ⟨(y 1).val, idx2_lt1 y⟩) := rfl

/-- At an index of the array that is position j of block q: the payload of strip q, at j. -/
theorem G1_at (A0 : S10000x10000.Idx → Elt F .bf16) (A1 : S10000x128.Idx → Elt F .bf16) (A2 : S128x32.Idx → Elt F .f32)
    (A3 : S1x32.Idx → Elt F .f32) (A4 : S10000x1.Idx → Elt F .f32) (q : Fin 25) (j : S400x32.Idx)
    (y : S10000x32.Idx) (hy0 : (y 0).val = q.val * 400 + 1 * (j 0).val) (hy1 : (y 1).val = 0 * 32 + 1 * (j 1).val) :
    G1 A0 A1 A2 A3 A4 y = k1_pay1 (strip400 A0 q) A1 A2 A3 (strip400 A4 q) j := by
  have hj0 := idx2_lt0 j
  have hq : stripOf (y 0).val (idx2_lt0 y) = q := Fin.ext (by rw [stripOf_val]; omega)
  have hj : ix2 (rowIn (y 0).val) (⟨(y 1).val, idx2_lt1 y⟩ : Fin 32) = j := by
    funext a
    match a with
    | ⟨0, _⟩ => exact Fin.ext (by show (y 0).val % 400 = (j 0).val; omega)
    | ⟨1, _⟩ => exact Fin.ext (by show (y 1).val = (j 1).val; omega)
  rw [G1_apply, hq, hj]

/-! ## The printed index maps over the grid -/

/-- The grid point as a strip number. -/
def q1 (t : Fin cfg1.N) : Fin 25 := ⟨t.val, lt_of_lt_of_eq t.isLt N_1⟩

/-- Decided over the 25 points: the block index of the two moving operands and of the result is (t, 0), that of
    the three whole operands (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt F) ((c : Thread nD τ).loc b))

/-- The first operand's block at point t is strip t of its array. -/
theorem iblk1_0_eq (c : Dev nD) (t : Fin cfg1.N) :
    (iblk1 V c 0 t : Vec F S400x10000 .bf16) = strip400 (V c (Pipeline.arrRef spec1 0)) (q1 t) := by
  obtain ⟨e0, e1, -⟩ := idx1 t
  funext x
  unfold iblk1
  rw [View.read_apply]
  show V c (Pipeline.arrRef spec1 0) (((cfg1.win 0).blk t).view.emb x) = V c (Pipeline.arrRef spec1 0) _
  congr 1
  funext a
  apply Fin.ext
  match a with
  | ⟨0, _⟩ => show win1_0.index t (0 : Fin 2) * 400 + 1 * (x 0).val = 400 * t.val + (x 0).val; rw [e0]; omega
  | ⟨1, _⟩ => show win1_0.index t (1 : Fin 2) * 10000 + 1 * (x 1).val = (x 1).val; rw [e1]; omega

/-- The second operand's block at any point is its whole array. -/
theorem iblk1_1_eq (c : Dev nD) (t : Fin cfg1.N) :
    (iblk1 V c 1 t : Vec F S10000x128 .bf16) = V c (Pipeline.arrRef spec1 1) := by
  obtain ⟨-, -, e2, e3, -⟩ := idx1 t
  funext x
  unfold iblk1
  rw [View.read_apply]
  show V c (Pipeline.arrRef spec1 1) (((cfg1.win 1).blk t).view.emb x) = V c (Pipeline.arrRef spec1 1) x
  congr 1
  funext a
  apply Fin.ext
  match a with
  | ⟨0, _⟩ => show win1_1.index t (0 : Fin 2) * 10000 + 1 * (x 0).val = (x 0).val; rw [e2]; omega
  | ⟨1, _⟩ => show win1_1.index t (1 : Fin 2) * 128 + 1 * (x 1).val = (x 1).val; rw [e3]; omega

/-- The third operand's block at any point is its whole array. -/
theorem iblk1_2_eq (c : Dev nD) (t : Fin cfg1.N) :
    (iblk1 V c 2 t : Vec F S128x32 .f32) = V c (Pipeline.arrRef spec1 2) := by
  obtain ⟨-, -, -, -, e4, e5, -⟩ := idx1 t
  funext x
  unfold iblk1
  rw [View.read_apply]
  show V c (Pipeline.arrRef spec1 2) (((cfg1.win 2).blk t).view.emb x) = V c (Pipeline.arrRef spec1 2) x
  congr 1
  funext a
  apply Fin.ext
  match a with
  | ⟨0, _⟩ => show win1_2.index t (0 : Fin 2) * 128 + 1 * (x 0).val = (x 0).val; rw [e4]; omega
  | ⟨1, _⟩ => show win1_2.index t (1 : Fin 2) * 32 + 1 * (x 1).val = (x 1).val; rw [e5]; omega

/-- The fourth operand's block at any point is its whole array. -/
theorem iblk1_3_eq (c : Dev nD) (t : Fin cfg1.N) :
    (iblk1 V c 3 t : Vec F S1x32 .f32) = V c (Pipeline.arrRef spec1 3) := by
  obtain ⟨-, -, -, -, -, -, e6, e7, -⟩ := idx1 t
  funext x
  unfold iblk1
  rw [View.read_apply]
  show V c (Pipeline.arrRef spec1 3) (((cfg1.win 3).blk t).view.emb x) = V c (Pipeline.arrRef spec1 3) x
  congr 1
  funext a
  apply Fin.ext
  match a with
  | ⟨0, _⟩ => show win1_3.index t (0 : Fin 2) * 1 + 1 * (x 0).val = (x 0).val; rw [e6]; omega
  | ⟨1, _⟩ => show win1_3.index t (1 : Fin 2) * 32 + 1 * (x 1).val = (x 1).val; rw [e7]; omega

/-- The scaling column's block at point t is strip t of its array. -/
theorem iblk1_4_eq (c : Dev nD) (t : Fin cfg1.N) :
    (iblk1 V c 4 t : Vec F S400x1 .f32) = strip400 (V c (Pipeline.arrRef spec1 4)) (q1 t) := by
  obtain ⟨-, -, -, -, -, -, -, -, e8, e9, -⟩ := idx1 t
  funext x
  unfold iblk1
  rw [View.read_apply]
  show V c (Pipeline.arrRef spec1 4) (((cfg1.win 4).blk t).view.emb x) = V c (Pipeline.arrRef spec1 4) _
  congr 1
  funext a
  apply Fin.ext
  match a with
  | ⟨0, _⟩ => show win1_4.index t (0 : Fin 2) * 400 + 1 * (x 0).val = 400 * t.val + (x 0).val; rw [e8]; omega
  | ⟨1, _⟩ => show win1_4.index t (1 : Fin 2) * 1 + 1 * (x 1).val = (x 1).val; rw [e9]; omega

/-! ## What each point writes back, the cover, and the array after the last point -/

/-- What point t writes back is block t of `G1` of the five operand arrays as the region finds them. -/
theorem flushed1_eq (c : Dev nD) (t : Fin cfg1.N) :
    (dat1 V c).flushed 5 t
      = ((cfg1.win 5).blk t).view.read (Elt F) (G1 (V c (Pipeline.arrRef spec1 0)) (V c (Pipeline.arrRef spec1 1))
          (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S400x10000) hz2, View.ld_unit_zero (S := S10000x128) hz2,
    View.ld_unit_zero (S := S128x32) hz2, View.ld_unit_zero (S := S1x32) hz2, View.ld_unit_zero (S := S400x1) hz2]
  rw [iblk1_0_eq, iblk1_1_eq, iblk1_2_eq, iblk1_3_eq, iblk1_4_eq]
  obtain ⟨-, -, -, -, -, -, -, -, -, -, e10, e11⟩ := idx1 t
  funext j
  rw [View.read_apply]
  refine (G1_at _ _ _ _ _ (q1 t) j _ ?_ ?_).symm
  · show win1_5.index t (0 : Fin 2) * 400 + 1 * (j 0).val = t.val * 400 + 1 * (j 0).val; rw [e10]
  · show win1_5.index t (1 : Fin 2) * 32 + 1 * (j 1).val = 0 * 32 + 1 * (j 1).val; rw [e11]

/-- An index of the result array is in point t's block iff each coordinate is in the block's range on its axis. -/
theorem mem_blk1 (t : Fin cfg1.N) (i : S10000x32.Idx) :
    i ∈ ((cfg1.win 5).blk t).view.set
      ↔ ∀ a : Fin 2, win1_5.index t a * S400x32.size a ≤ (i a).val ∧ (i a).val < win1_5.index t a * S400x32.size a + S400x32.size a := by
  show i ∈ ((View.whole main_v5).slice (win1_5.rect t)).set ↔ _
  rw [View.set_slice_whole, Rect.mem_set_unit]
  exact Iff.rfl

/-- Row r lies in the block of point r / 400: the 25 blocks tile the array. -/
theorem cover1 (i : S10000x32.Idx) : ∃ t : Fin cfg1.N, (cfg1.win 5).flush t = true ∧ i ∈ ((cfg1.win 5).blk t).view.set := by
  have hi0 := idx2_lt0 i
  have hi1 := idx2_lt1 i
  have hN : cfg1.N = 25 := N_1
  refine ⟨⟨(i 0).val / 400, by rw [hN]; omega⟩, flush1_5 _, ?_⟩
  rw [mem_blk1]
  obtain ⟨-, -, -, -, -, -, -, -, -, -, e10, e11⟩ := idx1 ⟨(i 0).val / 400, by rw [hN]; omega⟩
  intro a
  match a with
  | ⟨0, _⟩ =>
    show win1_5.index _ (0 : Fin 2) * 400 ≤ (i 0).val ∧ (i 0).val < win1_5.index _ (0 : Fin 2) * 400 + 400
    rw [e10]; show (i 0).val / 400 * 400 ≤ (i 0).val ∧ (i 0).val < (i 0).val / 400 * 400 + 400; omega
  | ⟨1, _⟩ =>
    show win1_5.index _ (1 : Fin 2) * 32 ≤ (i 1).val ∧ (i 1).val < win1_5.index _ (1 : Fin 2) * 32 + 32
    rw [e11]; omega

/-- The result array after the last write-back is `G1` of the five operand arrays as the region finds them. -/
theorem final1 (c : Dev nD) :
    (dat1 V c).arrAt 5 cfg1.N = G1 (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 5 _ (fun t _ => flushed1_eq V c t) cover1

end Cert.KernelIdeal.Hand

end
-- ==== Proof.KIPayloads.lean ====
/-
  The kernel's payloads read at an index, on the extended reals.

  Each payload is the body's arithmetic as one pure term of the values loaded.  Read at an index it is: the
  identity for a cast between float formats; for a product with a column of ones, the sum of the row (or, when the
  first axes are contracted, of the column); for the other products, the sum over the contracted axis of the
  operands' products, the accumulator being the zero array; a row [1,N] or a column [M,1] spread over [M,N] read at
  its one free coordinate.
-/
import proofs.«162869_g88759794139180_cont_sun_c4_43_14_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The products, each into the zero array, read at an index -/

/-! ### [80,10000] × [10000,1], second axis against first -/

theorem lhs_rowsum_non (i : S80x1.Idx) (q : dot_S80x10000_S10000x1_S80x1_1_0_0_1_n_n.contr.Idx) :
    (dot_S80x10000_S10000x1_S80x1_1_0_0_1_n_n.lhsIdx i q 0).val = (i 0).val := by
  unfold DotDims.lhsIdx
  rw [dif_neg (show ¬(0 : Fin S80x10000.rank) ∈ dot_S80x10000_S10000x1_S80x1_1_0_0_1_n_n.lhsBatch by decide),
    dif_pos (show (0 : Fin S80x10000.rank) ∈ dot_S80x10000_S10000x1_S80x1_1_0_0_1_n_n.lhsNonContracting by decide)]
  rfl
theorem lhs_rowsum_con (i : S80x1.Idx) (q : dot_S80x10000_S10000x1_S80x1_1_0_0_1_n_n.contr.Idx) :
    (dot_S80x10000_S10000x1_S80x1_1_0_0_1_n_n.lhsIdx i q 1).val = (q ⟨0, by decide⟩).val :=
  dot_S80x10000_S10000x1_S80x1_1_0_0_1_n_n.lhsIdx_val_of_single rfl i q
theorem rhs_rowsum_con (i : S80x1.Idx) (q : dot_S80x10000_S10000x1_S80x1_1_0_0_1_n_n.contr.Idx) :
    (dot_S80x10000_S10000x1_S80x1_1_0_0_1_n_n.rhsIdx i q 0).val = (q ⟨0, by decide⟩).val :=
  dot_S80x10000_S10000x1_S80x1_1_0_0_1_n_n.rhsIdx_val_of_single rfl i q
theorem rhs_rowsum_non (i : S80x1.Idx) (q : dot_S80x10000_S10000x1_S80x1_1_0_0_1_n_n.contr.Idx) :
    (dot_S80x10000_S10000x1_S80x1_1_0_0_1_n_n.rhsIdx i q 1).val = (i 1).val := by
  unfold DotDims.rhsIdx
  rw [dif_neg (show ¬(1 : Fin S10000x1.rank) ∈ dot_S80x10000_S10000x1_S80x1_1_0_0_1_n_n.rhsBatch by decide),
    dif_pos (show (1 : Fin S10000x1.rank) ∈ dot_S80x10000_S10000x1_S80x1_1_0_0_1_n_n.rhsNonContracting by decide)]
  rfl

/-- Into the zero array, at (p, q): the sum over the contracted axis of the operands' products. -/
theorem mm_rowsum {φ₁ φ₂ : FTy} (lhs : FVec Ideal S80x10000 φ₁) (rhs : FVec Ideal S10000x1 φ₂) (p : Fin 80) (q : Fin 1) :
    matmul dot_S80x10000_S10000x1_S80x1_1_0_0_1_n_n none lhs rhs (constant S80x1 .f32 0x00000000#32) (ix2 p q)
      = ∑ k : Fin 10000, lhs (ix2 p k) * rhs (ix2 k q) := by
  refine (Ideal.matmul_constant_zero_apply dot_S80x10000_S10000x1_S80x1_1_0_0_1_n_n none lhs rhs (ix2 p q)).trans ?_
  rw [← Equiv.sum_comp (contrEquiv1 dot_S80x10000_S10000x1_S80x1_1_0_0_1_n_n 10000 rfl rfl).symm]
  refine Finset.sum_congr rfl fun k _ => ?_
  have hk := contrEquiv1_symm_val dot_S80x10000_S10000x1_S80x1_1_0_0_1_n_n 10000 rfl rfl k
  have el : dot_S80x10000_S10000x1_S80x1_1_0_0_1_n_n.lhsIdx (ix2 p q) ((contrEquiv1 dot_S80x10000_S10000x1_S80x1_1_0_0_1_n_n 10000 rfl rfl).symm k) = ix2 p k := funext fun a => Fin.ext (by
    match a with
    | ⟨0, _⟩ => exact lhs_rowsum_non _ _
    | ⟨1, _⟩ => exact (lhs_rowsum_con _ _).trans hk)
  have er : dot_S80x10000_S10000x1_S80x1_1_0_0_1_n_n.rhsIdx (ix2 p q) ((contrEquiv1 dot_S80x10000_S10000x1_S80x1_1_0_0_1_n_n 10000 rfl rfl).symm k) = ix2 k q := funext fun a => Fin.ext (by
    match a with
    | ⟨0, _⟩ => exact (rhs_rowsum_con _ _).trans hk
    | ⟨1, _⟩ => exact rhs_rowsum_non _ _)
  rw [el, er]

/-! ### [80,10000] × [80,1], FIRST axis against first: the result's row index is the left operand's second coordinate -/

theorem lhs_colsum_non (i : S10000x1.Idx) (q : dot_S80x10000_S80x1_S10000x1_0_0_1_1_n_n.contr.Idx) :
    (dot_S80x10000_S80x1_S10000x1_0_0_1_1_n_n.lhsIdx i q 1).val = (i 0).val := by
  unfold DotDims.lhsIdx
  rw [dif_neg (show ¬(1 : Fin S80x10000.rank) ∈ dot_S80x10000_S80x1_S10000x1_0_0_1_1_n_n.lhsBatch by decide),
    dif_pos (show (1 : Fin S80x10000.rank) ∈ dot_S80x10000_S80x1_S10000x1_0_0_1_1_n_n.lhsNonContracting by decide)]
  rfl
theorem lhs_colsum_con (i : S10000x1.Idx) (q : dot_S80x10000_S80x1_S10000x1_0_0_1_1_n_n.contr.Idx) :
    (dot_S80x10000_S80x1_S10000x1_0_0_1_1_n_n.lhsIdx i q 0).val = (q ⟨0, by decide⟩).val :=
  dot_S80x10000_S80x1_S10000x1_0_0_1_1_n_n.lhsIdx_val_of_single rfl i q
theorem rhs_colsum_con (i : S10000x1.Idx) (q : dot_S80x10000_S80x1_S10000x1_0_0_1_1_n_n.contr.Idx) :
    (dot_S80x10000_S80x1_S10000x1_0_0_1_1_n_n.rhsIdx i q 0).val = (q ⟨0, by decide⟩).val :=
  dot_S80x10000_S80x1_S10000x1_0_0_1_1_n_n.rhsIdx_val_of_single rfl i q
theorem rhs_colsum_non (i : S10000x1.Idx) (q : dot_S80x10000_S80x1_S10000x1_0_0_1_1_n_n.contr.Idx) :
    (dot_S80x10000_S80x1_S10000x1_0_0_1_1_n_n.rhsIdx i q 1).val = (i 1).val := by
  unfold DotDims.rhsIdx
  rw [dif_neg (show ¬(1 : Fin S80x1.rank) ∈ dot_S80x10000_S80x1_S10000x1_0_0_1_1_n_n.rhsBatch by decide),
    dif_pos (show (1 : Fin S80x1.rank) ∈ dot_S80x10000_S80x1_S10000x1_0_0_1_1_n_n.rhsNonContracting by decide)]
  rfl

/-- Into the zero array, at (p, q): the sum over the contracted axis of the operands' products. -/
theorem mm_colsum {φ₁ φ₂ : FTy} (lhs : FVec Ideal S80x10000 φ₁) (rhs : FVec Ideal S80x1 φ₂) (p : Fin 10000) (q : Fin 1) :
    matmul dot_S80x10000_S80x1_S10000x1_0_0_1_1_n_n none lhs rhs (constant S10000x1 .f32 0x00000000#32) (ix2 p q)
      = ∑ k : Fin 80, lhs (ix2 k p) * rhs (ix2 k q) := by
  refine (Ideal.matmul_constant_zero_apply dot_S80x10000_S80x1_S10000x1_0_0_1_1_n_n none lhs rhs (ix2 p q)).trans ?_
  rw [← Equiv.sum_comp (contrEquiv1 dot_S80x10000_S80x1_S10000x1_0_0_1_1_n_n 80 rfl rfl).symm]
  refine Finset.sum_congr rfl fun k _ => ?_
  have hk := contrEquiv1_symm_val dot_S80x10000_S80x1_S10000x1_0_0_1_1_n_n 80 rfl rfl k
  have el : dot_S80x10000_S80x1_S10000x1_0_0_1_1_n_n.lhsIdx (ix2 p q) ((contrEquiv1 dot_S80x10000_S80x1_S10000x1_0_0_1_1_n_n 80 rfl rfl).symm k) = ix2 k p := funext fun a => Fin.ext (by
    match a with
    | ⟨0, _⟩ => exact (lhs_colsum_con _ _).trans hk
    | ⟨1, _⟩ => exact lhs_colsum_non _ _)
  have er : dot_S80x10000_S80x1_S10000x1_0_0_1_1_n_n.rhsIdx (ix2 p q) ((contrEquiv1 dot_S80x10000_S80x1_S10000x1_0_0_1_1_n_n 80 rfl rfl).symm k) = ix2 k q := funext fun a => Fin.ext (by
    match a with
    | ⟨0, _⟩ => exact (rhs_colsum_con _ _).trans hk
    | ⟨1, _⟩ => exact rhs_colsum_non _ _)
  rw [el, er]

/-! ### [10000,128] × [128,128] -/

theorem lhs_lin1_non (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_lin1_con (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_lin1_con (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_lin1_non (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- Into the zero array, at (p, q): the sum over the contracted axis of the operands' products. -/
theorem mm_lin1 {φ₁ φ₂ : FTy} (lhs : FVec Ideal S10000x128 φ₁) (rhs : FVec Ideal S128x128 φ₂) (p : Fin 10000) (q : Fin 128) :
    matmul dot_S10000x128_S128x128_S10000x128_1_0_0_1_n_n none lhs rhs (constant S10000x128 .f32 0x00000000#32) (ix2 p q)
      = ∑ k : Fin 128, lhs (ix2 p k) * rhs (ix2 k q) := by
  refine (Ideal.matmul_constant_zero_apply dot_S10000x128_S128x128_S10000x128_1_0_0_1_n_n none lhs rhs (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_lin1_non _ _
    | ⟨1, _⟩ => exact (lhs_lin1_con _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_lin1_con _ _).trans hk
    | ⟨1, _⟩ => exact rhs_lin1_non _ _)
  rw [el, er]

/-! ### [400,10000] × [10000,128] -/

theorem lhs_agg1_non (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhs_agg1_con (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg1_con (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg1_non (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Into the zero array, at (p, q): the sum over the contracted axis of the operands' products. -/
theorem mm_agg1 {φ₁ φ₂ : FTy} (lhs : FVec Ideal S400x10000 φ₁) (rhs : FVec Ideal S10000x128 φ₂) (p : Fin 400) (q : Fin 128) :
    matmul dot_S400x10000_S10000x128_S400x128_1_0_0_1_n_n none lhs rhs (constant S400x128 .f32 0x00000000#32) (ix2 p q)
      = ∑ k : Fin 10000, lhs (ix2 p k) * rhs (ix2 k q) := by
  refine (Ideal.matmul_constant_zero_apply dot_S400x10000_S10000x128_S400x128_1_0_0_1_n_n none lhs rhs (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_agg1_non _ _
    | ⟨1, _⟩ => exact (lhs_agg1_con _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_agg1_con _ _).trans hk
    | ⟨1, _⟩ => exact rhs_agg1_non _ _)
  rw [el, er]

/-! ### [400,128] × [128,32] -/

theorem lhs_lin2_non (i : S400x32.Idx) (q : dot_S400x128_S128x32_S400x32_1_0_0_1_n_n.contr.Idx) :
    (dot_S400x128_S128x32_S400x32_1_0_0_1_n_n.lhsIdx i q 0).val = (i 0).val := by
  unfold DotDims.lhsIdx
  rw [dif_neg (show ¬(0 : Fin S400x128.rank) ∈ dot_S400x128_S128x32_S400x32_1_0_0_1_n_n.lhsBatch by decide),
    dif_pos (show (0 : Fin S400x128.rank) ∈ dot_S400x128_S128x32_S400x32_1_0_0_1_n_n.lhsNonContracting by decide)]
  rfl
theorem lhs_lin2_con (i : S400x32.Idx) (q : dot_S400x128_S128x32_S400x32_1_0_0_1_n_n.contr.Idx) :
    (dot_S400x128_S128x32_S400x32_1_0_0_1_n_n.lhsIdx i q 1).val = (q ⟨0, by decide⟩).val :=
  dot_S400x128_S128x32_S400x32_1_0_0_1_n_n.lhsIdx_val_of_single rfl i q
theorem rhs_lin2_con (i : S400x32.Idx) (q : dot_S400x128_S128x32_S400x32_1_0_0_1_n_n.contr.Idx) :
    (dot_S400x128_S128x32_S400x32_1_0_0_1_n_n.rhsIdx i q 0).val = (q ⟨0, by decide⟩).val :=
  dot_S400x128_S128x32_S400x32_1_0_0_1_n_n.rhsIdx_val_of_single rfl i q
theorem rhs_lin2_non (i : S400x32.Idx) (q : dot_S400x128_S128x32_S400x32_1_0_0_1_n_n.contr.Idx) :
    (dot_S400x128_S128x32_S400x32_1_0_0_1_n_n.rhsIdx i q 1).val = (i 1).val := by
  unfold DotDims.rhsIdx
  rw [dif_neg (show ¬(1 : Fin S128x32.rank) ∈ dot_S400x128_S128x32_S400x32_1_0_0_1_n_n.rhsBatch by decide),
    dif_pos (show (1 : Fin S128x32.rank) ∈ dot_S400x128_S128x32_S400x32_1_0_0_1_n_n.rhsNonContracting by decide)]
  rfl

/-- Into the zero array, at (p, q): the sum over the contracted axis of the operands' products. -/
theorem mm_lin2 {φ₁ φ₂ : FTy} (lhs : FVec Ideal S400x128 φ₁) (rhs : FVec Ideal S128x32 φ₂) (p : Fin 400) (q : Fin 32) :
    matmul dot_S400x128_S128x32_S400x32_1_0_0_1_n_n none lhs rhs (constant S400x32 .f32 0x00000000#32) (ix2 p q)
      = ∑ k : Fin 128, lhs (ix2 p k) * rhs (ix2 k q) := by
  refine (Ideal.matmul_constant_zero_apply dot_S400x128_S128x32_S400x32_1_0_0_1_n_n none lhs rhs (ix2 p q)).trans ?_
  rw [← Equiv.sum_comp (contrEquiv1 dot_S400x128_S128x32_S400x32_1_0_0_1_n_n 128 rfl rfl).symm]
  refine Finset.sum_congr rfl fun k _ => ?_
  have hk := contrEquiv1_symm_val dot_S400x128_S128x32_S400x32_1_0_0_1_n_n 128 rfl rfl k
  have el : dot_S400x128_S128x32_S400x32_1_0_0_1_n_n.lhsIdx (ix2 p q) ((contrEquiv1 dot_S400x128_S128x32_S400x32_1_0_0_1_n_n 128 rfl rfl).symm k) = ix2 p k := funext fun a => Fin.ext (by
    match a with
    | ⟨0, _⟩ => exact lhs_lin2_non _ _
    | ⟨1, _⟩ => exact (lhs_lin2_con _ _).trans hk)
  have er : dot_S400x128_S128x32_S400x32_1_0_0_1_n_n.rhsIdx (ix2 p q) ((contrEquiv1 dot_S400x128_S128x32_S400x32_1_0_0_1_n_n 128 rfl rfl).symm k) = ix2 k q := funext fun a => Fin.ext (by
    match a with
    | ⟨0, _⟩ => exact (rhs_lin2_con _ _).trans hk
    | ⟨1, _⟩ => exact rhs_lin2_non _ _)
  rw [el, er]

/-! ### [400,10000] × [10000,32] -/

theorem lhs_agg2_non (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide),
    dif_pos (show (0 : Fin S400x10000.rank) ∈ dot_S400x10000_S10000x32_S400x32_1_0_0_1_n_n.lhsNonContracting by decide)]
  rfl
theorem lhs_agg2_con (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_agg2_con (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_agg2_non (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide),
    dif_pos (show (1 : Fin S10000x32.rank) ∈ dot_S400x10000_S10000x32_S400x32_1_0_0_1_n_n.rhsNonContracting by decide)]
  rfl

/-- Into the zero array, at (p, q): the sum over the contracted axis of the operands' products. -/
theorem mm_agg2 {φ₁ φ₂ : FTy} (lhs : FVec Ideal S400x10000 φ₁) (rhs : FVec Ideal S10000x32 φ₂) (p : Fin 400) (q : Fin 32) :
    matmul dot_S400x10000_S10000x32_S400x32_1_0_0_1_n_n none lhs rhs (constant S400x32 .f32 0x00000000#32) (ix2 p q)
      = ∑ k : Fin 10000, lhs (ix2 p k) * rhs (ix2 k q) := by
  refine (Ideal.matmul_constant_zero_apply dot_S400x10000_S10000x32_S400x32_1_0_0_1_n_n none lhs rhs (ix2 p q)).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 p q) ((contrEquiv1 dot_S400x10000_S10000x32_S400x32_1_0_0_1_n_n 10000 rfl rfl).symm k) = ix2 p k := funext fun a => Fin.ext (by
    match a with
    | ⟨0, _⟩ => exact lhs_agg2_non _ _
    | ⟨1, _⟩ => exact (lhs_agg2_con _ _).trans hk)
  have er : dot_S400x10000_S10000x32_S400x32_1_0_0_1_n_n.rhsIdx (ix2 p q) ((contrEquiv1 dot_S400x10000_S10000x32_S400x32_1_0_0_1_n_n 10000 rfl rfl).symm k) = ix2 k q := funext fun a => Fin.ext (by
    match a with
    | ⟨0, _⟩ => exact (rhs_agg2_con _ _).trans hk
    | ⟨1, _⟩ => exact rhs_agg2_non _ _)
  rw [el, er]

/-! ## Layout: a column spread along the rows; the ones -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The array every entry of which is the word for one reads 1. -/
theorem ones_apply {s : Shape} (i : s.Idx) : broadcast s (Scalar.ofBits (F := Ideal) .f32 0x3F800000#32) i = 1 :=
  Ideal.ofBits_one_f32

/-- The array every entry of which is the zero word reads 0. -/
theorem zeros_apply {s : Shape} (i : s.Idx) : broadcast s (Scalar.ofBits (F := Ideal) .f32 0x00000000#32) i = 0 :=
  Ideal.ofBits_zero_f32

/-! ## The first function's payloads -/

/-- The cast to the narrower format is the identity. -/
theorem k0_pay1_eq (v0 : Vec Ideal S80x10000 .f32) :
    (Gen.k0_pay1 (F := Ideal) v0 : S80x10000.Idx → EReal) = v0 := rfl

/-- The product with the column of ones at (r, 0): the sum of row r. -/
theorem k0_pay2_apply (v0 : Vec Ideal S80x10000 .f32) (r : Fin 80) :
    Gen.k0_pay2 (F := Ideal) v0 (ix2 r (0 : Fin 1)) = ∑ k : Fin 10000, v0 (ix2 r k) := by
  unfold Gen.k0_pay2
  rw [shapeCast_self]
  refine (mm_rowsum (φ₁ := .f32) (φ₂ := .f32) v0 (broadcast S10000x1 (Scalar.ofBits (F := Ideal) .f32 0x3F800000#32)) r 0).trans ?_
  refine Finset.sum_congr rfl fun k _ => ?_
  rw [ones_apply, mul_one]

/-- The product contracting the first axes with the column of ones at (j, 0): the sum of column j. -/
theorem k0_pay3_apply (v0 : Vec Ideal S80x10000 .f32) (j : Fin 10000) :
    Gen.k0_pay3 (F := Ideal) v0 (ix2 j (0 : Fin 1)) = ∑ r : Fin 80, v0 (ix2 r j) := by
  unfold Gen.k0_pay3
  refine (mm_colsum (φ₁ := .f32) (φ₂ := .f32) v0 (broadcast S80x1 (Scalar.ofBits (F := Ideal) .f32 0x3F800000#32)) j 0).trans ?_
  refine Finset.sum_congr rfl fun k _ => ?_
  rw [ones_apply, mul_one]

theorem k0_pay4_eq (v0 : Vec Ideal S80x10000 .f32) : Gen.k0_pay4 (F := Ideal) v0 = Gen.k0_pay3 (F := Ideal) v0 := by
  unfold Gen.k0_pay4
  exact shapeCast_self _ _

theorem k0_pay5_apply (v0 : Vec Ideal S80x10000 .f32) (v21 : Vec Ideal S10000x1 .f32) (y : S10000x1.Idx) :
    Gen.k0_pay5 (F := Ideal) v0 v21 y = v21 y + Gen.k0_pay3 (F := Ideal) v0 y := by
  unfold Gen.k0_pay5
  rw [shapeCast_self]
  rfl

theorem k0_pay6_apply (a8 a9 : Vec Ideal S10000x1 .f32) (y : S10000x1.Idx) :
    Gen.k0_pay6 (F := Ideal) a8 a9 y = Ideal.sqrt (a8 y * a9 y) := rfl

/-- The scaled first layer at (j, c): the column factor √(a8 j · a9 j) times (X·W + b)(j, c). -/
theorem k0_pay7_apply (a8 a9 : Vec Ideal S10000x1 .f32) (x1 : Vec Ideal S10000x128 .f32) (x2 : Vec Ideal S128x128 .f32)
    (x3 : Vec Ideal S1x128 .f32) (j : Fin 10000) (c : Fin 128) :
    Gen.k0_pay7 (F := Ideal) a8 a9 x1 x2 x3 (ix2 j c)
      = Ideal.sqrt (a8 (ix2 j (0 : Fin 1)) * a9 (ix2 j (0 : Fin 1)))
        * ((∑ k : Fin 128, x1 (ix2 j k) * x2 (ix2 k c)) + x3 (ix2 (0 : Fin 1) c)) := by
  unfold Gen.k0_pay7
  rw [truncf_apply, mulf_apply, addf_apply, shapeCast_self, shapeCast_self, broadcastTo_a1_ab_apply,
    broadcastTo_1b_ab_apply, mm_lin1 (φ₁ := .f32) (φ₂ := .f32)]
  rfl

/-! ## The second function's payload -/

/-- The second layer at (p, d): ((relu(A·H)·W + b)(p, d)) times the column factor at p. -/
theorem k1_pay1_apply (x0 : Vec Ideal S400x10000 .bf16) (x1 : Vec Ideal S10000x128 .bf16) (x2 : Vec Ideal S128x32 .f32)
    (x3 : Vec Ideal S1x32 .f32) (x4 : Vec Ideal S400x1 .f32) (p : Fin 400) (d : Fin 32) :
    Gen.k1_pay1 (F := Ideal) x0 x1 x2 x3 x4 (ix2 p d)
      = ((∑ c : Fin 128, max (∑ k : Fin 10000, x0 (ix2 p k) * x1 (ix2 k c)) 0 * x2 (ix2 c d)) + x3 (ix2 (0 : Fin 1) d))
        * x4 (ix2 p (0 : Fin 1)) := by
  unfold Gen.k1_pay1
  rw [truncf_apply, mulf_apply, addf_apply, shapeCast_self, shapeCast_self, shapeCast_self, shapeCast_self, shapeCast_self,
    broadcastTo_a1_ab_apply, broadcastTo_1b_ab_apply, mm_lin2 (φ₁ := .f32) (φ₂ := .f32)]
  refine congrArg (fun t => (t + x3 (ix2 (0 : Fin 1) d)) * x4 (ix2 p (0 : Fin 1))) (Finset.sum_congr rfl fun c _ => ?_)
  rw [maximumf_apply, mm_agg1 (φ₁ := .bf16) (φ₂ := .bf16), zeros_apply]

/-! ## The last function's payload -/

/-- The last product at (p, d). -/
theorem k2_pay1_apply (x0 : Vec Ideal S400x10000 .bf16) (x1 : Vec Ideal S10000x32 .bf16) (p : Fin 400) (d : Fin 32) :
    Gen.k2_pay1 (F := Ideal) x0 x1 (ix2 p d) = ∑ k : Fin 10000, x0 (ix2 p k) * x1 (ix2 k d) := by
  unfold Gen.k2_pay1
  rw [shapeCast_self, shapeCast_self]
  exact mm_agg2 (φ₁ := .bf16) (φ₂ := .bf16) x0 x1 p d

end Cert.KernelIdeal.HandValue

end
-- ==== Proof.Spec.lean ====
/-
  The two arrangements of the graph-convolution pair as functions of the six argument arrays, on the extended
  reals, index by index.

  Write c j = Σ_i T(i,j) for the column sums and r j = Σ_i T(j,i) for the row sums of the adjacency array T.
  The reference scales T entrywise, n(i,j) = (c j)^½ · T(i,j) · (r j)^½ (both factors follow the LAST index),
  and computes  out = n · (relu(n · (X·W1ᵀ + b1)) · W2ᵀ + b2).
  The kernel keeps T unscaled and folds the one column factor s j = √(r j · c j) onto the small right-hand
  operands:  hs = s ⊙ (X·W1ᵀ + b1),  z = (relu(T · hs) · W2ᵀ + b2) ⊙ s,  out = T · z.
  The two agree term by term as soon as s j = (c j)^½ · (r j)^½, which holds when c j and r j are
  non-negative reals; nothing else is used (multiplication on the extended reals is commutative and
  associative, and no sum is split or regrouped).
-/
import Idealize.ShloMosaic.Lib.ValueIdx
import Idealize.ShloMosaic.PureOps.Ideal

noncomputable section

open scoped BigOperators

namespace Cert.Spec

open Idealize.ShloMosaic Idealize.ShloMosaic.ValueIdx

abbrev SX : Shape := ⟨2, ![10000, 128]⟩
abbrev ST : Shape := ⟨2, ![10000, 10000]⟩
abbrev SW1 : Shape := ⟨2, ![128, 128]⟩
abbrev Sb1 : Shape := ⟨1, ![128]⟩
abbrev SW2 : Shape := ⟨2, ![32, 128]⟩
abbrev Sb2 : Shape := ⟨1, ![32]⟩
abbrev SO : Shape := ⟨2, ![10000, 32]⟩

variable (X : FVec Ideal SX .f32) (T : FVec Ideal ST .f32) (W1 : FVec Ideal SW1 .f32) (b1 : FVec Ideal Sb1 .f32)
  (W2 : FVec Ideal SW2 .f32) (b2 : FVec Ideal Sb2 .f32)

/-- Column sum j of the adjacency array: Σ_i T(i,j). -/
def colSum (j : Fin 10000) : EReal := ∑ i : Fin 10000, T (ix2 i j)
/-- Row sum j of the adjacency array: Σ_i T(j,i). -/
def rowSum (j : Fin 10000) : EReal := ∑ i : Fin 10000, T (ix2 j i)
/-- The first linear layer at node j, feature c: Σ_k X(j,k)·W1(c,k) + b1(c). -/
def lin1 (j : Fin 10000) (c : Fin 128) : EReal := (∑ k : Fin 128, X (ix2 j k) * W1 (ix2 c k)) + b1 (ix1 c)

/-- The exponent one half, as the f32 word the reference carries. -/
def half : EReal := Ideal.ofBits .f32 0x3F000000#32

/-! ## The reference's arrangement -/

/-- The scaled adjacency entry: ((c j)^½ · T(i,j)) · (r j)^½. -/
def nrm (i j : Fin 10000) : EReal := (Ideal.pow (colSum T j) half * T (ix2 i j)) * Ideal.pow (rowSum T j) half
def hRef (i : Fin 10000) (c : Fin 128) : EReal := ∑ j : Fin 10000, nrm T i j * lin1 X W1 b1 j c
def rRef (i : Fin 10000) (c : Fin 128) : EReal := max (hRef X T W1 b1 i c) 0
def oRef (j : Fin 10000) (d : Fin 32) : EReal := (∑ c : Fin 128, rRef X T W1 b1 j c * W2 (ix2 d c)) + b2 (ix1 d)
/-- The reference's result at (i, d). -/
def refOut : FVec Ideal SO .f32 := fun p => ∑ j : Fin 10000, nrm T (p 0) j * oRef X T W1 b1 W2 b2 j (p 1)

/-! ## The kernel's arrangement -/

/-- The one column factor: √(r j · c j). -/
def scale (j : Fin 10000) : EReal := Ideal.sqrt (rowSum T j * colSum T j)
def hsK (j : Fin 10000) (c : Fin 128) : EReal := scale T j * lin1 X W1 b1 j c
def tK (i : Fin 10000) (c : Fin 128) : EReal := ∑ j : Fin 10000, T (ix2 i j) * hsK X T W1 b1 j c
def rK (i : Fin 10000) (c : Fin 128) : EReal := max (tK X T W1 b1 i c) 0
def zK (j : Fin 10000) (d : Fin 32) : EReal := ((∑ c : Fin 128, rK X T W1 b1 j c * W2 (ix2 d c)) + b2 (ix1 d)) * scale T j
/-- The kernel's result at (i, d). -/
def kerOut : FVec Ideal SO .f32 := fun p => ∑ j : Fin 10000, T (ix2 (p 0) j) * zK X T W1 b1 W2 b2 j (p 1)

end Cert.Spec

end
-- ==== Proof.KIChain.lean ====
/-
  The kernel's two aggregation calls composed, at the ideal values, are the specification's kernel arrangement; and the
  program's four host operations read at an index.

  The last call's result at (i, d) is Σ_j T(i,j) · Z(j,d), where Z is the result of the call before it; row i is row
  i mod 400 of strip i div 400, and 400·(i div 400) + i mod 400 = i. The call before gives
  Z(j,d) = ((Σ_c max(Σ_k T(j,k) · H(k,c), 0) · W(c,d)) + b(0,d)) · s(j,0), with H the scaled first layer, W the
  transposed second-layer weights, b the bias as a row and s the scaling column. With those four arrays read at an
  index as the specification's hsK, W2ᵀ, b2 and scale, this is kerOut term by term: only the summands are rewritten,
  no sum is split or reordered.

  A transpose with permutation [1, 0] reads the operand at the swapped coordinates; a reshape of a vector [n] to a
  row [1, n] reads the vector at the column.
-/
import proofs.«162869_g88759794139180_cont_sun_c4_43_14_alg».proof.Proof.KIFinal1
import proofs.«162869_g88759794139180_cont_sun_c4_43_14_alg».proof.Proof.KIFinal2
import proofs.«162869_g88759794139180_cont_sun_c4_43_14_alg».proof.Proof.KIPayloads
import proofs.«162869_g88759794139180_cont_sun_c4_43_14_alg».proof.Proof.Spec
import Idealize.ShloMosaic.Lib.Pipeline.Value
import Idealize.ShloMosaic.Lib.ValueIdx

noncomputable section

open scoped BigOperators

namespace Cert.KernelIdeal.HandValue

open Cert.KernelIdeal Cert.KernelIdeal.Gen Idealize.ShloMosaic Idealize.ShloMosaic.ValueIdx

/-! ## The host operations read at an index -/

/-- The transposed square array at (k, c) is the array at (c, k). -/
theorem transpose_128x128_apply {α : Type} (W : S128x128.Idx → α) (h : S128x128.Transposes [1, 0] S128x128) (k c : Fin 128) :
    transpose S128x128 [1, 0] W h (ix2 k c) = W (ix2 c k) := by
  refine transpose_apply _ W h (ix2 k c) (ix2 c k) fun b => ?_
  match b with
  | ⟨0, _⟩ => rfl
  | ⟨1, _⟩ => rfl

/-- The transposed 32x128 array at (c, d) is the array at (d, c). -/
theorem transpose_32x128_apply {α : Type} (W : S32x128.Idx → α) (h : S32x128.Transposes [1, 0] S128x32) (c : Fin 128) (d : Fin 32) :
    transpose S128x32 [1, 0] W h (ix2 c d) = W (ix2 d c) := by
  refine transpose_apply _ W h (ix2 c d) (ix2 d c) fun b => ?_
  match b with
  | ⟨0, _⟩ => rfl
  | ⟨1, _⟩ => rfl

/-- A vector of 128 entries viewed as one row reads, at (0, c), the vector at c. -/
theorem reshape_128_row_apply {α : Type} (b : S128.Idx → α) (h : S128.ShapeCasts S1x128) (c : Fin 128) :
    shapeCast S1x128 b h (ix2 (0 : Fin 1) c) = b (ix1 c) := by
  refine shapeCast_apply b h (ix2 (0 : Fin 1) c) (ix1 c) ?_
  rw [Shape.rowMajor_val_one, Shape.rowMajor_val_two]
  show c.val = 0 * 128 + c.val
  omega

/-- A vector of 32 entries viewed as one row reads, at (0, d), the vector at d. -/
theorem reshape_32_row_apply {α : Type} (b : S32.Idx → α) (h : S32.ShapeCasts S1x32) (d : Fin 32) :
    shapeCast S1x32 b h (ix2 (0 : Fin 1) d) = b (ix1 d) := by
  refine shapeCast_apply b h (ix2 (0 : Fin 1) d) (ix1 d) ?_
  rw [Shape.rowMajor_val_one, Shape.rowMajor_val_two]
  show d.val = 0 * 32 + d.val
  omega

/-! ## A row is its position in its strip -/

/-- Row i of an array of 10000 rows is row i mod 400 of strip i div 400. -/
theorem strip400_stripOf_rowIn {α : Type} {n : ℕ} (A : (⟨2, ![10000, n]⟩ : Shape).Idx → α) (i : Fin 10000) (k : Fin n) :
    Hand.strip400 A (Hand.stripOf i.val i.isLt) (ix2 (Hand.rowIn i.val) k) = A (ix2 i k) := by
  show A (ix2 ⟨400 * (i.val / 400) + i.val % 400, _⟩ ⟨k.val, _⟩) = A (ix2 i k)
  refine congrArg A ?_
  funext a
  match a with
  | ⟨0, _⟩ => exact Fin.ext (Nat.div_add_mod i.val 400)
  | ⟨1, _⟩ => rfl

/-! ## The composition -/

section Chain

variable (X : FVec Ideal Cert.Spec.SX .f32) (T : FVec Ideal Cert.Spec.ST .f32) (W1 : FVec Ideal Cert.Spec.SW1 .f32)
  (b1 : FVec Ideal Cert.Spec.Sb1 .f32) (W2 : FVec Ideal Cert.Spec.SW2 .f32) (b2 : FVec Ideal Cert.Spec.Sb2 .f32)
  (hsArr : S10000x128.Idx → EReal) (sArr : S10000x1.Idx → EReal) (W2T : S128x32.Idx → EReal) (b2row : S1x32.Idx → EReal)

/-- The first aggregation call's result at (j, d) is the specification's z. -/
theorem G1_eq_zK
    (hhs : ∀ (j : Fin 10000) (c : Fin 128), hsArr (ix2 j c) = Cert.Spec.hsK X T W1 b1 j c)
    (hs : ∀ j : Fin 10000, sArr (ix2 j (0 : Fin 1)) = Cert.Spec.scale T j)
    (hW : ∀ (c : Fin 128) (d : Fin 32), W2T (ix2 c d) = W2 (ix2 d c))
    (hb : ∀ d : Fin 32, b2row (ix2 (0 : Fin 1) d) = b2 (ix1 d)) (j : Fin 10000) (d : Fin 32) :
    Hand.G1 (F := Ideal) T hsArr W2T b2row sArr (ix2 j d) = Cert.Spec.zK X T W1 b1 W2 b2 j d := by
  show Gen.k1_pay1 (F := Ideal) (Hand.strip400 T (Hand.stripOf j.val j.isLt)) hsArr W2T b2row
      (Hand.strip400 sArr (Hand.stripOf j.val j.isLt)) (ix2 (Hand.rowIn j.val) d) = _
  rw [k1_pay1_apply, strip400_stripOf_rowIn sArr j (0 : Fin 1), hs, hb]
  have hinner : ∀ c : Fin 128,
      (∑ k : Fin 10000, Hand.strip400 T (Hand.stripOf j.val j.isLt) (ix2 (Hand.rowIn j.val) k) * hsArr (ix2 k c))
        = Cert.Spec.tK X T W1 b1 j c := fun c => by
    unfold Cert.Spec.tK
    exact Finset.sum_congr rfl fun k _ => by rw [strip400_stripOf_rowIn T j k, hhs]
  have hmid : (∑ c : Fin 128,
      max (∑ k : Fin 10000, Hand.strip400 T (Hand.stripOf j.val j.isLt) (ix2 (Hand.rowIn j.val) k) * hsArr (ix2 k c)) 0 * W2T (ix2 c d))
        = ∑ c : Fin 128, Cert.Spec.rK X T W1 b1 j c * W2 (ix2 d c) :=
    Finset.sum_congr rfl fun c _ => by rw [hinner, hW]; rfl
  rw [hmid]
  rfl

/-- The two aggregation calls composed are the specification's kernel arrangement. -/
theorem chain_eq
    (hhs : ∀ (j : Fin 10000) (c : Fin 128), hsArr (ix2 j c) = Cert.Spec.hsK X T W1 b1 j c)
    (hs : ∀ j : Fin 10000, sArr (ix2 j (0 : Fin 1)) = Cert.Spec.scale T j)
    (hW : ∀ (c : Fin 128) (d : Fin 32), W2T (ix2 c d) = W2 (ix2 d c))
    (hb : ∀ d : Fin 32, b2row (ix2 (0 : Fin 1) d) = b2 (ix1 d)) :
    Hand.G2 (F := Ideal) T (Hand.G1 (F := Ideal) T hsArr W2T b2row sArr) = Cert.Spec.kerOut X T W1 b1 W2 b2 := by
  funext y
  obtain ⟨i, d, rfl⟩ : ∃ (i : Fin 10000) (d : Fin 32), y = ix2 i d := ⟨y 0, y 1, eq_ix2 y⟩
  show Gen.k2_pay1 (F := Ideal) (Hand.strip400 T (Hand.stripOf i.val i.isLt)) (Hand.G1 (F := Ideal) T hsArr W2T b2row sArr)
      (ix2 (Hand.rowIn i.val) d) = ∑ j : Fin 10000, T (ix2 i j) * Cert.Spec.zK X T W1 b1 W2 b2 j d
  rw [k2_pay1_apply]
  refine Finset.sum_congr rfl fun j _ => ?_
  rw [strip400_stripOf_rowIn T i j, G1_eq_zK X T W1 b1 W2 b2 hsArr sArr W2T b2row hhs hs hW hb j d]

end Chain

end Cert.KernelIdeal.HandValue

end
-- ==== Proof.KIValue.lean ====
/-
  The kernel program's result array after the run is the specification's kernel arrangement of the six argument
  arrays, at the ideal values, given what the first kernel call leaves in its three output arrays.

  The result array is what the third call's pipeline leaves in its output array: the function G2 of that call's two
  input arrays as it finds them. The first of these is the narrow copy of the adjacency array that the first call
  wrote (nothing in between writes it), which holds the adjacency array's entries; the second is what the second
  call's pipeline leaves in its output array: the function G1 of that call's five input arrays as it finds them —
  the same narrow copy, the scaled first layer and the scaling column the first call wrote, and the second layer's
  weights transposed and bias viewed as a row by the two host operations between the calls. With the first call's
  three outputs read at an index as the adjacency array, the specification's hsK and scale, the composition is the
  specification's kerOut.
-/
import proofs.«162869_g88759794139180_cont_sun_c4_43_14_alg».proof.Proof.KIRun
import proofs.«162869_g88759794139180_cont_sun_c4_43_14_alg».proof.Proof.KIFinal1
import proofs.«162869_g88759794139180_cont_sun_c4_43_14_alg».proof.Proof.KIFinal2
import proofs.«162869_g88759794139180_cont_sun_c4_43_14_alg».proof.Proof.KIChain
import proofs.«162869_g88759794139180_cont_sun_c4_43_14_alg».proof.Proof.Spec

noncomputable section

open scoped BigOperators

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (ρ : Dev nD → PrngReg)

/-- The result array when the program returns is the specification's kernel arrangement of the argument arrays. -/
theorem result_eq (c : Dev nD)
    (h4 : ∀ i j : Fin 10000, ((dat0 (V1 m ρ) c).arrAt 4 cfg0.N : S10000x10000.Idx → EReal) (ix2 i j)
        = (m ((c : Thread nD τ).loc main_arg1) : S10000x10000.Idx → EReal) (ix2 i j))
    (h5 : ∀ (j : Fin 10000) (c' : Fin 128), ((dat0 (V1 m ρ) c).arrAt 5 cfg0.N : S10000x128.Idx → EReal) (ix2 j c')
        = Cert.Spec.hsK (m ((c : Thread nD τ).loc main_arg0)) (m ((c : Thread nD τ).loc main_arg1))
            (m ((c : Thread nD τ).loc main_arg2)) (m ((c : Thread nD τ).loc main_arg3)) j c')
    (h6 : ∀ j : Fin 10000, ((dat0 (V1 m ρ) c).arrAt 6 cfg0.N : S10000x1.Idx → EReal) (ix2 j (0 : Fin 1))
        = Cert.Spec.scale (m ((c : Thread nD τ).loc main_arg1)) j) :
    (W5 m ρ c (Proc.devRef .tc main_v6) : S10000x32.Idx → EReal)
      = Cert.Spec.kerOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- the narrow copy of the adjacency array holds the adjacency array's entries
  have hT : ((dat0 (V1 m ρ) c).arrAt 4 cfg0.N : S10000x10000.Idx → EReal)
      = (m ((c : Thread nD τ).loc main_arg1) : S10000x10000.Idx → EReal) :=
    funext fun y => by rw [eq_ix2 y]; exact h4 _ _
  -- the second call's five input arrays
  have a0 : (V3 m ρ c (Pipeline.arrRef spec1 0) : S10000x10000.Idx → EReal)
      = (m ((c : Thread nD τ).loc main_arg1) : S10000x10000.Idx → EReal) := (V3_main_v2_0 m ρ c).trans hT
  have a1 : (V3 m ρ c (Pipeline.arrRef spec1 1) : S10000x128.Idx → EReal)
      = ((dat0 (V1 m ρ) c).arrAt 5 cfg0.N : S10000x128.Idx → EReal) := V3_main_v2_1 m ρ c
  have a2 : (V3 m ρ c (Pipeline.arrRef spec1 2) : S128x32.Idx → EReal)
      = transpose S128x32 [1, 0] (m ((c : Thread nD τ).loc main_arg4)) transposes_S32x128_S128x32_1_0 := V3_main_v3 m ρ c
  have a3 : (V3 m ρ c (Pipeline.arrRef spec1 3) : S1x32.Idx → EReal)
      = fun i => shapeCast S1x32 (m ((c : Thread nD τ).loc main_arg5)) shapeCasts_S32_S1x32 i := V3_main_v4 m ρ c
  have a4 : (V3 m ρ c (Pipeline.arrRef spec1 4) : S10000x1.Idx → EReal)
      = ((dat0 (V1 m ρ) c).arrAt 6 cfg0.N : S10000x1.Idx → EReal) := V3_main_v2_2 m ρ c
  -- the third call's two input arrays
  have e0 : (V4 m ρ c (Pipeline.arrRef spec2 0) : S10000x10000.Idx → EReal)
      = (m ((c : Thread nD τ).loc main_arg1) : S10000x10000.Idx → EReal) := (V4_main_v2_0 m ρ c).trans hT
  have e1 : (V4 m ρ c (Pipeline.arrRef spec2 1) : S10000x32.Idx → EReal)
      = G1 (F := Ideal) (m ((c : Thread nD τ).loc main_arg1)) ((dat0 (V1 m ρ) c).arrAt 5 cfg0.N)
          (transpose S128x32 [1, 0] (m ((c : Thread nD τ).loc main_arg4)) transposes_S32x128_S128x32_1_0)
          (fun i => shapeCast S1x32 (m ((c : Thread nD τ).loc main_arg5)) shapeCasts_S32_S1x32 i)
          ((dat0 (V1 m ρ) c).arrAt 6 cfg0.N) :=
    (V4_main_v5 m ρ c).trans ((final1 (V3 m ρ) c).trans (by rw [a0, a1, a2, a3, a4]))
  refine (W5_main_v6 m ρ c).trans ((final2 (V4 m ρ) c).trans ?_)
  rw [e0, e1]
  exact chain_eq _ _ _ _ _ _ _ _ _ _ h5 h6
    (fun c' d => transpose_32x128_apply _ _ c' d) (fun d => reshape_32_row_apply _ _ d)

end Cert.KernelIdeal.HandValue

end
-- ==== Proof.StripSum.lean ====
/-
  A sum of 10000 terms taken as a running total over 125 consecutive strips of 80 terms.

  Addition in a commutative monoid is associative, so a total that starts as the sum of the first strip and gains the
  sum of the next strip at each step is, after step n, the sum of the first 80·(n+1) terms; after step 124 that is
  the whole sum. The extended reals under addition are such a monoid; nothing else about them is used.
-/
import Mathlib.Data.Fintype.BigOperators
import Mathlib.Data.EReal.Basic

open scoped BigOperators

namespace Cert.StripSum

/-- A running total over strips of R terms of a sequence F: starting at the sum of strip 0 and adding the sum of strip
    n+1 at step n+1, the total at step n is the sum of the first R·(n+1) terms. -/
theorem running_total {M : Type*} [AddCommMonoid M] (T R : ℕ) (F : ℕ → M) (g : ℕ → M)
    (h0 : g 0 = ∑ r ∈ Finset.range R, F r)
    (hs : ∀ n, n + 1 < T → g (n + 1) = g n + ∑ r ∈ Finset.range R, F (R * (n + 1) + r)) :
    ∀ n, n < T → g n = ∑ k ∈ Finset.range (R * (n + 1)), F k := by
  intro n
  induction n with
  | zero => intro _; rw [h0, Nat.zero_add, Nat.mul_one]
  | succ n ih =>
    intro hn
    rw [hs n hn, ih (by omega), show R * (n + 1 + 1) = R * (n + 1) + R by ring, Finset.sum_range_add]

/-- 10000 = 125 · 80: the running total over the 125 strips of 80 ends at the sum of all 10000 terms. -/
theorem sum_strips {M : Type*} [AddCommMonoid M] (f : Fin 10000 → M) (g : ℕ → M)
    (h0 : g 0 = ∑ r : Fin 80, f ⟨r.val, by omega⟩)
    (hs : ∀ n (hn : n + 1 < 125), g (n + 1) = g n + ∑ r : Fin 80, f ⟨80 * (n + 1) + r.val, by omega⟩) :
    g 124 = ∑ i : Fin 10000, f i := by
  let F : ℕ → M := fun k => if h : k < 10000 then f ⟨k, h⟩ else 0
  have hF : ∀ (k : ℕ) (h : k < 10000), F k = f ⟨k, h⟩ := fun k h => dif_pos h
  have key := running_total 125 80 F g ?_ ?_ 124 (by norm_num)
  · rw [key, show 80 * (124 + 1) = 10000 by norm_num, ← Fin.sum_univ_eq_sum_range F 10000]
    exact Finset.sum_congr rfl fun i _ => hF i.val i.isLt
  · rw [h0, ← Fin.sum_univ_eq_sum_range F 80]
    exact Finset.sum_congr rfl fun r _ => (hF r.val (by omega)).symm
  · intro n hn
    rw [hs n hn, ← Fin.sum_univ_eq_sum_range (fun r => F (80 * (n + 1) + r)) 80]
    congr 1
    exact Finset.sum_congr rfl fun r _ => (hF _ (by omega)).symm

/-- The same at the extended reals. -/
theorem sum_strips_ereal (f : Fin 10000 → EReal) (g : ℕ → EReal)
    (h0 : g 0 = ∑ r : Fin 80, f ⟨r.val, by omega⟩)
    (hs : ∀ n (hn : n + 1 < 125), g (n + 1) = g n + ∑ r : Fin 80, f ⟨80 * (n + 1) + r.val, by omega⟩) :
    g 124 = ∑ i : Fin 10000, f i :=
  sum_strips f g h0 hs

end Cert.StripSum
-- ==== Proof.KIFinal0.lean ====
/-
  From blocks to the arrays, for the first kernel call.

  The pipeline visits 125 grid points.  At point t the body reads rows 80t … 80t+79 of the 10000×10000 adjacency
  array (its window moves with the point) and three whole arrays (their windows stay), writes rows 80t … 80t+79 of
  the narrower-format copy of the adjacency array, and keeps two running accumulators: the sums of the rows read so
  far (strip t's 80 sums go to rows 80t … 80t+79 and are never touched again) and the running total of the strips'
  column sums.  At the last point it writes the column factor √(row sum · column sum) and the scaled first layer,
  each as one whole array.  So after the last write-back: the copy is, strip by strip, the body's cast of the strip;
  the other two arrays are the body's payloads of the accumulators after the last point; and on the extended reals
  the accumulators are the row sums and the column sums of the adjacency array.
-/
import proofs.«162869_g88759794139180_cont_sun_c4_43_14_alg».proof.Proof.KIRegion0Data
import proofs.«162869_g88759794139180_cont_sun_c4_43_14_alg».proof.Proof.KIPayloads
import proofs.«162869_g88759794139180_cont_sun_c4_43_14_alg».proof.Proof.StripSum
import proofs.«162869_g88759794139180_cont_sun_c4_43_14_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-! ## Strips of 80 rows -/

/-- Rows 80q … 80q+79 of an array of 10000 rows, as an array of 80 rows. -/
def strip80 {α : Type} {n : ℕ} (A : (⟨2, ![10000, n]⟩ : Shape).Idx → α) (q : Fin 125) : (⟨2, ![80, n]⟩ : Shape).Idx → α :=
  fun x => A (ix2 ⟨80 * q.val + (x 0).val, by have := idx2_lt0 x; have := q.isLt; omega⟩ ⟨(x 1).val, idx2_lt1 x⟩)

theorem strip80_apply {α : Type} {n : ℕ} (A : (⟨2, ![10000, n]⟩ : Shape).Idx → α) (q : Fin 125) (x : (⟨2, ![80, n]⟩ : Shape).Idx) :
    strip80 A q x = A (ix2 ⟨80 * q.val + (x 0).val, by have := idx2_lt0 x; have := q.isLt; omega⟩ ⟨(x 1).val, idx2_lt1 x⟩) := rfl

/-- The strip that contains row r. -/
def stripOf80 (r : ℕ) (h : r < 10000) : Fin 125 := ⟨r / 80, by omega⟩
/-- Row r's position inside its strip. -/
def rowIn80 (r : ℕ) : Fin 80 := ⟨r % 80, Nat.mod_lt _ (by norm_num)⟩

theorem stripOf80_val (r : ℕ) (h : r < 10000) : (stripOf80 r h).val = r / 80 := rfl
theorem rowIn80_val (r : ℕ) : (rowIn80 r).val = r % 80 := rfl

/-! ## The copy as one function of the adjacency array -/

/-- Row i of the copy: the cast of the strip containing row i, at row i's position in the strip. -/
def G0_4 (A : S10000x10000.Idx → Elt F .f32) : S10000x10000.Idx → Elt F .bf16 :=
  fun y => k0_pay1 (strip80 A (stripOf80 (y 0).val (idx2_lt0 y))) (ix2 (rowIn80 (y 0).val) ⟨(y 1).val, idx2_lt1 y⟩)

theorem G0_4_apply (A : S10000x10000.Idx → Elt F .f32) (y : S10000x10000.Idx) :
    G0_4 A y = k0_pay1 (strip80 A (stripOf80 (y 0).val (idx2_lt0 y))) (ix2 (rowIn80 (y 0).val) ⟨(y 1).val, idx2_lt1 y⟩) := rfl

/-- At an index of the array that is position j of block q: the cast of strip q, at j. -/
theorem G0_4_at (A : S10000x10000.Idx → Elt F .f32) (q : Fin 125) (j : S80x10000.Idx) (y : S10000x10000.Idx)
    (hy0 : (y 0).val = q.val * 80 + 1 * (j 0).val) (hy1 : (y 1).val = 0 * 10000 + 1 * (j 1).val) :
    G0_4 A y = k0_pay1 (strip80 A q) j := by
  have hj0 := idx2_lt0 j
  have hq : stripOf80 (y 0).val (idx2_lt0 y) = q := Fin.ext (by rw [stripOf80_val]; omega)
  have hj : ix2 (rowIn80 (y 0).val) (⟨(y 1).val, idx2_lt1 y⟩ : Fin 10000) = j := by
    funext a
    match a with
    | ⟨0, _⟩ => exact Fin.ext (by show (y 0).val % 80 = (j 0).val; omega)
    | ⟨1, _⟩ => exact Fin.ext (by show (y 1).val = (j 1).val; omega)
  rw [G0_4_apply, hq, hj]

/-! ## The printed index maps over the grid -/

theorem hz0 : (![0, 0] : Fin 2 → Nat) = fun _ => 0 := funext fun a => by fin_cases a <;> rfl

/-- The grid point as a strip number. -/
def q0 (t : Fin cfg0.N) : Fin 125 := ⟨t.val, lt_of_lt_of_eq t.isLt N_0⟩

/-- Decided over the 125 points: the adjacency array's and its copy's block index is (t, 0), every other window's (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (V : (c : Dev nD) → (b : Ref sig .tc) → Buf (Elt F) ((c : Thread nD τ).loc b))

/-- The adjacency array's block at point t is strip t of the array. -/
theorem x0At_eq (c : Dev nD) (t : Fin cfg0.N) :
    (x0At V c t : Vec F S80x10000 .f32) = strip80 (V c (Pipeline.arrRef spec0 0)) (q0 t) := by
  obtain ⟨e0, e1, -⟩ := idx0 t
  funext x
  unfold x0At iblk0
  rw [View.read_apply]
  show V c (Pipeline.arrRef spec0 0) (((cfg0.win 0).blk t).view.emb x) = V c (Pipeline.arrRef spec0 0) _
  congr 1
  funext a
  apply Fin.ext
  match a with
  | ⟨0, _⟩ => show win0_0.index t (0 : Fin 2) * 80 + 1 * (x 0).val = 80 * t.val + (x 0).val; rw [e0]; omega
  | ⟨1, _⟩ => show win0_0.index t (1 : Fin 2) * 10000 + 1 * (x 1).val = (x 1).val; rw [e1]; omega

/-! ## The copy: what each point writes back, the cover, and the array after the last point -/

/-- What point t writes back is block t of `G0_4` of the adjacency array as the region finds it. -/
theorem flushed0_4_eq (c : Dev nD) (t : Fin cfg0.N) :
    (dat0 V c).flushed 4 t = ((cfg0.win 4).blk t).view.read (Elt F) (G0_4 (V c (Pipeline.arrRef spec0 0))) := by
  show (cfg0.win 4).cut (grid0.coords t) ((dat0 V c).after 4 t) = _
  rw [after0_4, x0At_eq]
  obtain ⟨-, -, -, -, -, -, -, -, e8, e9, -⟩ := idx0 t
  funext j
  rw [View.read_apply]
  refine (G0_4_at _ (q0 t) j _ ?_ ?_).symm
  · show win0_4.index t (0 : Fin 2) * 80 + 1 * (j 0).val = t.val * 80 + 1 * (j 0).val; rw [e8]
  · show win0_4.index t (1 : Fin 2) * 10000 + 1 * (j 1).val = 0 * 10000 + 1 * (j 1).val; rw [e9]

/-- An index of the copy is in point t's block iff each coordinate is in the block's range on its axis. -/
theorem mem_blk0_4 (t : Fin cfg0.N) (i : S10000x10000.Idx) :
    i ∈ ((cfg0.win 4).blk t).view.set
      ↔ ∀ a : Fin 2, win0_4.index t a * S80x10000.size a ≤ (i a).val ∧ (i a).val < win0_4.index t a * S80x10000.size a + S80x10000.size a := by
  show i ∈ ((View.whole main_v2_0).slice (win0_4.rect t)).set ↔ _
  rw [View.set_slice_whole, Rect.mem_set_unit]
  exact Iff.rfl

/-- Row r lies in the block of point r / 80: the 125 blocks tile the array. -/
theorem cover0_4 (i : S10000x10000.Idx) : ∃ t : Fin cfg0.N, (cfg0.win 4).flush t = true ∧ i ∈ ((cfg0.win 4).blk t).view.set := by
  have hi0 := idx2_lt0 i
  have hi1 := idx2_lt1 i
  have hN : cfg0.N = 125 := N_0
  refine ⟨⟨(i 0).val / 80, by rw [hN]; omega⟩, flush0_4 _, ?_⟩
  rw [mem_blk0_4]
  obtain ⟨-, -, -, -, -, -, -, -, e8, e9, -⟩ := idx0 ⟨(i 0).val / 80, by rw [hN]; omega⟩
  intro a
  match a with
  | ⟨0, _⟩ =>
    show win0_4.index _ (0 : Fin 2) * 80 ≤ (i 0).val ∧ (i 0).val < win0_4.index _ (0 : Fin 2) * 80 + 80
    rw [e8]; show (i 0).val / 80 * 80 ≤ (i 0).val ∧ (i 0).val < (i 0).val / 80 * 80 + 80; omega
  | ⟨1, _⟩ =>
    show win0_4.index _ (1 : Fin 2) * 10000 ≤ (i 1).val ∧ (i 1).val < win0_4.index _ (1 : Fin 2) * 10000 + 10000
    rw [e9]; omega

/-- The copy after the last write-back is `G0_4` of the adjacency array as the region finds it. -/
theorem final0_4 (c : Dev nD) : (dat0 V c).arrAt 4 cfg0.N = G0_4 (V c (Pipeline.arrRef spec0 0)) :=
  (dat0 V c).arrAt_eq_of_cover 4 _ (fun t _ => flushed0_4_eq V c t) cover0_4

/-! ## The three resident inputs: whole arrays at every point -/

/-- The features' block at any point is the whole array. -/
theorem x1At_eq (c : Dev nD) (t : Fin cfg0.N) : (x1At V c t : Vec F S10000x128 .f32) = V c (Pipeline.arrRef spec0 1) := by
  obtain ⟨-, -, e2, e3, -⟩ := idx0 t
  funext x
  unfold x1At iblk0
  rw [View.read_apply]
  show V c (Pipeline.arrRef spec0 1) (((cfg0.win 1).blk t).view.emb x) = V c (Pipeline.arrRef spec0 1) x
  congr 1
  funext a
  apply Fin.ext
  match a with
  | ⟨0, _⟩ => show win0_1.index t (0 : Fin 2) * 10000 + 1 * (x 0).val = (x 0).val; rw [e2]; omega
  | ⟨1, _⟩ => show win0_1.index t (1 : Fin 2) * 128 + 1 * (x 1).val = (x 1).val; rw [e3]; omega

/-- The first weight's block at any point is the whole array. -/
theorem x2At_eq (c : Dev nD) (t : Fin cfg0.N) : (x2At V c t : Vec F S128x128 .f32) = V c (Pipeline.arrRef spec0 2) := by
  obtain ⟨-, -, -, -, e4, e5, -⟩ := idx0 t
  funext x
  unfold x2At iblk0
  rw [View.read_apply]
  show V c (Pipeline.arrRef spec0 2) (((cfg0.win 2).blk t).view.emb x) = V c (Pipeline.arrRef spec0 2) x
  congr 1
  funext a
  apply Fin.ext
  match a with
  | ⟨0, _⟩ => show win0_2.index t (0 : Fin 2) * 128 + 1 * (x 0).val = (x 0).val; rw [e4]; omega
  | ⟨1, _⟩ => show win0_2.index t (1 : Fin 2) * 128 + 1 * (x 1).val = (x 1).val; rw [e5]; omega

/-- The first bias's block at any point is the whole row. -/
theorem x3At_eq (c : Dev nD) (t : Fin cfg0.N) : (x3At V c t : Vec F S1x128 .f32) = V c (Pipeline.arrRef spec0 3) := by
  obtain ⟨-, -, -, -, -, -, e6, e7, -⟩ := idx0 t
  funext x
  unfold x3At iblk0
  rw [View.read_apply]
  show V c (Pipeline.arrRef spec0 3) (((cfg0.win 3).blk t).view.emb x) = V c (Pipeline.arrRef spec0 3) x
  congr 1
  funext a
  apply Fin.ext
  match a with
  | ⟨0, _⟩ => show win0_3.index t (0 : Fin 2) * 1 + 1 * (x 0).val = (x 0).val; rw [e6]; omega
  | ⟨1, _⟩ => show win0_3.index t (1 : Fin 2) * 128 + 1 * (x 1).val = (x 1).val; rw [e7]; omega

/-! ## The two arrays written at the last point only -/

theorem h124 : 124 < cfg0.N := by rw [show cfg0.N = 125 from N_0]; norm_num

/-- A point that writes the scaled first layer back is the last. -/
theorem last_of_flush0_5 (t : Fin cfg0.N) (hf : (cfg0.win 5).flush t = true) : t = ⟨124, h124⟩ := by
  have h := (flush0_5 t).mp hf
  have hN : cfg0.N = 125 := N_0
  have := t.isLt
  exact Fin.ext (by show t.val = 124; omega)
theorem last_of_flush0_6 (t : Fin cfg0.N) (hf : (cfg0.win 6).flush t = true) : t = ⟨124, h124⟩ := by
  have h := (flush0_6 t).mp hf
  have hN : cfg0.N = 125 := N_0
  have := t.isLt
  exact Fin.ext (by show t.val = 124; omega)

/-- The scaled first layer's block at any point is the whole array: reading it back is the identity, -/
theorem read_blk0_5 (t : Fin cfg0.N) (G : S10000x128.Idx → Elt F .bf16) : ((cfg0.win 5).blk t).view.read (Elt F) G = G := by
  obtain ⟨-, -, -, -, -, -, -, -, -, -, e10, e11, -⟩ := idx0 t
  funext x
  rw [View.read_apply]
  show G (((cfg0.win 5).blk t).view.emb x) = G x
  congr 1
  funext a
  apply Fin.ext
  match a with
  | ⟨0, _⟩ => show win0_5.index t (0 : Fin 2) * 10000 + 1 * (x 0).val = (x 0).val; rw [e10]; omega
  | ⟨1, _⟩ => show win0_5.index t (1 : Fin 2) * 128 + 1 * (x 1).val = (x 1).val; rw [e11]; omega
/-- and every index is in it. -/
theorem mem_blk0_5 (t : Fin cfg0.N) (i : S10000x128.Idx) : i ∈ ((cfg0.win 5).blk t).view.set := by
  show i ∈ ((View.whole main_v2_1).slice (win0_5.rect t)).set
  rw [View.set_slice_whole, Rect.mem_set_unit]
  obtain ⟨-, -, -, -, -, -, -, -, -, -, e10, e11, -⟩ := idx0 t
  have hi0 := idx2_lt0 i
  have hi1 := idx2_lt1 i
  intro a
  match a with
  | ⟨0, _⟩ =>
    show win0_5.index t (0 : Fin 2) * 10000 ≤ (i 0).val ∧ (i 0).val < win0_5.index t (0 : Fin 2) * 10000 + 10000
    rw [e10]; omega
  | ⟨1, _⟩ =>
    show win0_5.index t (1 : Fin 2) * 128 ≤ (i 1).val ∧ (i 1).val < win0_5.index t (1 : Fin 2) * 128 + 128
    rw [e11]; omega

/-- The column factor's block at any point is the whole array. -/
theorem read_blk0_6 (t : Fin cfg0.N) (G : S10000x1.Idx → Elt F .f32) : ((cfg0.win 6).blk t).view.read (Elt F) G = G := by
  obtain ⟨-, -, -, -, -, -, -, -, -, -, -, -, e12, e13⟩ := idx0 t
  funext x
  rw [View.read_apply]
  show G (((cfg0.win 6).blk t).view.emb x) = G x
  congr 1
  funext a
  apply Fin.ext
  match a with
  | ⟨0, _⟩ => show win0_6.index t (0 : Fin 2) * 10000 + 1 * (x 0).val = (x 0).val; rw [e12]; omega
  | ⟨1, _⟩ => show win0_6.index t (1 : Fin 2) * 1 + 1 * (x 1).val = (x 1).val; rw [e13]; omega
theorem mem_blk0_6 (t : Fin cfg0.N) (i : S10000x1.Idx) : i ∈ ((cfg0.win 6).blk t).view.set := by
  show i ∈ ((View.whole main_v2_2).slice (win0_6.rect t)).set
  rw [View.set_slice_whole, Rect.mem_set_unit]
  obtain ⟨-, -, -, -, -, -, -, -, -, -, -, -, e12, e13⟩ := idx0 t
  have hi0 := idx2_lt0 i
  have hi1 := idx2_lt1 i
  intro a
  match a with
  | ⟨0, _⟩ =>
    show win0_6.index t (0 : Fin 2) * 10000 ≤ (i 0).val ∧ (i 0).val < win0_6.index t (0 : Fin 2) * 10000 + 10000
    rw [e12]; omega
  | ⟨1, _⟩ =>
    show win0_6.index t (1 : Fin 2) * 1 ≤ (i 1).val ∧ (i 1).val < win0_6.index t (1 : Fin 2) * 1 + 1
    rw [e13]; omega

/-- The scaled first layer after the last write-back: the body's payload of the two accumulators after the last point
    and of the three resident arrays as the region finds them. -/
theorem final0_5 (c : Dev nD) :
    (dat0 V c).arrAt 5 cfg0.N
      = k0_pay7 (accAt V c 124 h124).1 (accAt V c 124 h124).2 (V c (Pipeline.arrRef spec0 1)) (V c (Pipeline.arrRef spec0 2))
          (V c (Pipeline.arrRef spec0 3)) := by
  refine (dat0 V c).arrAt_eq_of_cover 5 _ (fun t hf => ?_) (fun i => ⟨⟨124, h124⟩, (flush0_5 _).mpr rfl, mem_blk0_5 _ i⟩)
  have ht := last_of_flush0_5 t hf
  subst ht
  show (cfg0.win 5).cut (grid0.coords ⟨124, h124⟩) ((dat0 V c).after 5 ⟨124, h124⟩) = _
  rw [after0_5, x1At_eq, x2At_eq, x3At_eq, read_blk0_5]
  rfl

/-- The column factor after the last write-back: the body's payload of the two accumulators after the last point. -/
theorem final0_6 (c : Dev nD) :
    (dat0 V c).arrAt 6 cfg0.N = k0_pay6 (accAt V c 124 h124).1 (accAt V c 124 h124).2 := by
  refine (dat0 V c).arrAt_eq_of_cover 6 _ (fun t hf => ?_) (fun i => ⟨⟨124, h124⟩, (flush0_6 _).mpr rfl, mem_blk0_6 _ i⟩)
  have ht := last_of_flush0_6 t hf
  subst ht
  show (cfg0.win 6).cut (grid0.coords ⟨124, h124⟩) ((dat0 V c).after 6 ⟨124, h124⟩) = _
  rw [after0_6, read_blk0_6]
  rfl

end Cert.KernelIdeal.Hand

/-! # On the extended reals -/

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The adjacency array, the features, the transposed first weight and the first bias as a row, as the region finds them. -/
abbrev TAt (c : Dev nD) : S10000x10000.Idx → EReal := V c (Pipeline.arrRef spec0 0)
abbrev XAt (c : Dev nD) : S10000x128.Idx → EReal := V c (Pipeline.arrRef spec0 1)
abbrev W1TAt (c : Dev nD) : S128x128.Idx → EReal := V c (Pipeline.arrRef spec0 2)
abbrev b1rowAt (c : Dev nD) : S1x128.Idx → EReal := V c (Pipeline.arrRef spec0 3)

/-! ## The row accumulator -/

/-- The product with the column of ones at any index of the [80,1] result: the sum of that row of the strip. -/
theorem k0_pay2_at (v0 : Vec Ideal S80x10000 .f32) (x : S80x1.Idx) :
    Gen.k0_pay2 (F := Ideal) v0 x = ∑ k : Fin 10000, v0 (ix2 (x 0) k) := by
  have hx : x = ix2 (x 0) (0 : Fin 1) := by
    funext a
    match a with
    | ⟨0, _⟩ => rfl
    | ⟨1, _⟩ => exact Fin.ext (by show (x 1).val = 0; have := idx2_lt1 x; omega)
  exact (congrArg (Gen.k0_pay2 (F := Ideal) v0) hx).trans (k0_pay2_apply v0 (x 0))

/-- A row inside strip t's rectangle, once strip t's row sums are laid over the accumulator, holds the sum of that row
    of the adjacency array. -/
theorem overlay_row (c : Dev nD) (t : Fin cfg0.N) (prev : Vec Ideal S10000x1 .f32) (y : S10000x1.Idx)
    (hm : y ∈ (rOff (grid0.coords t)).set) :
    (rOff (grid0.coords t)).overlay prev (k0_pay2 (x0At V c t)) y
      = ∑ k : Fin 10000, TAt V c (ix2 ⟨(y 0).val, idx2_lt0 y⟩ k) := by
  obtain ⟨x, rfl⟩ : ∃ x, (rOff (grid0.coords t)).emb x = y := (rOff (grid0.coords t)).exists_idx_of_mem hm
  rw [Rect.overlay_emb, k0_pay2_at, x0At_eq]
  refine Finset.sum_congr rfl fun k _ => ?_
  rw [strip80_apply]
  refine congrArg (V c (Pipeline.arrRef spec0 0)) (funext fun a => Fin.ext ?_)
  match a with
  | ⟨0, _⟩ =>
    show 80 * t.val + (x 0).val = k0_off1 (grid0.coords t) 0 + 1 * (x 0).val
    rw [off0_0 t]; omega
  | ⟨1, _⟩ => rfl

/-- After point n the rows below 80(n+1) of the row accumulator hold the row sums of the adjacency array. -/
theorem rowAcc_apply (c : Dev nD) : ∀ (n : ℕ) (hn : n < cfg0.N) (y : S10000x1.Idx), (y 0).val < 80 * (n + 1) →
    (accAt V c n hn).1 y = ∑ k : Fin 10000, TAt V c (ix2 ⟨(y 0).val, idx2_lt0 y⟩ k)
  | 0, hn, y, hy => by
    show (rOff (grid0.coords ⟨0, hn⟩)).overlay junk8 (k0_pay2 (x0At V c ⟨0, hn⟩)) y = _
    exact overlay_row V c ⟨0, hn⟩ _ y ((mem_rOff ⟨0, hn⟩ y).mpr ⟨by show 80 * 0 ≤ (y 0).val; omega, by show (y 0).val < 80 * 0 + 80; omega⟩)
  | n + 1, hn, y, hy => by
    show (rOff (grid0.coords ⟨n + 1, hn⟩)).overlay (accAt V c n (Nat.lt_of_succ_lt hn)).1 (k0_pay2 (x0At V c ⟨n + 1, hn⟩)) y = _
    by_cases hm : y ∈ (rOff (grid0.coords ⟨n + 1, hn⟩)).set
    · exact overlay_row V c ⟨n + 1, hn⟩ _ y hm
    · rw [Rect.overlay_of_not_mem _ _ _ hm]
      refine rowAcc_apply c n _ y ?_
      rw [mem_rOff] at hm
      change ¬(80 * (n + 1) ≤ (y 0).val ∧ (y 0).val < 80 * (n + 1) + 80) at hm
      omega

/-- After the last point the row accumulator holds every row sum. -/
theorem rowAcc_last (c : Dev nD) (j : Fin 10000) :
    (accAt V c 124 h124).1 (ix2 j (0 : Fin 1)) = ∑ k : Fin 10000, TAt V c (ix2 j k) :=
  rowAcc_apply V c 124 h124 (ix2 j (0 : Fin 1)) (by show j.val < 80 * (124 + 1); have := j.isLt; omega)

/-! ## The column accumulator -/

/-- Strip t's column sums at column j: the sum over the strip's 80 rows of the adjacency array's entries. -/
theorem stripCol (c : Dev nD) (t : Fin cfg0.N) (j : Fin 10000) :
    Gen.k0_pay3 (F := Ideal) (x0At V c t) (ix2 j (0 : Fin 1))
      = ∑ r : Fin 80, TAt V c (ix2 ⟨80 * t.val + r.val, by have := t.isLt; have hN : cfg0.N = 125 := N_0; have := r.isLt; omega⟩ j) := by
  rw [k0_pay3_apply, x0At_eq]
  refine Finset.sum_congr rfl fun r _ => ?_
  rw [strip80_apply]
  refine congrArg (V c (Pipeline.arrRef spec0 0)) (funext fun a => Fin.ext ?_)
  match a with
  | ⟨0, _⟩ => rfl
  | ⟨1, _⟩ => rfl

/-- After the last point the column accumulator holds every column sum: the running total over the 125 strips. -/
theorem colAcc_last (c : Dev nD) (j : Fin 10000) :
    (accAt V c 124 h124).2 (ix2 j (0 : Fin 1)) = ∑ i : Fin 10000, TAt V c (ix2 i j) := by
  have hN : cfg0.N = 125 := N_0
  have key := Cert.StripSum.sum_strips (fun i : Fin 10000 => TAt V c (ix2 i j))
    (fun n => if h : n < cfg0.N then (accAt V c n h).2 (ix2 j (0 : Fin 1)) else 0) ?_ ?_
  · refine Eq.trans ?_ key
    rw [dif_pos h124]
  · show (if h : 0 < cfg0.N then (accAt V c 0 h).2 (ix2 j (0 : Fin 1)) else 0) = _
    rw [dif_pos (by omega)]
    show k0_pay4 (x0At V c ⟨0, _⟩) (ix2 j (0 : Fin 1)) = _
    rw [k0_pay4_eq, stripCol]
    refine Finset.sum_congr rfl fun r _ => ?_
    exact congrArg (V c (Pipeline.arrRef spec0 0)) (funext fun a => Fin.ext (by
      match a with
      | ⟨0, _⟩ => show 80 * 0 + r.val = r.val; omega
      | ⟨1, _⟩ => rfl))
  · intro n hn
    show (if h : n + 1 < cfg0.N then (accAt V c (n + 1) h).2 (ix2 j (0 : Fin 1)) else 0)
      = (if h : n < cfg0.N then (accAt V c n h).2 (ix2 j (0 : Fin 1)) else 0) + _
    rw [dif_pos (by omega), dif_pos (by omega)]
    show k0_pay5 (x0At V c ⟨n + 1, _⟩) (accAt V c n _).2 (ix2 j (0 : Fin 1)) = _
    rw [k0_pay5_apply, stripCol]

/-! ## The three arrays at an index, in the specification's terms -/

/-- The copy is the adjacency array, entry by entry. -/
theorem arr4_apply (c : Dev nD) (i j : Fin 10000) :
    ((dat0 V c).arrAt 4 cfg0.N : S10000x10000.Idx → EReal) (ix2 i j) = TAt V c (ix2 i j) := by
  rw [final0_4, G0_4_apply]
  refine (congrFun (k0_pay1_eq _) _).trans ?_
  rw [strip80_apply]
  refine congrArg (V c (Pipeline.arrRef spec0 0)) (funext fun a => Fin.ext ?_)
  match a with
  | ⟨0, _⟩ => show 80 * (i.val / 80) + i.val % 80 = i.val; omega
  | ⟨1, _⟩ => rfl

/-- The column factor array holds √(row sum · column sum). -/
theorem arr6_apply (c : Dev nD) (j : Fin 10000) :
    ((dat0 V c).arrAt 6 cfg0.N : S10000x1.Idx → EReal) (ix2 j (0 : Fin 1)) = Cert.Spec.scale (TAt V c) j := by
  rw [final0_6, k0_pay6_apply, rowAcc_last, colAcc_last]
  rfl

/-- The scaled first layer: the column factor at row j times (X·W + b)(j, d), W and b as the region finds them. -/
theorem arr5_apply (c : Dev nD) (j : Fin 10000) (d : Fin 128) :
    ((dat0 V c).arrAt 5 cfg0.N : S10000x128.Idx → EReal) (ix2 j d)
      = Cert.Spec.scale (TAt V c) j
        * ((∑ k : Fin 128, XAt V c (ix2 j k) * W1TAt V c (ix2 k d)) + b1rowAt V c (ix2 (0 : Fin 1) d)) := by
  rw [final0_5, k0_pay7_apply, rowAcc_last, colAcc_last]
  rfl

end Cert.KernelIdeal.HandValue

end
-- ==== Proof.KIInputs.lean ====
/-
  What the first kernel region leaves in its three output arrays, in terms of the ARGUMENT arrays: the narrow-format copy
  of the adjacency array is the adjacency array; the column factor is √(row sum · column sum); the scaled first layer is
  that factor times X·W1ᵀ + b1, the weight read through the host's transpose and the bias through the host's reshape.
-/
import proofs.«162869_g88759794139180_cont_sun_c4_43_14_alg».proof.Proof.KIRun
import proofs.«162869_g88759794139180_cont_sun_c4_43_14_alg».proof.Proof.KIFinal0
import proofs.«162869_g88759794139180_cont_sun_c4_43_14_alg».proof.Proof.KIChain
import proofs.«162869_g88759794139180_cont_sun_c4_43_14_alg».proof.Proof.Spec

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The bf16 copy of the adjacency array that the first region leaves is the adjacency array. -/
theorem copy_apply (i j : Fin 10000) :
    ((dat0 (V1 (F := Ideal) m ρ) c).arrAt 4 cfg0.N : S10000x10000.Idx → EReal) (ix2 i j) = (m ((c : Thread nD τ).loc main_arg1) : S10000x10000.Idx → EReal) (ix2 i j) :=
  (arr4_apply (V1 (F := Ideal) m ρ) c i j).trans (congrFun (V1_main_arg1 (F := Ideal) m ρ c) _)

/-- The column factor it leaves is √(row sum · column sum) of the adjacency array. -/
theorem scale_apply (j : Fin 10000) :
    ((dat0 (V1 (F := Ideal) m ρ) c).arrAt 6 cfg0.N : S10000x1.Idx → EReal) (ix2 j (0 : Fin 1)) = Cert.Spec.scale (m ((c : Thread nD τ).loc main_arg1)) j := by
  have eT : TAt (V1 (F := Ideal) m ρ) c = (m ((c : Thread nD τ).loc main_arg1) : S10000x10000.Idx → EReal) := V1_main_arg1 (F := Ideal) m ρ c
  rw [arr6_apply, eT]

/-- The scaled first layer it leaves: the column factor times (X·W1ᵀ + b1), the weight read through the host's transpose
    and the bias through the host's reshape to a row. -/
theorem hs_apply (j : Fin 10000) (d : Fin 128) :
    ((dat0 (V1 (F := Ideal) m ρ) c).arrAt 5 cfg0.N : S10000x128.Idx → EReal) (ix2 j d)
      = Cert.Spec.hsK (m ((c : Thread nD τ).loc main_arg0)) (m ((c : Thread nD τ).loc main_arg1)) (m ((c : Thread nD τ).loc main_arg2)) (m ((c : Thread nD τ).loc main_arg3)) j d := by
  have eT : TAt (V1 (F := Ideal) m ρ) c = (m ((c : Thread nD τ).loc main_arg1) : S10000x10000.Idx → EReal) := V1_main_arg1 (F := Ideal) m ρ c
  have eX : XAt (V1 (F := Ideal) m ρ) c = (m ((c : Thread nD τ).loc main_arg0) : S10000x128.Idx → EReal) := V1_main_arg0 (F := Ideal) m ρ c
  have eW : W1TAt (V1 (F := Ideal) m ρ) c = transpose S128x128 [1, 0] (m ((c : Thread nD τ).loc main_arg2) : S128x128.Idx → EReal) transposes_S128x128_S128x128_1_0 :=
    V1_main_v0 (F := Ideal) m ρ c
  have eb : b1rowAt (V1 (F := Ideal) m ρ) c = fun i => shapeCast S1x128 (m ((c : Thread nD τ).loc main_arg3) : S128.Idx → EReal) shapeCasts_S128_S1x128 i :=
    V1_main_v1 (F := Ideal) m ρ c
  rw [arr5_apply, eT, eX, eW, eb]
  simp only [reshape_128_row_apply]
  unfold Cert.Spec.hsK Cert.Spec.lin1
  congr 2
  exact Finset.sum_congr rfl fun k _ => by
    rw [transpose_128x128_apply (m ((c : Thread nD τ).loc main_arg2) : S128x128.Idx → EReal) transposes_S128x128_S128x128_1_0 k d]

end Cert.KernelIdeal.HandValue

end
-- ==== Proof.Law.lean ====
/-
  The kernel's arrangement of the two-layer graph convolution equals the reference's, term by term, as soon as
  every column sum and every row sum of the adjacency array is a non-negative real.

  For a non-negative real c, c^½ (the power with the exponent word for one half) is √c, and for non-negative
  reals r, c the square root √(r·c) is √r·√c.  So the kernel's one column factor s j = √(r j · c j) is the
  product (c j)^½ · (r j)^½ of the reference's two factors, and each summand of the reference,
  ((c j)^½ · T(i,j)) · (r j)^½ · y, is the kernel's T(i,j) · (s j · y) (or T(i,j) · (y · s j)) by commutativity and
  associativity of multiplication on the extended reals.  No sum is split or regrouped.
-/
import proofs.«162869_g88759794139180_cont_sun_c4_43_14_alg».proof.Proof.Spec

noncomputable section

open scoped BigOperators

namespace Cert.Spec

open Idealize.ShloMosaic Idealize.ShloMosaic.ValueIdx

/-- A finite sum of coercions of reals is the coercion of the real sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The exponent word is the real one half. -/
theorem half_eq : half = ((1 / 2 : ℝ) : EReal) := by
  simp [half, Ideal.ofBits, Ideal.ieee]
  rw [← EReal.coe_mul, EReal.coe_eq_coe_iff]
  norm_num

/-- On a non-negative real the one-half power is the square root. -/
theorem pow_half_coe (c : ℝ) : Ideal.pow (c : EReal) half = ((Real.sqrt c : ℝ) : EReal) := by
  rw [half_eq, Ideal.pow_coe_coe, Real.sqrt_eq_rpow]
  rfl

/-- The square root of a product of non-negative reals is the product of the one-half powers. -/
theorem sqrt_mul_coe (r c : ℝ) (hr : 0 ≤ r) (hc : 0 ≤ c) :
    Ideal.sqrt ((r : EReal) * (c : EReal)) = Ideal.pow (c : EReal) half * Ideal.pow (r : EReal) half := by
  rw [pow_half_coe, pow_half_coe, ← EReal.coe_mul, ← EReal.coe_mul, Ideal.sqrt_coe,
    if_neg (not_lt.mpr (mul_nonneg hr hc)), Real.sqrt_mul hr, mul_comm]

variable (X : FVec Ideal SX .f32) (T : FVec Ideal ST .f32) (W1 : FVec Ideal SW1 .f32) (b1 : FVec Ideal Sb1 .f32)
  (W2 : FVec Ideal SW2 .f32) (b2 : FVec Ideal Sb2 .f32)

/-- With real entries every column sum is a real. -/
theorem colSum_coe (hT : ∀ i j : Fin 10000, ∃ r : ℝ, T (ix2 i j) = (r : EReal)) (j : Fin 10000) :
    ∃ c : ℝ, colSum T j = (c : EReal) := by
  choose f hf using hT
  exact ⟨∑ i : Fin 10000, f i j, by unfold colSum; rw [← sum_coe]; exact Finset.sum_congr rfl fun i _ => hf i j⟩

/-- With real entries every row sum is a real. -/
theorem rowSum_coe (hT : ∀ i j : Fin 10000, ∃ r : ℝ, T (ix2 i j) = (r : EReal)) (j : Fin 10000) :
    ∃ c : ℝ, rowSum T j = (c : EReal) := by
  choose f hf using hT
  exact ⟨∑ i : Fin 10000, f j i, by unfold rowSum; rw [← sum_coe]; exact Finset.sum_congr rfl fun i _ => hf j i⟩

/-- The kernel's column factor is the product of the reference's two. -/
theorem scale_eq (hT : ∀ i j : Fin 10000, ∃ r : ℝ, T (ix2 i j) = (r : EReal)) (hc : ∀ j, 0 ≤ colSum T j)
    (hr : ∀ j, 0 ≤ rowSum T j) (j : Fin 10000) :
    scale T j = Ideal.pow (colSum T j) half * Ideal.pow (rowSum T j) half := by
  obtain ⟨c, hcj⟩ := colSum_coe T hT j
  obtain ⟨r, hrj⟩ := rowSum_coe T hT j
  have hc0 : 0 ≤ c := by have := hc j; rw [hcj] at this; exact EReal.coe_nonneg.mp this
  have hr0 : 0 ≤ r := by have := hr j; rw [hrj] at this; exact EReal.coe_nonneg.mp this
  unfold scale
  rw [hcj, hrj]
  exact sqrt_mul_coe r c hr0 hc0

/-- A summand of the reference is the kernel's, the factor folded onto the right operand from the left. -/
theorem nrm_mul_left (hT : ∀ i j : Fin 10000, ∃ r : ℝ, T (ix2 i j) = (r : EReal)) (hc : ∀ j, 0 ≤ colSum T j)
    (hr : ∀ j, 0 ≤ rowSum T j) (i j : Fin 10000) (y : EReal) :
    nrm T i j * y = T (ix2 i j) * (scale T j * y) := by
  rw [scale_eq T hT hc hr j]
  unfold nrm
  ac_rfl

/-- A summand of the reference is the kernel's, the factor folded onto the right operand from the right. -/
theorem nrm_mul_right (hT : ∀ i j : Fin 10000, ∃ r : ℝ, T (ix2 i j) = (r : EReal)) (hc : ∀ j, 0 ≤ colSum T j)
    (hr : ∀ j, 0 ≤ rowSum T j) (i j : Fin 10000) (y : EReal) :
    nrm T i j * y = T (ix2 i j) * (y * scale T j) := by
  rw [nrm_mul_left T hT hc hr, mul_comm (scale T j) y]

theorem tK_eq_hRef (hT : ∀ i j : Fin 10000, ∃ r : ℝ, T (ix2 i j) = (r : EReal)) (hc : ∀ j, 0 ≤ colSum T j)
    (hr : ∀ j, 0 ≤ rowSum T j) (i : Fin 10000) (c : Fin 128) : tK X T W1 b1 i c = hRef X T W1 b1 i c := by
  unfold tK hRef hsK
  exact Finset.sum_congr rfl fun j _ => (nrm_mul_left T hT hc hr i j _).symm

theorem rK_eq_rRef (hT : ∀ i j : Fin 10000, ∃ r : ℝ, T (ix2 i j) = (r : EReal)) (hc : ∀ j, 0 ≤ colSum T j)
    (hr : ∀ j, 0 ≤ rowSum T j) (i : Fin 10000) (c : Fin 128) : rK X T W1 b1 i c = rRef X T W1 b1 i c := by
  unfold rK rRef
  rw [tK_eq_hRef X T W1 b1 hT hc hr]

/-- A summand of the kernel's result is the reference's. -/
theorem out_term (hT : ∀ i j : Fin 10000, ∃ r : ℝ, T (ix2 i j) = (r : EReal)) (hc : ∀ j, 0 ≤ colSum T j)
    (hr : ∀ j, 0 ≤ rowSum T j) (i j : Fin 10000) (d : Fin 32) :
    T (ix2 i j) * zK X T W1 b1 W2 b2 j d = nrm T i j * oRef X T W1 b1 W2 b2 j d := by
  rw [nrm_mul_right T hT hc hr]
  unfold zK oRef
  simp only [rK_eq_rRef X T W1 b1 hT hc hr]

/-- The kernel's result is the reference's. -/
theorem kerOut_eq_refOut (hT : ∀ i j : Fin 10000, ∃ r : ℝ, T (ix2 i j) = (r : EReal)) (hc : ∀ j, 0 ≤ colSum T j)
    (hr : ∀ j, 0 ≤ rowSum T j) : kerOut X T W1 b1 W2 b2 = refOut X T W1 b1 W2 b2 := by
  funext p
  exact Finset.sum_congr rfl fun j _ => out_term X T W1 b1 W2 b2 hT hc hr (p 0) j (p 1)

end Cert.Spec

end
-- ==== Proof.PreFacts.lean ====
/-
  What the precondition says of the adjacency array T (the second argument), at the ideal values.

  The printed precondition is a conjunction, by `and` on condition words, of eight `all` tests: for each of the six
  float arguments that every entry x has |x| < +∞, then that every sum of T over its first axis is ≥ 0, then that
  every sum of T over its second axis is ≥ 0. Each `all` is a reduction by `and` from the word 1 into the one-index
  scalar shape, so its being 1 gives the tested word 1 at every index. Read at an index:
    • |x| < +∞ is max(x, −x) < ⊤ on the extended reals, which excludes x = ⊤ and x = ⊥: x is a real;
    • the host's sum over one axis from the initial value 0 is 0 + Σ over that axis's coordinates, and the test
      "≥ 0" is 0 ≤ that sum on the extended reals. Summing over the first axis at result index j gives
      Σ_i T(i,j), the column sum; over the second axis Σ_i T(j,i), the row sum.
  Only the three conjuncts that speak of T are read; the other five arguments' tests are dropped.

  The theorems take the six argument arrays as variables and the precondition as the equation
  `fn a0 T a2 a3 a4 a5 = fun _ => 1#1`, the form the claims state per device.
-/
import proofs.«162869_g88759794139180_cont_sun_c4_43_14_alg».proof.Pre_finite_inputs
import proofs.«162869_g88759794139180_cont_sun_c4_43_14_alg».proof.Proof.Spec
import Idealize.ShloMosaic.Lib.ReduceAll
import Idealize.ShloMosaic.Lib.IdealHost

noncomputable section

open scoped BigOperators

namespace Cert.PreFacts

open Idealize.ShloMosaic Idealize.ShloMosaic.ValueIdx
open Cert.Pre_finite_inputs

/-- The scalar shape has one index. -/
instance : Subsingleton S_.Idx := ⟨fun a b => funext fun d => d.elim0⟩

/-- A condition word is 1 exactly when its condition holds. -/
theorem ofBool_eq_one {b : Bool} : BitVec.ofBool b = 1#1 ↔ b = true := by cases b <;> decide

/-- An extended real whose absolute value max(x, -x) compares below the pattern of +∞ is a real. -/
theorem real_of_abs_olt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  change BitVec.ofBool (decide (max x (-x) < ⊤)) = 1#1 at hx
  have hlt : max x (-x) < ⊤ := of_decide_eq_true (ofBool_eq_one.1 hx)
  induction x using EReal.rec with
  | bot => simp at hlt
  | coe r => exact ⟨r, rfl⟩
  | top => simp at hlt

/-- An extended real that compares at or above zero is not negative. -/
theorem nonneg_of_oge_zero (x : EReal) (hx : Ideal.cmp .oge x 0 = 1#1) : 0 ≤ x := by
  change BitVec.ofBool (decide ((0 : EReal) ≤ x)) = 1#1 at hx
  exact of_decide_eq_true (ofBool_eq_one.1 hx)

variable [Facts]

/-- The three conjuncts of the precondition that speak of the adjacency array, each read at an index. -/
theorem pre_split (a0 : FVec Ideal S10000x128 .f32) (T : FVec Ideal S10000x10000 .f32) (a2 : FVec Ideal S128x128 .f32)
    (a3 : FVec Ideal S128 .f32) (a4 : FVec Ideal S32x128 .f32) (a5 : FVec Ideal S32 .f32)
    (h : fn (F := Ideal) a0 T a2 a3 a4 a5 = (fun _ => 1#1)) :
    (∀ i : S10000x10000.Idx,
      cmpf .olt (Host.absf T)
        (broadcastInDim S10000x10000 ![] Facts.bcast_S_S10000x10000 (constant (F := Ideal) S_ .f32 0x7F800000#32)) i = 1#1)
    ∧ (∀ j : S10000.Idx,
      cmpf .oge (Host.reduceAdd T (constant (F := Ideal) S_ .f32 0x00000000#32) Facts.reducesTo_S10000x10000_S10000_d0 Facts.h_S_)
        (broadcastInDim S10000 ![] Facts.bcast_S_S10000 (constant (F := Ideal) S_ .f32 0x00000000#32)) j = 1#1)
    ∧ (∀ j : S10000.Idx,
      cmpf .oge (Host.reduceAdd T (constant (F := Ideal) S_ .f32 0x00000000#32) Facts.reducesTo_S10000x10000_S10000_d1 Facts.h_S_)
        (broadcastInDim S10000 ![] Facts.bcast_S_S10000 (constant (F := Ideal) S_ .f32 0x00000000#32)) j = 1#1) := by
  have h0 := congrFun h ix0
  dsimp only [fn, fn_part1, fn_part2] at h0
  obtain ⟨h33, h37⟩ := IntOp.andi_eq_one.1 h0
  obtain ⟨h28, h32⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨-, h7⟩ := IntOp.andi_eq_one.1 h8
  exact ⟨fun i => Host.reduce_andi_all _ _ _ _ _ h7 i, fun j => Host.reduce_andi_all _ _ _ _ _ h32 j,
    fun j => Host.reduce_andi_all _ _ _ _ _ h37 j⟩

/-- (a) Every entry of the adjacency array is a real. -/
theorem T_real (a0 : FVec Ideal S10000x128 .f32) (T : FVec Ideal S10000x10000 .f32) (a2 : FVec Ideal S128x128 .f32)
    (a3 : FVec Ideal S128 .f32) (a4 : FVec Ideal S32x128 .f32) (a5 : FVec Ideal S32 .f32)
    (h : fn (F := Ideal) a0 T a2 a3 a4 a5 = (fun _ => 1#1)) (i j : Fin 10000) :
    ∃ r : ℝ, T (ix2 i j) = (r : EReal) := by
  have hij := (pre_split a0 T a2 a3 a4 a5 h).1 (ix2 i j)
  rw [cmpf_apply, broadcastInDim_scalar_apply, constant_apply] at hij
  exact real_of_abs_olt_inf (T (ix2 i j)) hij

/-- (b) Every column sum of the adjacency array is at least zero. -/
theorem colSum_nonneg (a0 : FVec Ideal S10000x128 .f32) (T : FVec Ideal S10000x10000 .f32) (a2 : FVec Ideal S128x128 .f32)
    (a3 : FVec Ideal S128 .f32) (a4 : FVec Ideal S32x128 .f32) (a5 : FVec Ideal S32 .f32)
    (h : fn (F := Ideal) a0 T a2 a3 a4 a5 = (fun _ => 1#1)) (j : Fin 10000) :
    0 ≤ Cert.Spec.colSum T j := by
  have hj := (pre_split a0 T a2 a3 a4 a5 h).2.1 (ix1 j)
  have hR : S10000x10000.Reduces [0] S10000 := by decide
  rw [cmpf_apply, broadcastInDim_scalar_apply, constant_apply, hostReduceAdd_apply, constant_apply,
    Ideal.hostReduceAdd_single _ hR, Ideal.ofBits_zero_f32, zero_add] at hj
  have h0 : (0 : EReal) ≤ ∑ k, T (hR.lift (ix1 j) k) := nonneg_of_oge_zero _ hj
  show (0 : EReal) ≤ ∑ i : Fin 10000, T (ix2 i j)
  refine le_of_le_of_eq h0 (Finset.sum_congr rfl fun k _ => congrArg T ?_)
  funext c; match c with | ⟨0, _⟩ => rfl | ⟨1, _⟩ => rfl

/-- (c) Every row sum of the adjacency array is at least zero. -/
theorem rowSum_nonneg (a0 : FVec Ideal S10000x128 .f32) (T : FVec Ideal S10000x10000 .f32) (a2 : FVec Ideal S128x128 .f32)
    (a3 : FVec Ideal S128 .f32) (a4 : FVec Ideal S32x128 .f32) (a5 : FVec Ideal S32 .f32)
    (h : fn (F := Ideal) a0 T a2 a3 a4 a5 = (fun _ => 1#1)) (j : Fin 10000) :
    0 ≤ Cert.Spec.rowSum T j := by
  have hj := (pre_split a0 T a2 a3 a4 a5 h).2.2 (ix1 j)
  have hR : S10000x10000.Reduces [1] S10000 := by decide
  rw [cmpf_apply, broadcastInDim_scalar_apply, constant_apply, hostReduceAdd_apply, constant_apply,
    Ideal.hostReduceAdd_single _ hR, Ideal.ofBits_zero_f32, zero_add] at hj
  have h0 : (0 : EReal) ≤ ∑ k, T (hR.lift (ix1 j) k) := nonneg_of_oge_zero _ hj
  show (0 : EReal) ≤ ∑ i : Fin 10000, T (ix2 j i)
  refine le_of_le_of_eq h0 (Finset.sum_congr rfl fun k _ => congrArg T ?_)
  funext c; match c with | ⟨0, _⟩ => rfl | ⟨1, _⟩ => rfl

end Cert.PreFacts

end
-- ==== Proof.RefIs.lean ====
/-
  The reference's result, read one operation at a time at an index, is the specification's reference arrangement.

  The reference sums the adjacency array T over its first axis (the column sums c j) and over its second (the row
  sums r j), raises each to the exponent word for one half, spreads both along the LAST index of a 10000×10000
  array, and multiplies: ((c j)^½ · T(i,j)) · (r j)^½, the scaled entry.  The first layer is X·W1ᵀ + b1; the scaled
  array times it, the maximum with zero, times W2ᵀ plus b2, and the scaled array times that give the result.  Each
  step below reads one such operation at an index; the zero words the sums start from are the extended real 0.
-/
import proofs.«162869_g88759794139180_cont_sun_c4_43_14_alg».proof.Proof.Spec
import proofs.«162869_g88759794139180_cont_sun_c4_43_14_alg».proof.Proof.Gen.ReferenceIdeal.Read
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Spec

variable (X : FVec Ideal S10000x128 .f32) (T : FVec Ideal S10000x10000 .f32) (W1 : FVec Ideal S128x128 .f32)
  (b1 : FVec Ideal S128 .f32) (W2 : FVec Ideal S32x128 .f32) (b2 : FVec Ideal S32 .f32)

/-! ## The scaled adjacency array -/

/-- The sum over the first axis is the column sum. -/
theorem v0_apply (j : Fin 10000) : val_main_v0 (F := Ideal) T (ix1 j) = colSum T j := by
  rw [val_main_v0_apply, val_main_cst_apply, Ideal.ofBits_def, Ideal.ofBits_zero_f32, zero_add]
  unfold colSum
  refine Finset.sum_congr rfl fun k _ => congrArg T ?_
  funext a; match a with | ⟨0, _⟩ => rfl | ⟨1, _⟩ => rfl

/-- The sum over the second axis is the row sum. -/
theorem v1_apply (j : Fin 10000) : val_main_v1 (F := Ideal) T (ix1 j) = rowSum T j := by
  rw [val_main_v1_apply, val_main_cst_0_apply, Ideal.ofBits_def, Ideal.ofBits_zero_f32, zero_add]
  unfold rowSum
  refine Finset.sum_congr rfl fun k _ => congrArg T ?_
  funext a; match a with | ⟨0, _⟩ => rfl | ⟨1, _⟩ => rfl

theorem v3_apply (j : Fin 10000) : val_main_v3 (F := Ideal) T (ix1 j) = Ideal.pow (colSum T j) half := by
  rw [val_main_v3_apply, Ideal.hostPowf_def, v0_apply, val_main_v2_apply, val_main_cst_1_apply, Ideal.ofBits_def]
  rfl

theorem v8_apply (j : Fin 10000) : val_main_v8 (F := Ideal) T (ix1 j) = Ideal.pow (rowSum T j) half := by
  rw [val_main_v8_apply, Ideal.hostPowf_def, v1_apply, val_main_v7_apply, val_main_cst_2_apply, Ideal.ofBits_def]
  rfl

theorem v5_apply (i j : Fin 10000) : val_main_v5 (F := Ideal) T (ix2 i j) = Ideal.pow (colSum T j) half := by
  rw [val_main_v5_apply, val_main_v4_apply]
  have h : idx_main_v4 (idx_main_v5 (ix2 i j)) = ix1 j := by funext a; match a with | ⟨0, _⟩ => rfl
  rw [h, v3_apply]

theorem v10_apply (i j : Fin 10000) : val_main_v10 (F := Ideal) T (ix2 i j) = Ideal.pow (rowSum T j) half := by
  rw [val_main_v10_apply, val_main_v9_apply]
  have h : idx_main_v9 (idx_main_v10 (ix2 i j)) = ix1 j := by funext a; match a with | ⟨0, _⟩ => rfl
  rw [h, v8_apply]

/-- The scaled entry. -/
theorem v11_apply (i j : Fin 10000) : val_main_v11 (F := Ideal) T (ix2 i j) = nrm T i j := by
  rw [val_main_v11_apply, val_main_v6_apply, Ideal.mulf_def, Ideal.mulf_def, v5_apply, v10_apply]
  rfl

/-! ## The first layer -/

theorem v12_apply (k c : Fin 128) : val_main_v12 (F := Ideal) W1 (ix2 k c) = W1 (ix2 c k) := by
  rw [val_main_v12_apply]
  refine congrArg W1 ?_
  funext a; match a with | ⟨0, _⟩ => rfl | ⟨1, _⟩ => rfl

theorem v13_apply (j : Fin 10000) (c : Fin 128) :
    val_main_v13 (F := Ideal) X W1 (ix2 j c) = ∑ k : Fin 128, X (ix2 j k) * W1 (ix2 c k) := by
  rw [val_main_v13_apply]
  refine Finset.sum_congr rfl fun k _ => ?_
  have hl : lidx_main_v13 (ix2 j c) k = ix2 j k := by funext a; match a with | ⟨0, _⟩ => rfl | ⟨1, _⟩ => rfl
  have hr : ridx_main_v13 (ix2 j c) k = ix2 k c := by funext a; match a with | ⟨0, _⟩ => rfl | ⟨1, _⟩ => rfl
  rw [hl, hr, v12_apply]

theorem v15_apply (j : Fin 10000) (c : Fin 128) : val_main_v15 (F := Ideal) b1 (ix2 j c) = b1 (ix1 c) := by
  rw [val_main_v15_apply, val_main_v14_apply]
  refine congrArg b1 ?_
  funext a; match a with | ⟨0, _⟩ => rfl

theorem v16_apply (j : Fin 10000) (c : Fin 128) :
    val_main_v16 (F := Ideal) X W1 b1 (ix2 j c) = lin1 X W1 b1 j c := by
  rw [val_main_v16_apply, Ideal.addf_def, v13_apply, v15_apply]
  rfl

/-! ## The scaled array times the first layer, and the maximum with zero -/

theorem v17_apply (i : Fin 10000) (c : Fin 128) :
    val_main_v17 (F := Ideal) X T W1 b1 (ix2 i c) = hRef X T W1 b1 i c := by
  rw [val_main_v17_apply]
  unfold hRef
  refine Finset.sum_congr rfl fun j _ => ?_
  have hl : lidx_main_v17 (ix2 i c) j = ix2 i j := by funext a; match a with | ⟨0, _⟩ => rfl | ⟨1, _⟩ => rfl
  have hr : ridx_main_v17 (ix2 i c) j = ix2 j c := by funext a; match a with | ⟨0, _⟩ => rfl | ⟨1, _⟩ => rfl
  rw [hl, hr, v11_apply, v16_apply]

theorem v18_apply (p : S10000x128.Idx) : val_main_v18 (F := Ideal) p = 0 := by
  rw [val_main_v18_apply, val_main_cst_3_apply, Ideal.ofBits_def, Ideal.ofBits_zero_f32]

theorem v19_apply (i : Fin 10000) (c : Fin 128) :
    val_main_v19 (F := Ideal) X T W1 b1 (ix2 i c) = rRef X T W1 b1 i c := by
  rw [val_main_v19_apply, Ideal.maximumf_def, v17_apply, v18_apply]
  rfl

/-! ## The second layer -/

theorem v20_apply (c : Fin 128) (d : Fin 32) : val_main_v20 (F := Ideal) W2 (ix2 c d) = W2 (ix2 d c) := by
  rw [val_main_v20_apply]
  refine congrArg W2 ?_
  funext a; match a with | ⟨0, _⟩ => rfl | ⟨1, _⟩ => rfl

theorem v21_apply (j : Fin 10000) (d : Fin 32) :
    val_main_v21 (F := Ideal) X T W1 b1 W2 (ix2 j d) = ∑ c : Fin 128, rRef X T W1 b1 j c * W2 (ix2 d c) := by
  rw [val_main_v21_apply]
  refine Finset.sum_congr rfl fun c _ => ?_
  have hl : lidx_main_v21 (ix2 j d) c = ix2 j c := by funext a; match a with | ⟨0, _⟩ => rfl | ⟨1, _⟩ => rfl
  have hr : ridx_main_v21 (ix2 j d) c = ix2 c d := by funext a; match a with | ⟨0, _⟩ => rfl | ⟨1, _⟩ => rfl
  rw [hl, hr, v19_apply, v20_apply]

theorem v23_apply (j : Fin 10000) (d : Fin 32) : val_main_v23 (F := Ideal) b2 (ix2 j d) = b2 (ix1 d) := by
  rw [val_main_v23_apply, val_main_v22_apply]
  refine congrArg b2 ?_
  funext a; match a with | ⟨0, _⟩ => rfl

theorem v24_apply (j : Fin 10000) (d : Fin 32) :
    val_main_v24 (F := Ideal) X T W1 b1 W2 b2 (ix2 j d) = oRef X T W1 b1 W2 b2 j d := by
  rw [val_main_v24_apply, Ideal.addf_def, v21_apply, v23_apply]
  rfl

/-! ## The result -/

/-- The last stage is the specification's reference arrangement. -/
theorem v25_eq : val_main_v25 (F := Ideal) X T W1 b1 W2 b2 = refOut X T W1 b1 W2 b2 := by
  funext p
  obtain ⟨i, d, rfl⟩ : ∃ i d, p = ix2 i d := ⟨p 0, p 1, eq_ix2 p⟩
  rw [val_main_v25_apply]
  show _ = ∑ j : Fin 10000, nrm T i j * oRef X T W1 b1 W2 b2 j d
  refine Finset.sum_congr rfl fun j _ => ?_
  have hl : lidx_main_v25 (ix2 i d) j = ix2 i j := by funext a; match a with | ⟨0, _⟩ => rfl | ⟨1, _⟩ => rfl
  have hr : ridx_main_v25 (ix2 i d) j = ix2 j d := by funext a; match a with | ⟨0, _⟩ => rfl | ⟨1, _⟩ => rfl
  rw [hl, hr, v11_apply, v24_apply]

/-- The composed term the reference's run ends at, of the six argument arrays, is the specification's reference
    arrangement: the term is the last stage by definition. -/
theorem result_eq :
    Host.dotGeneral dot_S10000x10000_S10000x32_S10000x32_1_0_0_1_n_n none (mulf (mulf (broadcastInDim S10000x10000
      ![0, 1] bcast_S1x10000_S10000x10000_0_1 (broadcastInDim S1x10000 ![1] bcast_S10000_S1x10000_1 (Host.powf
      (Host.reduceAdd T (constant S_ .f32 0x00000000#32) reducesTo_S10000x10000_S10000_d0 h_S_) (broadcastInDim S10000
      ![] bcast_S_S10000 (constant S_ .f32 0x3F000000#32))))) T) (broadcastInDim S10000x10000 ![0, 1]
      bcast_S1x10000_S10000x10000_0_1 (broadcastInDim S1x10000 ![1] bcast_S10000_S1x10000_1 (Host.powf (Host.reduceAdd
      T (constant S_ .f32 0x00000000#32) reducesTo_S10000x10000_S10000_d1 h_S_) (broadcastInDim S10000 ![]
      bcast_S_S10000 (constant S_ .f32 0x3F000000#32)))))) (addf (Host.dotGeneral
      dot_S10000x128_S128x32_S10000x32_1_0_0_1_n_n none (maximumf (Host.dotGeneral
      dot_S10000x10000_S10000x128_S10000x128_1_0_0_1_n_n none (mulf (mulf (broadcastInDim S10000x10000 ![0, 1]
      bcast_S1x10000_S10000x10000_0_1 (broadcastInDim S1x10000 ![1] bcast_S10000_S1x10000_1 (Host.powf (Host.reduceAdd
      T (constant S_ .f32 0x00000000#32) reducesTo_S10000x10000_S10000_d0 h_S_) (broadcastInDim S10000 ![]
      bcast_S_S10000 (constant S_ .f32 0x3F000000#32))))) T) (broadcastInDim S10000x10000 ![0, 1]
      bcast_S1x10000_S10000x10000_0_1 (broadcastInDim S1x10000 ![1] bcast_S10000_S1x10000_1 (Host.powf (Host.reduceAdd
      T (constant S_ .f32 0x00000000#32) reducesTo_S10000x10000_S10000_d1 h_S_) (broadcastInDim S10000 ![]
      bcast_S_S10000 (constant S_ .f32 0x3F000000#32)))))) (addf (Host.dotGeneral
      dot_S10000x128_S128x128_S10000x128_1_0_0_1_n_n none X (transpose S128x128 [1, 0] W1
      transposes_S128x128_S128x128_1_0)) (broadcastInDim S10000x128 ![0, 1] bcast_S1x128_S10000x128_0_1
      (broadcastInDim S1x128 ![1] bcast_S128_S1x128_1 b1)))) (broadcastInDim S10000x128 ![] bcast_S_S10000x128
      (constant S_ .f32 0x00000000#32))) (transpose S128x32 [1, 0] W2 transposes_S32x128_S128x32_1_0)) (broadcastInDim
      S10000x32 ![0, 1] bcast_S1x32_S10000x32_0_1 (broadcastInDim S1x32 ![1] bcast_S32_S1x32_1 b2)))
    = refOut X T W1 b1 W2 b2 :=
  (val_main_v25_eq (F := Ideal) X T W1 b1 W2 b2).trans (v25_eq X T W1 b1 W2 b2)

end Cert.RefValue

end
-- ==== Proof.Algebraic.lean ====
/-
  The algebraic claim. The idealized kernel's result array after its run is the kernel's arrangement of the graph
  convolution pair of the argument arrays (three regions: the bf16 copy, the column factor and the scaled first layer;
  then the scaled second layer; then the last product), the reference's result is the reference's arrangement, and under the
  precondition — every entry of the adjacency array real, every column sum and row sum non-negative — the two arrangements
  are one function.
-/
import proofs.«162869_g88759794139180_cont_sun_c4_43_14_alg».proof.Defs
import proofs.«162869_g88759794139180_cont_sun_c4_43_14_alg».proof.Proof.Frames
import proofs.«162869_g88759794139180_cont_sun_c4_43_14_alg».proof.Proof.KIValue
import proofs.«162869_g88759794139180_cont_sun_c4_43_14_alg».proof.Proof.KIInputs
import proofs.«162869_g88759794139180_cont_sun_c4_43_14_alg».proof.Proof.Law
import proofs.«162869_g88759794139180_cont_sun_c4_43_14_alg».proof.Proof.PreFacts
import proofs.«162869_g88759794139180_cont_sun_c4_43_14_alg».proof.Proof.RefIs

noncomputable section

namespace Cert.Proof.Alg

open Idealize.ShloMosaic Idealize.ShloMosaic.TcCoe Idealize.SL.Sem

theorem algebraic : Cert.algebraic_KernelIdeal_ReferenceIdeal := by
  intro m ρ m' ρ' hpre hagree
  refine ⟨fun c => Cert.Spec.refOut (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)), ?_, ?_⟩
  · refine (θ_run Cert.KernelIdeal.defs _ _).mono (fun r h c => ?_) (Cert.KernelIdeal.Hand.run (F := Ideal) m ρ)
    refine ⟨?_,
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c)⟩
    refine (h c _ (Cert.KernelIdeal.Hand.mem_uc Cert.KernelIdeal.main_v6 (by decide))).trans ?_
    refine (Cert.KernelIdeal.HandValue.result_eq m ρ c (Cert.KernelIdeal.HandValue.copy_apply m ρ c) (Cert.KernelIdeal.HandValue.hs_apply m ρ c)
      (Cert.KernelIdeal.HandValue.scale_apply m ρ c)).trans ?_
    exact Cert.Spec.kerOut_eq_refOut _ _ _ _ _ _ (Cert.PreFacts.T_real _ _ _ _ _ _ (hpre c)) (Cert.PreFacts.colSum_nonneg _ _ _ _ _ _ (hpre c))
      (Cert.PreFacts.rowSum_nonneg _ _ _ _ _ _ (hpre c))
  · refine (θ_run Cert.ReferenceIdeal.defs _ _).mono (fun r h c => ⟨(h c).1.trans ?_, (h c).2⟩) (Cert.ReferenceIdeal.Value.run (F := Ideal) m' ρ')
    rw [(hagree c).1, (hagree c).2.1, (hagree c).2.2.1, (hagree c).2.2.2.1, (hagree c).2.2.2.2.1, (hagree c).2.2.2.2.2]
    exact Cert.RefValue.result_eq _ _ _ _ _ _

end Cert.Proof.Alg

end
-- ==== Proof.lean ====
/-
  The claim: the three programs' frames, the idealization claim, and the equality of the two idealized programs' results
  as extended reals. The kernel is a two-layer graph convolution that folds the adjacency array's one column factor
  √(row sum · column sum) onto its small right-hand operands instead of scaling the 10000 × 10000 array; the reference
  scales the array by (column sum)^½ and (row sum)^½. They agree where those sums are non-negative reals, which the
  precondition states; outside that domain the reference's power is undefined.
-/
import proofs.«162869_g88759794139180_cont_sun_c4_43_14_alg».proof.Defs
import proofs.«162869_g88759794139180_cont_sun_c4_43_14_alg».proof.Proof.Frames
import proofs.«162869_g88759794139180_cont_sun_c4_43_14_alg».proof.Proof.Algebraic
import proofs.«162869_g88759794139180_cont_sun_c4_43_14_alg».proof.Proof.Gen.Kernel
import proofs.«162869_g88759794139180_cont_sun_c4_43_14_alg».proof.Proof.Gen.KernelIdeal
import proofs.«162869_g88759794139180_cont_sun_c4_43_14_alg».proof.Proof.Gen.ReferenceIdeal
import proofs.«162869_g88759794139180_cont_sun_c4_43_14_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Alg.algebraic⟩

end Cert.Proof

end
